-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x64 : Shape := ⟨2, ![8192, 64]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S512x1024 .f32) (main_arg15 : FVec F S1024 .f32) (main_v63 : IVec S_ 1) (main_v67 : IVec S_ 1) : IVec S_ 1 :=
  let main_v68 : IVec S_ 1 := andi main_v63 main_v67
  let main_v69 : FVec F S512x1024 .f32 := Host.absf main_arg14
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S64 .f32) (main_arg12 : FVec F S64x512 .f32) (main_arg13 : FVec F S512 .f32) (main_arg14 : FVec F S512x1024 .f32) (main_arg15 : FVec F S1024 .f32) (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x512 .f32 := Host.absf main_arg12
  let main_cst_22 : FVec F S_ .f32 := constant S_ .f32 0x7F800000#32
  let main_v60 : FVec F S64x512 .f32 := broadcastInDim S64x512 ![] bcast_S_S64x512 main_cst_22
  let main_v61 : IVec S64x512 1 := cmpf .olt main_v59 main_v60
  let main_c_23 : IVec S_ 1 := constantI S_ 1 1#1
  let main_v62 : IVec S_ 1 := (fun x v => Host.reduce IntOp.andi x v reducesTo_S64x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S64 .f32) (main_arg8 : FVec F S1024x512 .f32) (main_arg9 : FVec F S512 .f32) (main_arg10 : FVec F S512x64 .f32) (main_arg11 : FVec F S64 .f32) (main_arg12 : FVec F S64x512 .f32) (main_arg13 : FVec F S512 .f32) (main_arg14 : FVec F S512x1024 .f32) (main_arg15 : FVec F S1024 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x64 .f32 := Host.absf main_arg10
  let main_cst_18 : FVec F S_ .f32 := constant S_ .f32 0x7F800000#32
  let main_v50 : FVec F S512x64 .f32 := broadcastInDim S512x64 ![] bcast_S_S512x64 main_cst_18
  fn_part3 (F := F) main_arg11 main_arg12 main_arg13 main_arg14 main_arg15 main_v48 main_v49 main_v50

def fn_part1 {F : FTy → Type} [FloatOps F] (main_arg4 : FVec F S1024x512 .f32) (main_arg5 : FVec F S512 .f32) (main_arg6 : FVec F S512x64 .f32) (main_arg7 : FVec F S64 .f32) (main_arg8 : FVec F S1024x512 .f32) (main_arg9 : FVec F S512 .f32) (main_arg10 : FVec F S512x64 .f32) (main_arg11 : FVec F S64 .f32) (main_arg12 : FVec F S64x512 .f32) (main_arg13 : FVec F S512 .f32) (main_arg14 : FVec F S512x1024 .f32) (main_arg15 : FVec F S1024 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x64 .f32 := Host.absf main_arg6
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x1024 .f32) (main_arg1 : FVec F S8192x64 .f32) (main_arg2 : FVec F S8192x64 .f32) (main_arg3 : FVec F S8192x64 .f32) (main_arg4 : FVec F S1024x512 .f32) (main_arg5 : FVec F S512 .f32) (main_arg6 : FVec F S512x64 .f32) (main_arg7 : FVec F S64 .f32) (main_arg8 : FVec F S1024x512 .f32) (main_arg9 : FVec F S512 .f32) (main_arg10 : FVec F S512x64 .f32) (main_arg11 : FVec F S64 .f32) (main_arg12 : FVec F S64x512 .f32) (main_arg13 : FVec F S512 .f32) (main_arg14 : FVec F S512x1024 .f32) (main_arg15 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x1024 : Shape := ⟨2, ![8192, 1024]⟩
abbrev S8192x64 : Shape := ⟨2, ![8192, 64]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024 : Shape := ⟨1, ![1024]⟩
abbrev S1x1 : Shape := ⟨2, ![1, 1]⟩
abbrev S512x512 : Shape := ⟨2, ![512, 512]⟩
abbrev S1x512 : Shape := ⟨2, ![1, 512]⟩
abbrev S1x64 : Shape := ⟨2, ![1, 64]⟩
abbrev S1x1024 : Shape := ⟨2, ![1, 1024]⟩
abbrev S512x1 : Shape := ⟨2, ![512, 1]⟩
abbrev S1 : Shape := ⟨1, ![1]⟩
abbrev S_ : Shape := ⟨0, ![]⟩

abbrev nBuf : Space → Nat
  | .hbm => 28
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S1024x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S1024x512, .f32⟩
  | .hbm, ⟨9, _⟩ => ⟨S512, .f32⟩
  | .hbm, ⟨10, _⟩ => ⟨S512x64, .f32⟩
  | .hbm, ⟨11, _⟩ => ⟨S64, .f32⟩
  | .hbm, ⟨12, _⟩ => ⟨S64x512, .f32⟩
  | .hbm, ⟨13, _⟩ => ⟨S512, .f32⟩
  | .hbm, ⟨14, _⟩ => ⟨S512x1024, .f32⟩
  | .hbm, ⟨15, _⟩ => ⟨S1024, .f32⟩
  | .hbm, ⟨16, _⟩ => ⟨S8192x64, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S1024x512, .f32⟩
  | .local _ .vmem, ⟨7, _⟩ => ⟨S512, .f32⟩
  | .local _ .vmem, ⟨8, _⟩ => ⟨S512x64, .f32⟩
  | .local _ .vmem, ⟨9, _⟩ => ⟨S64, .f32⟩
  | .local _ .vmem, ⟨10, _⟩ => ⟨S1024x512, .f32⟩
  | .local _ .vmem, ⟨11, _⟩ => ⟨S512, .f32⟩
  | .local _ .vmem, ⟨12, _⟩ => ⟨S512x64, .f32⟩
  | .local _ .vmem, ⟨13, _⟩ => ⟨S64, .f32⟩
  | .local _ .vmem, ⟨14, _⟩ => ⟨S64x512, .f32⟩
  | .local _ .vmem, ⟨15, _⟩ => ⟨S512, .f32⟩
  | .local _ .vmem, ⟨16, _⟩ => ⟨S512x1024, .f32⟩
  | .local _ .vmem, ⟨17, _⟩ => ⟨S1024, .f32⟩
  | .local _ .vmem, ⟨18, _⟩ => ⟨S512x64, .f32⟩
  | .local _ .vmem, ⟨19, _⟩ => ⟨S512x64, .f32⟩
  | .local _ .vmem, ⟨20, _⟩ => ⟨S1x1, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | .local _ .vmem, ⟨28, _⟩ => ⟨S512x64, .f32⟩
  | .local _ .vmem, ⟨29, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x512_S64x512_0_0 : ∀ a, (![0, 0] : Fin 2 → Nat) a + S64x512.size a ≤ S64x512.size a
  h_S64x512 : 0 < S64x512.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  shapeCasts_S512x64_S512x64 : S512x64.ShapeCasts S512x64
  reduces_S512x64_S512 : S512x64.Reduces [1] S512
  transposes_S512x1_p1_0_S1x512 : S512x1.Transposes [1, 0] S1x512
  transposes_S512x64_p1_0_S64x512 : S512x64.Transposes [1, 0] S64x512
  broadcasts_S512x1_S512x512 : S512x1.Broadcasts S512x512
  reduces_S512x512_S512 : S512x512.Reduces [1] S512
  dot_S512x1024_S1024x512_S512x512_1_0_0_1_n_n_wf : DotDims.WF S512x1024 S1024x512 S512x512 [1] [0] [0] [1] [] []
  dot_S512x512_S512x64_S512x64_1_0_0_1_n_n_wf : DotDims.WF S512x512 S512x64 S512x64 [1] [0] [0] [1] [] []
  dot_S512x64_S64x512_S512x512_1_0_0_1_n_n_wf : DotDims.WF S512x64 S64x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .f32 = 32 ∨ (Rect.block (s := S1024x512) S1024x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S512x64.size a
  hwx0_9 : ∀ i : grid0.Coords, EltTy.bits .f32 = 32 ∨ (Rect.block (s := S512x64) S512x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x512.size a ≤ S64x512.size a
  hwx0_11 : ∀ i : grid0.Coords, EltTy.bits .f32 = 32 ∨ (Rect.block (s := S64x512) S64x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S512x1024.size a
  hwx0_13 : ∀ i : grid0.Coords, EltTy.bits .f32 = 32 ∨ (Rect.block (s := S512x1024) S512x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x64.size a ≤ S8192x64.size a
  hwx0_15 : ∀ i : grid0.Coords, EltTy.bits .f32 = 32 ∨ (Rect.block (s := S8192x64) S512x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S8192x64.size a
  hwx1_1 : ∀ i : grid1.Coords, EltTy.bits .f32 = 32 ∨ (Rect.block (s := S8192x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S8192x64.size a
  hwx1_2 : ∀ i : grid1.Coords, EltTy.bits .f32 = 32 ∨ (Rect.block (s := S8192x64) S512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S8192x64.size a
  hwx1_3 : ∀ i : grid1.Coords, EltTy.bits .f32 = 32 ∨ (Rect.block (s := S8192x64) S512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S512x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S64x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S512x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S512x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S1x1.size cc0_transform_16 reads0_16 true true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v0_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x64 : Shape := ⟨2, ![8192, 64]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024 : Shape := ⟨1, ![1024]⟩
abbrev S8192x512 : Shape := ⟨2, ![8192, 512]⟩
abbrev S1x512 : Shape := ⟨2, ![1, 512]⟩
abbrev S_ : Shape := ⟨0, ![]⟩
abbrev S1x64 : Shape := ⟨2, ![1, 64]⟩
abbrev S1x1024 : Shape := ⟨2, ![1, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 190
  | .vmem => 0
  | .smem => 0
  | _ => 0

abbrev hbmTy0_0 (i : Nat) : BufTy := match i % 128 with
  | 0 => ⟨S8192x1024, .f32⟩
  | 1 => ⟨S8192x64, .f32⟩
  | 2 => ⟨S8192x64, .f32⟩
  | 3 => ⟨S8192x64, .f32⟩
  | 4 => ⟨S1024x512, .f32⟩
  | 5 => ⟨S512, .f32⟩
  | 6 => ⟨S512x64, .f32⟩
  | 7 => ⟨S64, .f32⟩
  | 8 => ⟨S1024x512, .f32⟩
  | 9 => ⟨S512, .f32⟩
  | 10 => ⟨S512x64, .f32⟩
  | 11 => ⟨S64, .f32⟩
  | 12 => ⟨S64x512, .f32⟩
  | 13 => ⟨S512, .f32⟩
  | 14 => ⟨S512x1024, .f32⟩
  | 15 => ⟨S1024, .f32⟩
  | 16 => ⟨S8192x512, .f32⟩
  | 17 => ⟨S1x512, .f32⟩
  | 18 => ⟨S8192x512, .f32⟩
  | 19 => ⟨S8192x512, .f32⟩
  | 20 => ⟨S_, .f32⟩
  | 21 => ⟨S8192x512, .f32⟩
  | 22 => ⟨S8192x512, .i1⟩
  | 23 => ⟨S_, .f32⟩
  | 24 => ⟨S8192x512, .f32⟩
  | 25 => ⟨S8192x512, .f32⟩
  | 26 => ⟨S8192x512, .f32⟩
  | 27 => ⟨S8192x64, .f32⟩
  | 28 => ⟨S1x64, .f32⟩
  | 29 => ⟨S8192x64, .f32⟩
  | 30 => ⟨S8192x64, .f32⟩
  | 31 => ⟨S_, .f32⟩
  | 32 => ⟨S8192x64, .f32⟩
  | 33 => ⟨S8192x64, .i1⟩
  | 34 => ⟨S_, .f32⟩
  | 35 => ⟨S8192x64, .f32⟩
  | 36 => ⟨S8192x64, .f32⟩
  | 37 => ⟨S8192x64, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x64, .f32⟩
  | 44 => ⟨S1x64, .f32⟩
  | 45 => ⟨S8192x64, .f32⟩
  | 46 => ⟨S8192x64, .f32⟩
  | 47 => ⟨S_, .f32⟩
  | 48 => ⟨S8192x64, .f32⟩
  | 49 => ⟨S8192x64, .i1⟩
  | 50 => ⟨S_, .f32⟩
  | 51 => ⟨S8192x64, .f32⟩
  | 52 => ⟨S8192x64, .f32⟩
  | 53 => ⟨S8192x64, .f32⟩
  | 54 => ⟨S_, .f32⟩
  | 55 => ⟨S_, .f32⟩
  | 56 => ⟨S_, .f32⟩
  | 57 => ⟨S8192x64, .f32⟩
  | 58 => ⟨S8192x64, .f32⟩
  | 59 => ⟨S_, .f32⟩
  | 60 => ⟨S8192x64, .f32⟩
  | 61 => ⟨S8192x64, .f32⟩
  | 62 => ⟨S_, .f32⟩
  | 63 => ⟨S8192x64, .f32⟩
  | 64 => ⟨S8192x64, .f32⟩
  | 65 => ⟨S8192x64, .f32⟩
  | 66 => ⟨S8192x64, .f32⟩
  | 67 => ⟨S8192x64, .f32⟩
  | 68 => ⟨S8192x512, .f32⟩
  | 69 => ⟨S1x512, .f32⟩
  | 70 => ⟨S8192x512, .f32⟩
  | 71 => ⟨S8192x512, .f32⟩
  | 72 => ⟨S_, .f32⟩
  | 73 => ⟨S8192x512, .f32⟩
  | 74 => ⟨S8192x512, .i1⟩
  | 75 => ⟨S_, .f32⟩
  | 76 => ⟨S8192x512, .f32⟩
  | 77 => ⟨S8192x512, .f32⟩
  | 78 => ⟨S8192x512, .f32⟩
  | 79 => ⟨S8192x1024, .f32⟩
  | 80 => ⟨S1x1024, .f32⟩
  | 81 => ⟨S8192x1024, .f32⟩
  | 82 => ⟨S8192x1024, .f32⟩
  | 83 => ⟨S_, .f32⟩
  | 84 => ⟨S8192x1024, .f32⟩
  | 85 => ⟨S8192x1024, .i1⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S_, .f32⟩
  | 94 => ⟨S_, .f32⟩
  | 95 => ⟨S_, .f32⟩
  | 96 => ⟨S_, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S_, .f32⟩
  | 104 => ⟨S8192, .f32⟩
  | 105 => ⟨S8192x1, .f32⟩
  | 106 => ⟨S8192x64, .f32⟩
  | 107 => ⟨S_, .f32⟩
  | 108 => ⟨S8192, .f32⟩
  | 109 => ⟨S8192x1, .f32⟩
  | 110 => ⟨S1x8192, .f32⟩
  | 111 => ⟨S8192x8192, .f32⟩
  | 112 => ⟨S8192x8192, .f32⟩
  | 113 => ⟨S8192x8192, .f32⟩
  | 114 => ⟨S64x8192, .f32⟩
  | 115 => ⟨S8192x8192, .f32⟩
  | 116 => ⟨S_, .f32⟩
  | 117 => ⟨S8192x8192, .f32⟩
  | 118 => ⟨S8192x8192, .f32⟩
  | 119 => ⟨S8192x8192, .f32⟩
  | 120 => ⟨S8192x8192, .f32⟩
  | 121 => ⟨S_, .f32⟩
  | 122 => ⟨S8192x8192, .f32⟩
  | 123 => ⟨S8192x8192, .f32⟩
  | 124 => ⟨S8192x8192, .f32⟩
  | 125 => ⟨S8192x64, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x64, .f32⟩
  | 2 => ⟨S_, .f32⟩
  | 3 => ⟨S8192, .f32⟩
  | 4 => ⟨S8192x1, .f32⟩
  | 5 => ⟨S1x8192, .f32⟩
  | 6 => ⟨S8192x8192, .f32⟩
  | 7 => ⟨S8192x8192, .f32⟩
  | 8 => ⟨S8192x8192, .f32⟩
  | 9 => ⟨S64x8192, .f32⟩
  | 10 => ⟨S8192x8192, .f32⟩
  | 11 => ⟨S_, .f32⟩
  | 12 => ⟨S8192x8192, .f32⟩
  | 13 => ⟨S8192x8192, .f32⟩
  | 14 => ⟨S8192x8192, .f32⟩
  | 15 => ⟨S8192x8192, .f32⟩
  | 16 => ⟨S_, .f32⟩
  | 17 => ⟨S8192x8192, .f32⟩
  | 18 => ⟨S8192x8192, .f32⟩
  | 19 => ⟨S8192x8192, .f32⟩
  | 20 => ⟨S8192x64, .f32⟩
  | 21 => ⟨S_, .f32⟩
  | 22 => ⟨S8192, .f32⟩
  | 23 => ⟨S8192x1, .f32⟩
  | 24 => ⟨S8192x64, .f32⟩
  | 25 => ⟨S_, .f32⟩
  | 26 => ⟨S8192, .f32⟩
  | 27 => ⟨S8192x1, .f32⟩
  | 28 => ⟨S1x8192, .f32⟩
  | 29 => ⟨S8192x8192, .f32⟩
  | 30 => ⟨S8192x8192, .f32⟩
  | 31 => ⟨S8192x8192, .f32⟩
  | 32 => ⟨S64x8192, .f32⟩
  | 33 => ⟨S8192x8192, .f32⟩
  | 34 => ⟨S_, .f32⟩
  | 35 => ⟨S8192x8192, .f32⟩
  | 36 => ⟨S8192x8192, .f32⟩
  | 37 => ⟨S8192x8192, .f32⟩
  | 38 => ⟨S8192x8192, .f32⟩
  | 39 => ⟨S_, .f32⟩
  | 40 => ⟨S8192x8192, .f32⟩
  | 41 => ⟨S8192x8192, .f32⟩
  | 42 => ⟨S8192x8192, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_cst_6 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_16 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_18 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_21 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_23 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_26 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_27 : Ref sig .tc := ⟨.hbm, 171, rfl⟩
abbrev main_v122 : Ref sig .tc := ⟨.hbm, 172, rfl⟩
abbrev main_cst_28 : Ref sig .tc := ⟨.hbm, 173, rfl⟩
abbrev main_v123 : Ref sig .tc := ⟨.hbm, 174, rfl⟩
abbrev main_cst_29 : Ref sig .tc := ⟨.hbm, 175, rfl⟩
abbrev main_v124 : Ref sig .tc := ⟨.hbm, 176, rfl⟩
abbrev main_cst_30 : Ref sig .tc := ⟨.hbm, 177, rfl⟩
abbrev main_v125 : Ref sig .tc := ⟨.hbm, 178, rfl⟩
abbrev main_v126 : Ref sig .tc := ⟨.hbm, 179, rfl⟩
abbrev main_cst_31 : Ref sig .tc := ⟨.hbm, 180, rfl⟩
abbrev main_v127 : Ref sig .tc := ⟨.hbm, 181, rfl⟩
abbrev main_cst_32 : Ref sig .tc := ⟨.hbm, 182, rfl⟩
abbrev main_v128 : Ref sig .tc := ⟨.hbm, 183, rfl⟩
abbrev main_cst_33 : Ref sig .tc := ⟨.hbm, 184, rfl⟩
abbrev main_v129 : Ref sig .tc := ⟨.hbm, 185, rfl⟩
abbrev main_v130 : Ref sig .tc := ⟨.hbm, 186, rfl⟩
abbrev main_cst_34 : Ref sig .tc := ⟨.hbm, 187, rfl⟩
abbrev main_v131 : Ref sig .tc := ⟨.hbm, 188, rfl⟩
abbrev main_v132 : Ref sig .tc := ⟨.hbm, 189, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S_d0_1 : S8192x1024.ReducesTo [0, 1] S_
  h_S_ : 0 < S_.numel
  reducesTo_S8192x64_S8192_d1 : S8192x64.ReducesTo [1] S8192
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x1024_S1024x512_S8192x512_1_0_0_1_n_n_wf : DotDims.WF S8192x1024 S1024x512 S8192x512 [1] [0] [0] [1] [] []
  dot_S8192x512_S512x64_S8192x64_1_0_0_1_n_n_wf : DotDims.WF S8192x512 S512x64 S8192x64 [1] [0] [0] [1] [] []
  dot_S8192x64_S64x512_S8192x512_1_0_0_1_n_n_wf : DotDims.WF S8192x64 S64x512 S8192x512 [1] [0] [0] [1] [] []
  dot_S8192x512_S512x1024_S8192x1024_1_0_0_1_n_n_wf : DotDims.WF S8192x512 S512x1024 S8192x1024 [1] [0] [0] [1] [] []
  dot_S8192x64_S64x8192_S8192x8192_1_0_0_1_n_n_wf : DotDims.WF S8192x64 S64x8192 S8192x8192 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x512_S8192x512_1_0_0_1_n_n : DotDims S8192x64 S64x512 S8192x512 where
  lhsContracting := [1]
  rhsContracting := [0]
  lhsNonContracting := [0]
  rhsNonContracting := [1]
  lhsBatch := []
  rhsBatch := []
  wf := dot_S8192x64_S64x512_S8192x512_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Data.lean ====
/-
  The proof data of the two kernel regions, stated over the skeleton's payloads.

  Region 0 (the encoder / decoder tile kernel, 16 points along the batch axis): at point t the body is
  handed the t-th 512-row tile of x, of the two noise arrays, and the twelve weight and bias arrays whole.
  It leaves in the z window's buffer the tile's latent sample (a pure function of those blocks) and in the
  one-element error window's buffer the running sum: zero plus the tile's squared error at the first point,
  what the point before left plus the tile's squared error at every later point (the window's block index
  never moves, so its buffer is not written back between points).

  Region 1 (the pairwise kernel-sum kernel, 16 x 16 points): at point (i, j) the body is handed tile i and
  tile j of z and of z_prior and leaves in the one-element output window's buffer the running sum of
  s_xx + s_yy - 2 s_xy over the points so far, started from zero at point (0, 0).

  Every input window's buffer holds its block of the array as the region finds it. Both regions' arrays
  are read off a parameter V: the unscoped buffers' contents when the region is entered.
-/
import proofs.«125570_j13228499272255_1_alg».proof.Proof.Gen.Kernel.Launch
import proofs.«125570_j13228499272255_1_alg».proof.Proof.Gen.Kernel.Skeleton
import proofs.«125570_j13228499272255_1_alg».proof.Proof.Gen.Kernel.Points
import Idealize.ShloMosaic.Lib.Pipeline.FrameBody

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel.Gen

variable {F : FTy → Type} [FloatOps F]

variable (V : (c : Dev nD) → (b : Ref sig .tc) → Buf (Elt F) ((c : Thread nD τ).loc b))

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's mean head: leaky_relu(leaky_relu(x w1_mu + b1_mu) w2_mu + b2_mu). -/
def mean0 (c : Dev nD) (t : Fin cfg0.N) : FVec F S512x64 .f32 :=
  k0_pay4 (iblk0 V c 0 t) (iblk0 V c 3 t) (iblk0 V c 4 t) (iblk0 V c 5 t) (iblk0 V c 6 t)

/-- The tile's hidden layer of the variance head: tanh(x w1_sig + b1_sig). -/
def hsig0 (c : Dev nD) (t : Fin cfg0.N) : FVec F S512x512 .f32 :=
  k0_pay5 (iblk0 V c 0 t) (iblk0 V c 7 t) (iblk0 V c 8 t)

/-- The tile's latent sample z = mean + exp(logvar / 2) * noise_z: what point t stores in the z window. -/
def zTile (c : Dev nD) (t : Fin cfg0.N) : FVec F S512x64 .f32 :=
  k0_pay7 (mean0 V c t) (hsig0 V c t) (iblk0 V c 9 t) (iblk0 V c 10 t) (iblk0 V c 2 t)

/-- The decoder's first layer before its activation, on the tile. -/
def hdec0 (c : Dev nD) (t : Fin cfg0.N) : FVec F S512x512 .f32 :=
  k0_pay8 (mean0 V c t) (hsig0 V c t) (iblk0 V c 9 t) (iblk0 V c 10 t) (iblk0 V c 1 t) (iblk0 V c 11 t) (iblk0 V c 12 t)

/-- Where that layer is positive. -/
def hdecPos0 (c : Dev nD) (t : Fin cfg0.N) : IVec S512x512 1 :=
  k0_pay9 (mean0 V c t) (hsig0 V c t) (iblk0 V c 9 t) (iblk0 V c 10 t) (iblk0 V c 1 t) (iblk0 V c 11 t) (iblk0 V c 12 t)

/-- What point t stores in the error window, given what it loaded from it: that plus the tile's squared
    reconstruction error. -/
def sqStep (c : Dev nD) (t : Fin cfg0.N) (acc : Vec F S1x1 .f32) : FVec F S1x1 .f32 :=
  k0_pay1 (iblk0 V c 0 t) (hdec0 V c t) (hdecPos0 V c t) k0_pay10 (iblk0 V c 13 t) (iblk0 V c 14 t) acc

/-- The error window's buffer after the body at position n: started from the zero fill at the first point. -/
def sqAcc (c : Dev nD) : (n : ℕ) → n < cfg0.N → Vec F S1x1 .f32
  | 0, hn => sqStep V c ⟨0, hn⟩ k0_pay2
  | n + 1, hn => sqStep V c ⟨n + 1, hn⟩ (sqAcc c n (Nat.lt_of_succ_lt hn))

/-- Region 0's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => zTile V c t
    | ⟨16, _⟩ => sqAcc V c t.val t.isLt
    | ⟨n + 17, h⟩ => absurd (show n + 17 < 17 from h) (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## Region 1 -/

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point t stores in the output window, given what it loaded from it: that plus
    s_xx + s_yy - 2 s_xy of the point's four tiles. -/
def mmdStep (c : Dev nD) (t : Fin cfg1.N) (acc : Vec F S1x1 .f32) : FVec F S1x1 .f32 :=
  k1_pay1 (k1_pay4 (iblk1 V c 0 t) (iblk1 V c 1 t))
    (k1_pay6 (iblk1 V c 2 t) (iblk1 V c 3 t) (k1_pay5 (iblk1 V c 2 t)))
    (k1_pay7 (k1_pay3 (iblk1 V c 0 t)) (iblk1 V c 3 t)) acc

/-- The output window's buffer after the body at position n: started from the zero fill at the first point. -/
def mmdAcc (c : Dev nD) : (n : ℕ) → n < cfg1.N → Vec F S1x1 .f32
  | 0, hn => mmdStep V c ⟨0, hn⟩ k1_pay2
  | n + 1, hn => mmdStep V c ⟨n + 1, hn⟩ (mmdAcc c n (Nat.lt_of_succ_lt hn))

/-- Half of an array for each of the two input windows that read it. -/
def halfL : PosShare TreeShare := fullShare.left
def halfR : PosShare TreeShare := fullShare.right

/-- Region 1's proof data on core c: windows 0 and 1 read z, windows 2 and 3 read z_prior, half a share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => mmdAcc V c t.val t.isLt
    | ⟨n + 5, h⟩ => absurd (show n + 5 < 5 from h) (Nat.not_lt.2 (Nat.le_add_left _ _))
  Φ _ := Pipeline.ΦA spec1 c
  q w := match w with
    | ⟨0, _⟩ => halfL
    | ⟨1, _⟩ => halfR
    | ⟨2, _⟩ => halfL
    | ⟨3, _⟩ => halfR
    | ⟨4, _⟩ => fullShare
    | ⟨n + 5, h⟩ => absurd (show n + 5 < 5 from h) (Nat.not_lt.2 (Nat.le_add_left _ _))
  owed _ := 0

theorem A_eq1 (c : Dev nD) (w : Fin cfg1.W) : (dat1 V c).A w = V c (Pipeline.arrRef spec1 w) := by
  dsimp only [dat1]

end Cert.Kernel.Hand

end
-- ==== Proof.K.Run.lean ====
/-
  The run of @main over its four segments: the encoder / decoder region, three host operations, the
  pairwise kernel-sum region, six host operations, given the two regions' body obligations.

  Between two segments a core holds every unscoped buffer whole at a valuation: the launch memory, then
  the first region's two output arrays at what its write-backs leave, then the fold of the host operations,
  then the second region's output array at what its write-backs leave, then the fold of the last host
  operations. The second region reads one array through two windows, so its arrays are dealt by hand: the
  array behind two windows is split along the share into the two halves its proof data name and joined
  back at the exit, where an input window's array holds what it held at entry.
-/
import proofs.«125570_j13228499272255_1_alg».proof.Proof.K.Data
import proofs.«125570_j13228499272255_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)
/-- The same read at the TensorCore's references: the first region's entry contents. -/
abbrev V0 : (c : Dev nD) → (b : Ref sig .tc) → Buf (Elt F) ((c : Thread nD τ).loc b) := fun c b => W0 m ρ c b
/-- At the first region's exit: each of its arrays at what the pipeline leaves (an input as entered, an output's
    write-backs folded), every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The latent sample's array after the first region. -/
theorem W1_z (c : Dev nD) : W1 m ρ c (Proc.devRef .tc main_v0_0) = (dat0 (V0 m ρ) c).arrAt 15 cfg0.N :=
  W1_arr m ρ c 15
/-- The squared-error accumulator's array after the first region. -/
theorem W1_sq (c : Dev nD) : W1 m ρ c (Proc.devRef .tc main_v0_1) = (dat0 (V0 m ρ) c).arrAt 16 cfg0.N :=
  W1_arr m ρ c 16
/-- An input window's array leaves the first region as it entered. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))

/-- After the three host operations: the second region's entry. -/
abbrev W2 : Dev nD → Valuation τ sig (Elt F) := fun c => StableHlo.after hostOps1 (W1 m ρ c)
/-- The same read at the TensorCore's references. -/
abbrev V2 : (c : Dev nD) → (b : Ref sig .tc) → Buf (Elt F) ((c : Thread nD τ).loc b) := fun c b => W2 m ρ c b
/-- At the second region's exit: its output array at what the pipeline leaves, every other buffer as entered. -/
def W3 (c : Dev nD) : Valuation τ sig (Elt F) :=
  Function.update (W2 m ρ c) (Proc.devRef .tc main_v3) ((dat1 (V2 m ρ) c).arrAt 4 cfg1.N)
theorem W3_out (c : Dev nD) : W3 m ρ c (Proc.devRef .tc main_v3) = (dat1 (V2 m ρ) c).arrAt 4 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
/-- After the last six host operations. -/
abbrev W4 : Dev nD → Valuation τ sig (Elt F) := fun c => StableHlo.after hostOps2 (W3 m ρ c)

/-! ### What no segment changes

  No host operation writes an argument or a region's array other than its own results, and a region changes
  only its output arrays: the fold at such a buffer walks back to an earlier boundary. -/

theorem W2_of_not_written (c : Dev nD) (r : Ref sig .tc) (h : r ∉ hostOps1_W) :
    W2 m ρ c (Proc.devRef .tc r) = W1 m ρ c (Proc.devRef .tc r) :=
  StableHlo.after_of_writes_sub hostOps1 _ hostOps1_writes h
theorem W4_of_not_written (c : Dev nD) (r : Ref sig .tc) (h : r ∉ hostOps2_W) :
    W4 m ρ c (Proc.devRef .tc r) = W3 m ρ c (Proc.devRef .tc r) :=
  StableHlo.after_of_writes_sub hostOps2 _ hostOps2_writes h

/-- An input window's array of the first region that no host operation writes and that is not the second
    region's output ends as launched. -/
theorem W4_of_window (c : Dev nD) (w : Fin cfg0.W) (hin : (cfg0.win w).isOut = false)
    (h1 : Pipeline.arrRef spec0 w ∉ hostOps1_W) (h2 : Pipeline.arrRef spec0 w ∉ hostOps2_W)
    (h3 : Pipeline.arrRef spec0 w ≠ main_v3) :
    W4 m ρ c (Proc.devRef .tc (Pipeline.arrRef spec0 w)) = m ((c : Thread nD τ).loc (Pipeline.arrRef spec0 w)) :=
  (W4_of_not_written m ρ c _ h2).trans <| (W3_of_ne m ρ c _ h3).trans <| (W2_of_not_written m ρ c _ h1).trans <|
    (W1_in m ρ c w hin).trans rfl

theorem W4_main_arg0 (c : Dev nD) : W4 m ρ c (Proc.devRef .tc main_arg0) = m ((c : Thread nD τ).loc main_arg0) :=
  W4_of_window m ρ c 0 rfl (by decide) (by decide) (by decide)
theorem W4_main_arg1 (c : Dev nD) : W4 m ρ c (Proc.devRef .tc main_arg1) = m ((c : Thread nD τ).loc main_arg1) :=
  W4_of_window m ρ c 1 rfl (by decide) (by decide) (by decide)
theorem W4_main_arg2 (c : Dev nD) : W4 m ρ c (Proc.devRef .tc main_arg2) = m ((c : Thread nD τ).loc main_arg2) :=
  W4_of_window m ρ c 2 rfl (by decide) (by decide) (by decide)
/-- The prior sample is no window of the first region; the second region reads it through two input windows. -/
theorem W4_main_arg3 (c : Dev nD) : W4 m ρ c (Proc.devRef .tc main_arg3) = m ((c : Thread nD τ).loc main_arg3) :=
  (W4_of_not_written m ρ c _ (by decide)).trans <| (W3_of_ne m ρ c _ (by decide)).trans <|
    (W2_of_not_written m ρ c _ (by decide)).trans <| (W1_of_ne m ρ c main_arg3 (by decide)).trans rfl
theorem W4_main_arg4 (c : Dev nD) : W4 m ρ c (Proc.devRef .tc main_arg4) = m ((c : Thread nD τ).loc main_arg4) :=
  W4_of_window m ρ c 3 rfl (by decide) (by decide) (by decide)
theorem W4_main_arg5 (c : Dev nD) : W4 m ρ c (Proc.devRef .tc main_arg5) = m ((c : Thread nD τ).loc main_arg5) :=
  W4_of_window m ρ c 4 rfl (by decide) (by decide) (by decide)
theorem W4_main_arg6 (c : Dev nD) : W4 m ρ c (Proc.devRef .tc main_arg6) = m ((c : Thread nD τ).loc main_arg6) :=
  W4_of_window m ρ c 5 rfl (by decide) (by decide) (by decide)
theorem W4_main_arg7 (c : Dev nD) : W4 m ρ c (Proc.devRef .tc main_arg7) = m ((c : Thread nD τ).loc main_arg7) :=
  W4_of_window m ρ c 6 rfl (by decide) (by decide) (by decide)
theorem W4_main_arg8 (c : Dev nD) : W4 m ρ c (Proc.devRef .tc main_arg8) = m ((c : Thread nD τ).loc main_arg8) :=
  W4_of_window m ρ c 7 rfl (by decide) (by decide) (by decide)
theorem W4_main_arg9 (c : Dev nD) : W4 m ρ c (Proc.devRef .tc main_arg9) = m ((c : Thread nD τ).loc main_arg9) :=
  W4_of_window m ρ c 8 rfl (by decide) (by decide) (by decide)
theorem W4_main_arg10 (c : Dev nD) : W4 m ρ c (Proc.devRef .tc main_arg10) = m ((c : Thread nD τ).loc main_arg10) :=
  W4_of_window m ρ c 9 rfl (by decide) (by decide) (by decide)
theorem W4_main_arg11 (c : Dev nD) : W4 m ρ c (Proc.devRef .tc main_arg11) = m ((c : Thread nD τ).loc main_arg11) :=
  W4_of_window m ρ c 10 rfl (by decide) (by decide) (by decide)
theorem W4_main_arg12 (c : Dev nD) : W4 m ρ c (Proc.devRef .tc main_arg12) = m ((c : Thread nD τ).loc main_arg12) :=
  W4_of_window m ρ c 11 rfl (by decide) (by decide) (by decide)
theorem W4_main_arg13 (c : Dev nD) : W4 m ρ c (Proc.devRef .tc main_arg13) = m ((c : Thread nD τ).loc main_arg13) :=
  W4_of_window m ρ c 12 rfl (by decide) (by decide) (by decide)
theorem W4_main_arg14 (c : Dev nD) : W4 m ρ c (Proc.devRef .tc main_arg14) = m ((c : Thread nD τ).loc main_arg14) :=
  W4_of_window m ρ c 13 rfl (by decide) (by decide) (by decide)
theorem W4_main_arg15 (c : Dev nD) : W4 m ρ c (Proc.devRef .tc main_arg15) = m ((c : Thread nD τ).loc main_arg15) :=
  W4_of_window m ρ c 14 rfl (by decide) (by decide) (by decide)

/-! ### What the second region's windows read -/

/-- The latent sample's array enters the second region as the first region left it: the three host operations
    between write other buffers. -/
theorem V2_z (c : Dev nD) : V2 m ρ c main_v0_0 = (dat0 (V0 m ρ) c).arrAt 15 cfg0.N :=
  (W2_of_not_written m ρ c main_v0_0 (by decide)).trans (W1_z m ρ c)
/-- The prior sample's array enters the second region as launched. -/
theorem V2_arg3 (c : Dev nD) : V2 m ρ c main_arg3 = m ((c : Thread nD τ).loc main_arg3) :=
  (W2_of_not_written m ρ c main_arg3 (by decide)).trans <| (W1_of_ne m ρ c main_arg3 (by decide)).trans rfl

/-! ### The returned scalar

  The nine host operations' term over the two regions' one-element outputs: the squared error divided by its
  constant, plus the third constant times the pairwise kernel sum divided by the second constant. -/

theorem W4_main_v7 (c : Dev nD) : W4 m ρ c (Proc.devRef .tc main_v7) =
    addf
      (Host.divf (F := F)
        (fun i => shapeCast main_v1.ty.shape ((dat0 (V0 m ρ) c).arrAt 16 cfg0.N) shapeCasts_S1x1_S_ i)
        (constant (F := F) S_ .f32 0x4B000000#32))
      (mulf (constant (F := F) S_ .f32 0x41200000#32)
        (Host.divf (F := F)
          (fun i => shapeCast main_v4.ty.shape ((dat1 (V2 m ρ) c).arrAt 4 cfg1.N) shapeCasts_S1x1_S_ i)
          (constant (F := F) S_ .f32 0x4C800000#32))) := by
  show StableHlo.after hostOps2 (W3 m ρ c) (Proc.devRef .tc main_v7) = _
  after_results
  rw [W3_out, W3_of_ne m ρ c main_v2 (by decide)]
  show addf (StableHlo.after hostOps1 (W1 m ρ c) (Proc.devRef .tc main_v2)) _ = _
  after_results
  rw [W1_sq]
  rfl

/-! ## The second region's arrays, dealt by hand

  The second region's five windows stand on three buffers: the latent sample (windows 0 and 1), the prior
  sample (windows 2 and 3) and the one-element output (window 4). -/

section Shared

variable (V : (c : Dev nD) → (b : Ref sig .tc) → Buf (Elt F) ((c : Thread nD τ).loc b))

/-- The distinct buffers behind the second region's windows, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v0_0) ↦{fullShare} X main_v0_0)
          ∗ (((c : Thread nD τ).loc main_arg3) ↦{fullShare} X main_arg3)
          ∗ (((c : Thread nD τ).loc main_v3) ↦{fullShare} X main_v3)) := by
  unfold Pipeline.arrBufs
  exact bigSep_eq_bigSepL_of_eq [main_v0_0, main_arg3, main_v3] (by decide) (by decide) _

theorem share1_0 (c : Dev nD) : (dat1 V c).share 0 = fullShare.left := rfl
theorem share1_1 (c : Dev nD) : (dat1 V c).share 1 = fullShare.right := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl

/-- The second region's arrays at contents Fn, one by one: each a whole buffer, the two windows on one
    buffer at the two halves of the full share, the output at the full share. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v0_0) ↦{fullShare.left} Fn 0)
          ∗ (((c : Thread nD τ).loc main_v0_0) ↦{fullShare.right} Fn 1)
          ∗ (((c : Thread nD τ).loc main_arg3) ↦{fullShare.left} Fn 2)
          ∗ (((c : Thread nD τ).loc main_arg3) ↦{fullShare.right} Fn 3)
          ∗ (((c : Thread nD τ).loc main_v3) ↦{fullShare} Fn 4)) := by
  unfold Dat.arrays
  rw [bigSep_W1, share1_0, share1_1, share1_2, share1_3, share1_4]
  simp only [View.set_whole]

end Shared

section Shared2

variable (V : (c : Dev nD) → (b : Ref sig .tc) → Buf (Elt F) ((c : Thread nD τ).loc b))

/-- ENTRY: a core's unscoped buffers at V are the second region's arrays at the proof data's entry contents and
    the unscoped rest: the latent sample and the prior sample are each split along the share between their two
    windows. -/
theorem arrays_of_unscopedBufs1 (c : Dev nD) :
    (unscopedBufs c (V c) : sProp 𝕄)
      ⊢ iprop((dat1 V c).arrays ((dat1 V c).arrAt · 0) ∗ Pipeline.unscopedRest spec1 c (V c)) := by
  have hs : (unscopedBufs c (V c) : sProp 𝕄)
      = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨Hz, Hp, Ho⟩, Hrest⟩
  ihave Hz' := (pointsTo_share (PosShare.mem_left_op_right fullShare)).1 $$ Hz
  icases Hz' with ⟨Hz0, Hz1⟩
  ihave Hp' := (pointsTo_share (PosShare.mem_left_op_right fullShare)).1 $$ Hp
  icases Hp' with ⟨Hp0, Hp1⟩
  isplitr [Hrest]
  · isplitl [Hz0]; · iexact Hz0
    isplitl [Hz1]; · iexact Hz1
    isplitl [Hp0]; · iexact Hp0
    isplitl [Hp1]; · iexact Hp1
    iexact Ho
  iexact Hrest

end Shared2

section Shared3

variable (V : (c : Dev nD) → (b : Ref sig .tc) → Buf (Elt F) ((c : Thread nD τ).loc b))

/-- EXIT: the second region's arrays at their final contents and the unscoped rest at V are the core's unscoped
    buffers at any valuation X that has the output array at its final contents and agrees with V at every other
    buffer: an input window's array ends as it entered, so the two halves of the latent sample and of the prior
    sample join back along the share. -/
theorem unscopedBufs_of_arrays1 (c : Dev nD) (X : (b : Ref sig .tc) → Buf (Elt F) ((c : Thread nD τ).loc b))
    (hout : X main_v3 = (dat1 V c).arrAt 4 cfg1.N) (hrest : ∀ b, b ≠ main_v3 → X b = V c b) :
    iprop((dat1 V c).arrays ((dat1 V c).arrAt · cfg1.N) ∗ Pipeline.unscopedRest spec1 c (V c))
      ⊢ (unscopedBufs c X : sProp 𝕄) := by
  have hs : (unscopedBufs c X : sProp 𝕄)
      = iprop(Pipeline.arrBufs spec1 c X ∗ Pipeline.unscopedRest spec1 c X) :=
    Pipeline.unscopedBufs_split₀ cfgs 1 winFacts₀1.arr_unscoped c X
  have hr : (Pipeline.unscopedRest spec1 c X : sProp 𝕄) = Pipeline.unscopedRest spec1 c (V c) := by
    unfold Pipeline.unscopedRest
    exact bigSep_congr fun b hb => by
      rw [hrest b fun e => (Finset.mem_sdiff.mp hb).2 (e ▸ Finset.mem_image.mpr ⟨4, Finset.mem_univ _, rfl⟩)]
  have h0 : (dat1 V c).arrAt 0 cfg1.N = V c main_v0_0 := ((dat1 V c).arrAt_in 0 rfl _).trans (A_eq1 V c 0)
  have h1 : (dat1 V c).arrAt 1 cfg1.N = V c main_v0_0 := ((dat1 V c).arrAt_in 1 rfl _).trans (A_eq1 V c 1)
  have h2 : (dat1 V c).arrAt 2 cfg1.N = V c main_arg3 := ((dat1 V c).arrAt_in 2 rfl _).trans (A_eq1 V c 2)
  have h3 : (dat1 V c).arrAt 3 cfg1.N = V c main_arg3 := ((dat1 V c).arrAt_in 3 rfl _).trans (A_eq1 V c 3)
  rw [hs, hr, arrBufs1_eq, arrays1_eq, hrest main_v0_0 (by decide), hrest main_arg3 (by decide), hout]
  simp only [h0, h1, h2, h3]
  iintro ⟨⟨Hz0, Hz1, Hp0, Hp1, Ho⟩, Hrest⟩
  isplitr [Hrest]
  · isplitl [Hz0 Hz1]
    · iapply (pointsTo_share (PosShare.mem_left_op_right fullShare)).2
      isplitl [Hz0]; · iexact Hz0
      iexact Hz1
    isplitl [Hp0 Hp1]
    · iapply (pointsTo_share (PosShare.mem_left_op_right fullShare)).2
      isplitl [Hp0]; · iexact Hp0
      iexact Hp1
    iexact Ho
  iexact Hrest

end Shared3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

/-- No core owes another anything: no level is assigned. -/
abbrev runL : GSem nD τ sig → Finset Unit := fun _ => ∅
abbrev runLv : GSem nD τ sig → Unit → ℕ := fun _ _ => 0
/-- What rides beside the buffers through every segment: the core's generator register at some state and the
    core owing nothing. -/
abbrev runR (c : Dev nD) : sProp 𝕄 :=
  iprop((∃ r, prngReg c r) ∗ ∃ W, owes (c : Thread nD τ) (0 : CellTallies nD τ sig Unit) W)

/-- A stretch of host operations as a segment over the unscoped buffers from the contents W, the rest riding along:
    it leaves them at the fold of the operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the owing: every unscoped buffer at the last boundary's contents, the generator
    register at some state. -/
abbrev runTn (c : Dev nD) : sProp 𝕄 :=
  iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at W1.
    Its seventeen arrays are distinct buffers: they split out of the unscoped buffers and go back at the exit
    contents; the generator register goes into the region's invariant and comes out; nothing is owed. -/
def reg0 (hb0 : ∀ c, BodyObligation (dat0 (F := F) (V0 m ρ) c) (defs₀ (F := F)) Variants.none () Set.univ) :
    Pipeline.RegionSeg (pcfgs (F := F)) adm (pdats m ρ) () defs₀ Variants.none runL runLv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ runL runLv 0 fun _ _ => rfl
  pre c := iprop(StableHlo.held (c : Thread nD τ) (Pipeline.ucRefs τ sig) (W0 m ρ c) ∗ runR c)
  post c := iprop(StableHlo.held (c : Thread nD τ) (Pipeline.ucRefs τ sig) (W1 m ρ c) ∗ runR c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (fun b => W1 m ρ c b) ((pdats m ρ 0 c).arrAt · cfg0.N) (fun w => (W1_arr m ρ c w).symm)
      (fun b hb => W1_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at W3. Its windows
    share arrays: the three buffers behind them split out of the unscoped buffers and are dealt to the windows at
    the shares the proof data name, and join back at the exit. -/
def reg1 (hb1 : ∀ c, BodyObligation (dat1 (F := F) (V2 m ρ) c) (defs₀ (F := F)) Variants.none () Set.univ) :
    Pipeline.RegionSeg (pcfgs (F := F)) adm (pdats m ρ) () defs₀ Variants.none runL runLv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ runL runLv 1 fun _ _ => rfl
  pre c := iprop(StableHlo.held (c : Thread nD τ) (Pipeline.ucRefs τ sig) (W2 m ρ c) ∗ runR c)
  post c := iprop(StableHlo.held (c : Thread nD τ) (Pipeline.ucRefs τ sig) (W3 m ρ c) ∗ runR c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays_of_unscopedBufs1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V2 m ρ) c (fun b => W3 m ρ c b) (W3_out m ρ c) (fun b hb => W3_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's four segments in order: the first region, the three host operations from W1, the second region, the
    six host operations from W3. -/
abbrev segs (hb0 : ∀ c, BodyObligation (dat0 (F := F) (V0 m ρ) c) (defs₀ (F := F)) Variants.none () Set.univ)
    (hb1 : ∀ c, BodyObligation (dat1 (F := F) (V2 m ρ) c) (defs₀ (F := F)) Variants.none () Set.univ) :
    List (Pipeline.Seg (pcfgs (F := F)) adm (pdats m ρ) () defs₀ Variants.none runL runLv) :=
  [ .region (reg0 m ρ hb0),
    .host (hseg hostOps1 hostOps1_sub hostOps1_fresh (W1 m ρ)),
    .region (reg1 m ρ hb1),
    .host (hseg hostOps2 hostOps2_sub hostOps2_fresh (W3 m ρ)) ]

/-- @main is the run of the segments. -/
theorem main_run (hb0 : ∀ c, BodyObligation (dat0 (F := F) (V0 m ρ) c) (defs₀ (F := F)) Variants.none () Set.univ)
    (hb1 : ∀ c, BodyObligation (dat1 (F := F) (V2 m ρ) c) (defs₀ (F := F)) Variants.none () Set.univ) (c : Dev nD) :
    main (F := F) c = Pipeline.Seg.run (segs m ρ hb0 hb1) :=
  main_segs adm (pdats m ρ) () Variants.none runL runLv
    (hseg hostOps1 hostOps1_sub hostOps1_fresh (W1 m ρ)) (hseg hostOps2 hostOps2_sub hostOps2_fresh (W3 m ρ))
    (reg0 m ρ hb0) (reg1 m ρ hb1) rfl rfl c

set_option backward.isDefEq.respectTransparency.types false in
/-- THE RUN. From any memory with zero counters, given the two regions' body obligations, every weakly fair
    execution of @main on the TensorCores terminates, nothing faulting, and every final state holds every unscoped
    buffer at the last boundary's contents W4. -/
theorem run_all
    (hb0 : ∀ c, BodyObligation (dat0 (F := F) (V0 m ρ) c) (defs₀ (F := F)) Variants.none () Set.univ)
    (hb1 : ∀ c, BodyObligation (dat1 (F := F) (V2 m ρ) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ Variants.none runL runLv m ρ main
    (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn m ρ)
    (hch := ⟨fun _ => .rfl, fun _ => .rfl, fun _ => .rfl, fun _ => .rfl, fun c => by
      show iprop(StableHlo.held (c : Thread nD τ) (Pipeline.ucRefs τ sig) (W4 m ρ c) ∗ runR c)
        ⊢ iprop(runTn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.K.Body0Defs.lean ====
/-
  What the two control cases of region 0's body share: the branch condition of the body's one conditional
  (the accumulator is zero-filled at the first point of the grid only), decided over the grid, the
  staging memrefs the body is called with at a point, and the two stored values as functions of the
  loaded blocks.
-/
import proofs.«125570_j13228499272255_1_alg».proof.Proof.K.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The condition of the body's conditional, from the grid coordinates: the point's coordinate along the
    batch axis is zero. -/
abbrev cond0_0 (i : grid0.Coords) : Prop := (Scalar.cmpi .ne (Scalar.extui (Scalar.cmpi .eq (BitVec.ofNat 32 (i 0).val) 0#32)) 0#32) = 1#1

/-- It holds at the first point only: decided over the sixteen points. -/
theorem hcond0_0 : ∀ t : Fin cfg0.N, cond0_0 (grid0.coords t) ↔ t.val % 16 = 0 :=
  (by decide +kernel : ∀ t : Fin grid0.N, cond0_0 (grid0.coords t) ↔ t.val % 16 = 0)

/-- Each window's current staging memref at point t, as the body is called with it, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x64 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)

/-- The zero offsets of a whole-buffer rectangle, of rank one and of rank two. -/
theorem hz1 : (![0] : Fin 1 → Nat) = fun _ => 0 := funext fun a => by fin_cases a <;> rfl
theorem hz2 : (![0, 0] : Fin 2 → Nat) = fun _ => 0 := funext fun a => by fin_cases a <;> rfl

/-- A store through the whole-buffer rectangle, last in a list of stores, leaves its payload: read back
    through any view of the shape, whatever the earlier stores and the prior contents were. -/
theorem read_writes_unit_zero {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- The latent tile as a function of the blocks the body loads (x-w is window w's block). -/
def zOf (x0 : Vec F S512x1024 .f32) (x2 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) : Vec F S512x64 .f32 :=
  k0_pay7 (k0_pay4 x0 x3 x4 x5 x6) (k0_pay5 x0 x7 x8) x9 x10 x2

/-- The error window's new contents as a function of the blocks the body loads and of what it loaded
    from the error window itself. -/
def sqOf (x0 : Vec F S512x1024 .f32) (x1 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) (x11 : Vec F S64x512 .f32) (x12 : Vec F S512 .f32) (x13 : Vec F S512x1024 .f32) (x14 : Vec F S1024 .f32) (acc : Vec F S1x1 .f32) : Vec F S1x1 .f32 :=
  k0_pay1 x0 (k0_pay8 (k0_pay4 x0 x3 x4 x5 x6) (k0_pay5 x0 x7 x8) x9 x10 x1 x11 x12) (k0_pay9 (k0_pay4 x0 x3 x4 x5 x6) (k0_pay5 x0 x7 x8) x9 x10 x1 x11 x12) k0_pay10 x13 x14 acc

variable (V : (c : Dev nD) → (b : Ref sig .tc) → Buf (Elt F) ((c : Thread nD τ).loc b))

/-- The proof data's latent tile is that function of the point's blocks. -/
theorem zTile_eq (c : Dev nD) (t : Fin cfg0.N) :
    zTile V c t = zOf (iblk0 V c 0 t) (iblk0 V c 2 t) (iblk0 V c 3 t) (iblk0 V c 4 t) (iblk0 V c 5 t) (iblk0 V c 6 t) (iblk0 V c 7 t) (iblk0 V c 8 t) (iblk0 V c 9 t) (iblk0 V c 10 t) := rfl

/-- The proof data's accumulation step is that function of the point's blocks. -/
theorem sqStep_eq (c : Dev nD) (t : Fin cfg0.N) (acc : Vec F S1x1 .f32) :
    sqStep V c t acc = sqOf (iblk0 V c 0 t) (iblk0 V c 1 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) acc := rfl

end Cert.Kernel.Hand

end
-- ==== Proof.K.Body0A.lean ====
/-
  The body of region 0 run in its first control case: the point is the first of the grid, the conditional
  zero-fills the error window's buffer, and the accumulation reads that zero back.
-/
import proofs.«125570_j13228499272255_1_alg».proof.Proof.K.Body0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body at the first point of the grid. On whole staging memrefs, the fifteen inputs' at their blocks
    and the two outputs' at anything, the body runs to the continuation holding the inputs' as they were,
    the latent window's buffer at the latent tile and the error window's at the tile's squared error added
    to the zero it has just been filled with. -/
theorem run0_A (c : Dev nD) (i : grid0.Coords) (arg1 : Memref sig .tc .vmem S512x1024 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S512x64 .f32) (harg6 : arg6.IsWhole) (arg7 : Memref sig .tc .vmem S64 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x64 .f32) (harg10 : arg10.IsWhole) (arg11 : Memref sig .tc .vmem S64 .f32) (harg11 : arg11.IsWhole) (arg12 : Memref sig .tc .vmem S64x512 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S1024 .f32) (harg15 : arg15.IsWhole) (arg16 : Memref sig .tc .vmem S512x64 .f32) (harg16 : arg16.IsWhole) (arg17 : Memref sig .tc .vmem S1x1 .f32) (harg17 : arg17.IsWhole) (hc0 : cond0_0 i)
    (x0 : Vec F S512x1024 .f32) (x1 : Vec F S512x64 .f32) (x2 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) (x11 : Vec F S64x512 .f32) (x12 : Vec F S512 .f32) (x13 : Vec F S512x1024 .f32) (x14 : Vec F S1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (zOf x0 x2 x3 x4 x5 x6 x7 x8 x9 x10) ∗ owns (c : Thread nD τ) arg17 fullShare (sqOf x0 x1 x3 x4 x5 x6 x7 x8 x9 x10 x11 x12 x13 x14 k0_pay2)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr
    swap; · iexact H15
    ipureintro
    refine (read_writes_unit_zero (S := S512x64) _ _ hz2 _ _ _).trans ?_
    sl_unfold_words
    unfold zOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]
  · iexists _; isplitr
    swap; · iexact H16
    ipureintro
    refine (read_writes_unit_zero (S := S1x1) _ _ hz2 _ _ _).trans ?_
    sl_unfold_words
    rw [View.readCov_unit_zero (S := S1x1) _ hz2]
    unfold sqOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]

end Cert.Kernel.Hand

end
-- ==== Proof.K.Body0B.lean ====
/-
  The body of region 0 run in its second control case: the point is not the first of the grid, the conditional
  is skipped, and the accumulation reads what the point before left in the error window's buffer.
-/
import proofs.«125570_j13228499272255_1_alg».proof.Proof.K.Body0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body at a later point of the grid. On whole staging memrefs, the fifteen inputs' at their blocks,
    the latent window's at anything and the error window's at the running sum so far, the body runs to the
    continuation holding the inputs' as they were, the latent window's buffer at the latent tile and the
    error window's at the running sum plus the tile's squared error. -/
theorem run0_B (c : Dev nD) (i : grid0.Coords) (arg1 : Memref sig .tc .vmem S512x1024 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S512x64 .f32) (harg6 : arg6.IsWhole) (arg7 : Memref sig .tc .vmem S64 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x64 .f32) (harg10 : arg10.IsWhole) (arg11 : Memref sig .tc .vmem S64 .f32) (harg11 : arg11.IsWhole) (arg12 : Memref sig .tc .vmem S64x512 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S1024 .f32) (harg15 : arg15.IsWhole) (arg16 : Memref sig .tc .vmem S512x64 .f32) (harg16 : arg16.IsWhole) (arg17 : Memref sig .tc .vmem S1x1 .f32) (harg17 : arg17.IsWhole) (hc0 : ¬cond0_0 i)
    (x0 : Vec F S512x1024 .f32) (x1 : Vec F S512x64 .f32) (x2 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) (x11 : Vec F S64x512 .f32) (x12 : Vec F S512 .f32) (x13 : Vec F S512x1024 .f32) (x14 : Vec F S1024 .f32) (xo16 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (zOf x0 x2 x3 x4 x5 x6 x7 x8 x9 x10) ∗ owns (c : Thread nD τ) arg17 fullShare (sqOf x0 x1 x3 x4 x5 x6 x7 x8 x9 x10 x11 x12 x13 x14 xo16)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr
    swap; · iexact H15
    ipureintro
    refine (read_writes_unit_zero (S := S512x64) _ _ hz2 _ _ _).trans ?_
    sl_unfold_words
    unfold zOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]
  · iexists _; isplitr
    swap; · iexact H16
    ipureintro
    refine (read_writes_unit_zero (S := S1x1) _ _ hz2 _ _ _).trans ?_
    sl_unfold_words
    unfold sqOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]

end Cert.Kernel.Hand

end
-- ==== Proof.K.Body0.lean ====
/-
  The body obligation of region 0. At every point of the grid the fifteen input windows' staging buffers hold
  their blocks (fetched there, or still there from the first point: their block index has not moved); the
  latent window's buffer is fresh; the error window's buffer is fresh at the first point and holds the
  running sum of the point before afterwards (it is written back after the last point only). The body's run
  in the point's control case then leaves what the proof data says.
-/
import proofs.«125570_j13228499272255_1_alg».proof.Proof.K.Body0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves, window by window (the proof data's match reduced) -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = zTile V c t := by dsimp only [dat0]
theorem after0_16 (c : Dev nD) (t : Fin cfg0.N) : (dat0 V c).after 16 t = sqAcc V c t.val t.isLt := by dsimp only [dat0]

/-! ## What the body finds -/

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl)
    (fun t => by rw [after0_14]; unfold Dat.blockOf iblk0; rw [A_eq0]; try rfl) t d).trans
    (by unfold Dat.fetched Dat.blockOf iblk0; rw [A_eq0]; try rfl)

/-- The latent window is written back after every point: its buffer is fresh at every point. -/
theorem before0_15 (c : Dev nD) (t : Fin cfg0.N) (d) : (dat0 V c).before 15 t d = d :=
  (dat0 V c).before_out_reset 15 rfl t (by
    by_cases h : t.val = 0
    · exact .inl h
    · exact .inr ⟨h, flush0_15 _⟩) d

/-- At the first point the error window's buffer is fresh. -/
theorem before0_16_A (c : Dev nD) (t : Fin cfg0.N) (h0 : t.val % 16 = 0) (d) : (dat0 V c).before 16 t d = d := by
  have hN : t.val < 16 := lt_of_lt_of_eq t.isLt (show cfg0.N = 16 from N_0)
  exact (dat0 V c).before_out_reset 16 rfl t (.inl (by omega)) d

/-- At a later point it holds what the body left at the point before: it was not written back between. -/
theorem before0_16_B (c : Dev nD) (t : Fin cfg0.N) (h0 : ¬t.val % 16 = 0) (d) :
    (dat0 V c).before 16 t d = sqAcc V c (t.val - 1) (Nat.lt_of_le_of_lt (Nat.sub_le _ _) t.isLt) := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dat0]

/-! ## The running sum, case by case -/

/-- At the first point the running sum is the step applied to the zero fill. -/
theorem sqAcc_A (c : Dev nD) (t : Fin cfg0.N) (h0 : t.val % 16 = 0) :
    sqAcc V c t.val t.isLt = sqStep V c t (k0_pay2 (F := F)) := by
  obtain ⟨n, hn⟩ := t
  have hN : n < 16 := lt_of_lt_of_eq hn (show cfg0.N = 16 from N_0)
  obtain rfl : n = 0 := by dsimp only at h0; omega
  rfl

/-- At a later point it is the step applied to the running sum of the point before. -/
theorem sqAcc_B (c : Dev nD) (t : Fin cfg0.N) (h0 : ¬t.val % 16 = 0) :
    sqAcc V c t.val t.isLt = sqStep V c t (sqAcc V c (t.val - 1) (Nat.lt_of_le_of_lt (Nat.sub_le _ _) t.isLt)) := by
  obtain ⟨n, hn⟩ := t
  cases n with
  | zero => exact absurd (Nat.zero_mod _) h0
  | succ n => rfl

/-! ## The body obligation, at a generic point -/

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t))

set_option maxHeartbeats 1600000 in
/-- The body at any point: the inputs' memrefs hold their blocks; the closed form of the condition says which
    case the point is in; the run of that case applies; the invariant passes through unread; the core owes
    nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, zTile_eq]
  by_cases h0 : t.val % 16 = 0
  · rw [sqAcc_A V c t h0, sqStep_eq]
    simp only [before0_16_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run0_A c (grid0.coords t) _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [sqAcc_B V c t h0, sqStep_eq]
    simp only [before0_16_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run0_B c (grid0.coords t) _ _ _ _ _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The library's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body V c t

end Cert.Kernel.Hand

end
-- ==== Proof.K.Body1.lean ====
/-
  The body obligation of region 1 (the pairwise kernel-sum kernel, 16 x 16 points).

  At every point the body loads its four 512-row tiles, computes s_xx + s_yy - 2 s_xy from them, loads the
  one-element accumulator and stores the accumulator plus that value. One conditional on the grid coordinates
  (both zero) fills the accumulator with zero first; it holds at the first point only, decided once over the grid
  in closed form. So there are two runs of the body: where the conditional is taken the accumulator's buffer may
  hold anything and is left at the step applied to zero (the load after the zero fill reads the zero vector back);
  where it is not, the buffer holds what the point before left (it is not written back in between) and is left at
  the step applied to that. Each input window's buffer holds its block at every point, fetched there or not.
-/
import proofs.«125570_j13228499272255_1_alg».proof.Proof.K.Data
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's conditional and its step -/

/-- The condition of the body's one conditional, from the grid coordinates. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond1_0 : ∀ t : Fin cfg1.N, cond1_0 (grid1.coords t) ↔ t.val % 256 = 0 :=
  (by decide +kernel : ∀ t : Fin grid1.N, cond1_0 (grid1.coords t) ↔ t.val % 256 = 0)

/-- What the body stores in the accumulator from its four tiles and what it loaded from the accumulator. -/
def step1 (x0 x1 x2 x3 : Vec F S512x64 .f32) (acc : Vec F S1x1 .f32) : FVec F S1x1 .f32 :=
  k1_pay1 (k1_pay4 x0 x1) (k1_pay6 x2 x3 (k1_pay5 x2)) (k1_pay7 (k1_pay3 x0) x3) acc

/-! ## The body's two runs -/

/-- The zero offsets of a whole-block rectangle of rank 2, however spelt. -/
theorem hz00 : (![0, 0] : Fin 2 → Nat) = fun _ => 0 := funext fun a => by fin_cases a <;> rfl

set_option maxHeartbeats 1000000 in
/-- The body where the conditional is taken (the first point): the accumulator's buffer, whatever it held, is
    filled with zero, read back, and left at the step applied to zero; the four tiles are left as they were. -/
theorem run1_A (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S512x64 .f32) (harg4 : arg4.IsWhole) (arg5 : Memref sig .tc .vmem S512x64 .f32) (harg5 : arg5.IsWhole)
    (arg6 : Memref sig .tc .vmem S1x1 .f32) (harg6 : arg6.IsWhole) (hc0 : cond1_0 i)
    (x0 x1 x2 x3 : Vec F S512x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare (step1 x0 x1 x2 x3 k1_pay2)) -∗ K ⟨⟩))
      ⊢ wp frame (wpE (defs₀ (F := F)) Variants.none c none) E (cc1__mmd_kernel i arg2 harg2 arg3 harg3 arg4 harg4 arg5 harg5 arg6 harg6) K := by
  simp only [cc1__mmd_kernel_eq_skeleton]; unfold cc1__mmd_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_words
  refine (View.read_writes_eq_canon _ _ _ (fun y => ⟨_, List.mem_cons_self, View.mem_set_unit_zero (S := S1x1) hz00 inb_S1x1_S1x1_0_0 y⟩)).trans ?_
  rw [View.canon_cons_unit_zero (S := S1x1) hz00, View.readCov_unit_zero (S := S1x1) _ hz00]
  simp only [View.readAt_eq_ld, harg2.read_unread, harg3.read_unread, harg4.read_unread, harg5.read_unread, View.ld_unit_zero (S := S512x64) hz00]
  rfl

set_option maxHeartbeats 1000000 in
/-- The body where the conditional is not taken (every later point): the accumulator's buffer holding xo is
    left at the step applied to xo; the four tiles are left as they were. -/
theorem run1_B (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S512x64 .f32) (harg4 : arg4.IsWhole) (arg5 : Memref sig .tc .vmem S512x64 .f32) (harg5 : arg5.IsWhole)
    (arg6 : Memref sig .tc .vmem S1x1 .f32) (harg6 : arg6.IsWhole) (hc0 : ¬cond1_0 i)
    (x0 x1 x2 x3 : Vec F S512x64 .f32) (xo : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare (step1 x0 x1 x2 x3 xo)) -∗ K ⟨⟩))
      ⊢ wp frame (wpE (defs₀ (F := F)) Variants.none c none) E (cc1__mmd_kernel i arg2 harg2 arg3 harg3 arg4 harg4 arg5 harg5 arg6 harg6) K := by
  simp only [cc1__mmd_kernel_eq_skeleton]; unfold cc1__mmd_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_words
  refine (View.read_writes_eq_canon _ _ _ (fun y => ⟨_, List.mem_cons_self, View.mem_set_unit_zero (S := S1x1) hz00 inb_S1x1_S1x1_0_0 y⟩)).trans ?_
  rw [View.canon_unit_zero (S := S1x1) hz00]
  simp only [View.readAt_eq_ld, harg2.read_unread, harg3.read_unread, harg4.read_unread, harg5.read_unread, harg6.read_unread,
    View.ld_unit_zero (S := S512x64) hz00, View.ld_unit_zero (S := S1x1) hz00]
  rfl

/-! ## The proof data, window by window -/

variable (V : (c : Dev nD) → (b : Ref sig .tc) → Buf (Elt F) ((c : Thread nD τ).loc b))

/-- Each window's current staging memref at point t, as the pipeline passes it to the body, and its wholeness. -/
abbrev ms1_0 (t : Fin cfg1.N) : Memref sig .tc .vmem S512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = mmdAcc V c t.val t.isLt := by dsimp only [dat1]

/-- Each input window's current staging buffer holds its block at every point, fetched there or not: unfetched, the
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point the accumulator's staging buffer holds what the body left at the point before: the buffer is
    written back at the last point only, the window is live and uncut. -/
theorem before1_4_B (c : Dev nD) (t : Fin cfg1.N) (h0 : ¬t.val % 256 = 0) (d) :
    (dat1 V c).before 4 t d = mmdAcc V c (t.val - 1) (Nat.lt_of_le_of_lt (Nat.sub_le _ _) t.isLt) := by
  have hN : t.val < 256 := lt_of_lt_of_eq t.isLt (show cfg1.N = 256 from N_1)
  rw [Dat.before_out_kept _ 4 rfl t (by omega) (Bool.eq_false_iff.mpr fun h => by have := (flush1_4 _).mp h; dsimp only at this; omega)
    (fun _ => rfl) (fun _ _ => rfl)]
  dsimp only [dat1]

/-- The running sum at the first point: the step applied to zero. -/
theorem mmdAcc_A (c : Dev nD) (t : Fin cfg1.N) (h0 : t.val % 256 = 0) :
    mmdAcc V c t.val t.isLt = step1 (iblk1 V c 0 t) (iblk1 V c 1 t) (iblk1 V c 2 t) (iblk1 V c 3 t) k1_pay2 := by
  obtain ⟨n, hn⟩ := t
  cases n with
  | zero => exact rfl
  | succ n =>
    exfalso
    have hN : n + 1 < 256 := lt_of_lt_of_eq hn (show cfg1.N = 256 from N_1)
    dsimp only at h0
    omega

/-- The running sum at a later point: the step applied to the running sum at the point before. -/
theorem mmdAcc_B (c : Dev nD) (t : Fin cfg1.N) (h0 : ¬t.val % 256 = 0) :
    mmdAcc V c t.val t.isLt = step1 (iblk1 V c 0 t) (iblk1 V c 1 t) (iblk1 V c 2 t) (iblk1 V c 3 t)
      (mmdAcc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the closed form says which case the point is in;
    at a later point the accumulator's buffer holds what the point before left; so the case's run applies; the
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 256 = 0
  · rw [mmdAcc_A V c t h0]
    iintro ⟨HΦ, Ho, ⟨%d0, H0⟩, ⟨%d1, H1⟩, ⟨%d2, H2⟩, ⟨%d3, H3⟩, ⟨%d4, H4⟩⟩
    iapply (run1_A c (grid1.coords t) _ _ _ _ _ _ _ _ _ _ ((hcond1_0 t).mpr h0)
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [mmdAcc_B V c t h0]
    simp only [before1_4_B V c t h0]
    iintro ⟨HΦ, Ho, ⟨%d0, H0⟩, ⟨%d1, H1⟩, ⟨%d2, H2⟩, ⟨%d3, H3⟩, ⟨%d4, H4⟩⟩
    iapply (run1_B c (grid1.coords t) _ _ _ _ _ _ _ _ _ _ (fun h => h0 ((hcond1_0 t).mp h))
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation of region 1, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.Kernel.Hand

end
-- ==== Proof.KI.Data.lean ====
/-
  The proof data of the two kernel regions, stated over the skeleton's payloads.

  Region 0 (the encoder / decoder tile kernel, 16 points along the batch axis): at point t the body is
  handed the t-th 512-row tile of x, of the two noise arrays, and the twelve weight and bias arrays whole.
  It leaves in the z window's buffer the tile's latent sample (a pure function of those blocks) and in the
  one-element error window's buffer the running sum: zero plus the tile's squared error at the first point,
  what the point before left plus the tile's squared error at every later point (the window's block index
  never moves, so its buffer is not written back between points).

  Region 1 (the pairwise kernel-sum kernel, 16 x 16 points): at point (i, j) the body is handed tile i and
  tile j of z and of z_prior and leaves in the one-element output window's buffer the running sum of
  s_xx + s_yy - 2 s_xy over the points so far, started from zero at point (0, 0).

  Every input window's buffer holds its block of the array as the region finds it. Both regions' arrays
  are read off a parameter V: the unscoped buffers' contents when the region is entered.
-/
import proofs.«125570_j13228499272255_1_alg».proof.Proof.Gen.KernelIdeal.Launch
import proofs.«125570_j13228499272255_1_alg».proof.Proof.Gen.KernelIdeal.Skeleton
import proofs.«125570_j13228499272255_1_alg».proof.Proof.Gen.KernelIdeal.Points
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal.Gen

variable {F : FTy → Type} [FloatOps F]

variable (V : (c : Dev nD) → (b : Ref sig .tc) → Buf (Elt F) ((c : Thread nD τ).loc b))

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's mean head: leaky_relu(leaky_relu(x w1_mu + b1_mu) w2_mu + b2_mu). -/
def mean0 (c : Dev nD) (t : Fin cfg0.N) : FVec F S512x64 .f32 :=
  k0_pay4 (iblk0 V c 0 t) (iblk0 V c 3 t) (iblk0 V c 4 t) (iblk0 V c 5 t) (iblk0 V c 6 t)

/-- The tile's hidden layer of the variance head: tanh(x w1_sig + b1_sig). -/
def hsig0 (c : Dev nD) (t : Fin cfg0.N) : FVec F S512x512 .f32 :=
  k0_pay5 (iblk0 V c 0 t) (iblk0 V c 7 t) (iblk0 V c 8 t)

/-- The tile's latent sample z = mean + exp(logvar / 2) * noise_z: what point t stores in the z window. -/
def zTile (c : Dev nD) (t : Fin cfg0.N) : FVec F S512x64 .f32 :=
  k0_pay7 (mean0 V c t) (hsig0 V c t) (iblk0 V c 9 t) (iblk0 V c 10 t) (iblk0 V c 2 t)

/-- The decoder's first layer before its activation, on the tile. -/
def hdec0 (c : Dev nD) (t : Fin cfg0.N) : FVec F S512x512 .f32 :=
  k0_pay8 (mean0 V c t) (hsig0 V c t) (iblk0 V c 9 t) (iblk0 V c 10 t) (iblk0 V c 1 t) (iblk0 V c 11 t) (iblk0 V c 12 t)

/-- Where that layer is positive. -/
def hdecPos0 (c : Dev nD) (t : Fin cfg0.N) : IVec S512x512 1 :=
  k0_pay9 (mean0 V c t) (hsig0 V c t) (iblk0 V c 9 t) (iblk0 V c 10 t) (iblk0 V c 1 t) (iblk0 V c 11 t) (iblk0 V c 12 t)

/-- What point t stores in the error window, given what it loaded from it: that plus the tile's squared
    reconstruction error. -/
def sqStep (c : Dev nD) (t : Fin cfg0.N) (acc : Vec F S1x1 .f32) : FVec F S1x1 .f32 :=
  k0_pay1 (iblk0 V c 0 t) (hdec0 V c t) (hdecPos0 V c t) k0_pay10 (iblk0 V c 13 t) (iblk0 V c 14 t) acc

/-- The error window's buffer after the body at position n: started from the zero fill at the first point. -/
def sqAcc (c : Dev nD) : (n : ℕ) → n < cfg0.N → Vec F S1x1 .f32
  | 0, hn => sqStep V c ⟨0, hn⟩ k0_pay2
  | n + 1, hn => sqStep V c ⟨n + 1, hn⟩ (sqAcc c n (Nat.lt_of_succ_lt hn))

/-- Region 0's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => zTile V c t
    | ⟨16, _⟩ => sqAcc V c t.val t.isLt
    | ⟨n + 17, h⟩ => absurd (show n + 17 < 17 from h) (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## Region 1 -/

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point t stores in the output window, given what it loaded from it: that plus
    s_xx + s_yy - 2 s_xy of the point's four tiles. -/
def mmdStep (c : Dev nD) (t : Fin cfg1.N) (acc : Vec F S1x1 .f32) : FVec F S1x1 .f32 :=
  k1_pay1 (k1_pay4 (iblk1 V c 0 t) (iblk1 V c 1 t))
    (k1_pay6 (iblk1 V c 2 t) (iblk1 V c 3 t) (k1_pay5 (iblk1 V c 2 t)))
    (k1_pay7 (k1_pay3 (iblk1 V c 0 t)) (iblk1 V c 3 t)) acc

/-- The output window's buffer after the body at position n: started from the zero fill at the first point. -/
def mmdAcc (c : Dev nD) : (n : ℕ) → n < cfg1.N → Vec F S1x1 .f32
  | 0, hn => mmdStep V c ⟨0, hn⟩ k1_pay2
  | n + 1, hn => mmdStep V c ⟨n + 1, hn⟩ (mmdAcc c n (Nat.lt_of_succ_lt hn))

/-- Half of an array for each of the two input windows that read it. -/
def halfL : PosShare TreeShare := fullShare.left
def halfR : PosShare TreeShare := fullShare.right

/-- Region 1's proof data on core c: windows 0 and 1 read z, windows 2 and 3 read z_prior, half a share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => mmdAcc V c t.val t.isLt
    | ⟨n + 5, h⟩ => absurd (show n + 5 < 5 from h) (Nat.not_lt.2 (Nat.le_add_left _ _))
  Φ _ := Pipeline.ΦA spec1 c
  q w := match w with
    | ⟨0, _⟩ => halfL
    | ⟨1, _⟩ => halfR
    | ⟨2, _⟩ => halfL
    | ⟨3, _⟩ => halfR
    | ⟨4, _⟩ => fullShare
    | ⟨n + 5, h⟩ => absurd (show n + 5 < 5 from h) (Nat.not_lt.2 (Nat.le_add_left _ _))
  owed _ := 0

theorem A_eq1 (c : Dev nD) (w : Fin cfg1.W) : (dat1 V c).A w = V c (Pipeline.arrRef spec1 w) := by
  dsimp only [dat1]

end Cert.KernelIdeal.Hand

end
-- ==== Proof.KI.Run.lean ====
/-
  The run of @main over its four segments: the encoder / decoder region, three host operations, the
  pairwise kernel-sum region, six host operations, given the two regions' body obligations.

  Between two segments a core holds every unscoped buffer whole at a valuation: the launch memory, then
  the first region's two output arrays at what its write-backs leave, then the fold of the host operations,
  then the second region's output array at what its write-backs leave, then the fold of the last host
  operations. The second region reads one array through two windows, so its arrays are dealt by hand: the
  array behind two windows is split along the share into the two halves its proof data name and joined
  back at the exit, where an input window's array holds what it held at entry.
-/
import proofs.«125570_j13228499272255_1_alg».proof.Proof.KI.Data
import proofs.«125570_j13228499272255_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)
/-- The same read at the TensorCore's references: the first region's entry contents. -/
abbrev V0 : (c : Dev nD) → (b : Ref sig .tc) → Buf (Elt F) ((c : Thread nD τ).loc b) := fun c b => W0 m ρ c b
/-- At the first region's exit: each of its arrays at what the pipeline leaves (an input as entered, an output's
    write-backs folded), every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The latent sample's array after the first region. -/
theorem W1_z (c : Dev nD) : W1 m ρ c (Proc.devRef .tc main_v0_0) = (dat0 (V0 m ρ) c).arrAt 15 cfg0.N :=
  W1_arr m ρ c 15
/-- The squared-error accumulator's array after the first region. -/
theorem W1_sq (c : Dev nD) : W1 m ρ c (Proc.devRef .tc main_v0_1) = (dat0 (V0 m ρ) c).arrAt 16 cfg0.N :=
  W1_arr m ρ c 16
/-- An input window's array leaves the first region as it entered. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))

/-- After the three host operations: the second region's entry. -/
abbrev W2 : Dev nD → Valuation τ sig (Elt F) := fun c => StableHlo.after hostOps1 (W1 m ρ c)
/-- The same read at the TensorCore's references. -/
abbrev V2 : (c : Dev nD) → (b : Ref sig .tc) → Buf (Elt F) ((c : Thread nD τ).loc b) := fun c b => W2 m ρ c b
/-- At the second region's exit: its output array at what the pipeline leaves, every other buffer as entered. -/
def W3 (c : Dev nD) : Valuation τ sig (Elt F) :=
  Function.update (W2 m ρ c) (Proc.devRef .tc main_v3) ((dat1 (V2 m ρ) c).arrAt 4 cfg1.N)
theorem W3_out (c : Dev nD) : W3 m ρ c (Proc.devRef .tc main_v3) = (dat1 (V2 m ρ) c).arrAt 4 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
/-- After the last six host operations. -/
abbrev W4 : Dev nD → Valuation τ sig (Elt F) := fun c => StableHlo.after hostOps2 (W3 m ρ c)

/-! ### What no segment changes

  No host operation writes an argument or a region's array other than its own results, and a region changes
  only its output arrays: the fold at such a buffer walks back to an earlier boundary. -/

theorem W2_of_not_written (c : Dev nD) (r : Ref sig .tc) (h : r ∉ hostOps1_W) :
    W2 m ρ c (Proc.devRef .tc r) = W1 m ρ c (Proc.devRef .tc r) :=
  StableHlo.after_of_writes_sub hostOps1 _ hostOps1_writes h
theorem W4_of_not_written (c : Dev nD) (r : Ref sig .tc) (h : r ∉ hostOps2_W) :
    W4 m ρ c (Proc.devRef .tc r) = W3 m ρ c (Proc.devRef .tc r) :=
  StableHlo.after_of_writes_sub hostOps2 _ hostOps2_writes h

/-- An input window's array of the first region that no host operation writes and that is not the second
    region's output ends as launched. -/
theorem W4_of_window (c : Dev nD) (w : Fin cfg0.W) (hin : (cfg0.win w).isOut = false)
    (h1 : Pipeline.arrRef spec0 w ∉ hostOps1_W) (h2 : Pipeline.arrRef spec0 w ∉ hostOps2_W)
    (h3 : Pipeline.arrRef spec0 w ≠ main_v3) :
    W4 m ρ c (Proc.devRef .tc (Pipeline.arrRef spec0 w)) = m ((c : Thread nD τ).loc (Pipeline.arrRef spec0 w)) :=
  (W4_of_not_written m ρ c _ h2).trans <| (W3_of_ne m ρ c _ h3).trans <| (W2_of_not_written m ρ c _ h1).trans <|
    (W1_in m ρ c w hin).trans rfl

theorem W4_main_arg0 (c : Dev nD) : W4 m ρ c (Proc.devRef .tc main_arg0) = m ((c : Thread nD τ).loc main_arg0) :=
  W4_of_window m ρ c 0 rfl (by decide) (by decide) (by decide)
theorem W4_main_arg1 (c : Dev nD) : W4 m ρ c (Proc.devRef .tc main_arg1) = m ((c : Thread nD τ).loc main_arg1) :=
  W4_of_window m ρ c 1 rfl (by decide) (by decide) (by decide)
theorem W4_main_arg2 (c : Dev nD) : W4 m ρ c (Proc.devRef .tc main_arg2) = m ((c : Thread nD τ).loc main_arg2) :=
  W4_of_window m ρ c 2 rfl (by decide) (by decide) (by decide)
/-- The prior sample is no window of the first region; the second region reads it through two input windows. -/
theorem W4_main_arg3 (c : Dev nD) : W4 m ρ c (Proc.devRef .tc main_arg3) = m ((c : Thread nD τ).loc main_arg3) :=
  (W4_of_not_written m ρ c _ (by decide)).trans <| (W3_of_ne m ρ c _ (by decide)).trans <|
    (W2_of_not_written m ρ c _ (by decide)).trans <| (W1_of_ne m ρ c main_arg3 (by decide)).trans rfl
theorem W4_main_arg4 (c : Dev nD) : W4 m ρ c (Proc.devRef .tc main_arg4) = m ((c : Thread nD τ).loc main_arg4) :=
  W4_of_window m ρ c 3 rfl (by decide) (by decide) (by decide)
theorem W4_main_arg5 (c : Dev nD) : W4 m ρ c (Proc.devRef .tc main_arg5) = m ((c : Thread nD τ).loc main_arg5) :=
  W4_of_window m ρ c 4 rfl (by decide) (by decide) (by decide)
theorem W4_main_arg6 (c : Dev nD) : W4 m ρ c (Proc.devRef .tc main_arg6) = m ((c : Thread nD τ).loc main_arg6) :=
  W4_of_window m ρ c 5 rfl (by decide) (by decide) (by decide)
theorem W4_main_arg7 (c : Dev nD) : W4 m ρ c (Proc.devRef .tc main_arg7) = m ((c : Thread nD τ).loc main_arg7) :=
  W4_of_window m ρ c 6 rfl (by decide) (by decide) (by decide)
theorem W4_main_arg8 (c : Dev nD) : W4 m ρ c (Proc.devRef .tc main_arg8) = m ((c : Thread nD τ).loc main_arg8) :=
  W4_of_window m ρ c 7 rfl (by decide) (by decide) (by decide)
theorem W4_main_arg9 (c : Dev nD) : W4 m ρ c (Proc.devRef .tc main_arg9) = m ((c : Thread nD τ).loc main_arg9) :=
  W4_of_window m ρ c 8 rfl (by decide) (by decide) (by decide)
theorem W4_main_arg10 (c : Dev nD) : W4 m ρ c (Proc.devRef .tc main_arg10) = m ((c : Thread nD τ).loc main_arg10) :=
  W4_of_window m ρ c 9 rfl (by decide) (by decide) (by decide)
theorem W4_main_arg11 (c : Dev nD) : W4 m ρ c (Proc.devRef .tc main_arg11) = m ((c : Thread nD τ).loc main_arg11) :=
  W4_of_window m ρ c 10 rfl (by decide) (by decide) (by decide)
theorem W4_main_arg12 (c : Dev nD) : W4 m ρ c (Proc.devRef .tc main_arg12) = m ((c : Thread nD τ).loc main_arg12) :=
  W4_of_window m ρ c 11 rfl (by decide) (by decide) (by decide)
theorem W4_main_arg13 (c : Dev nD) : W4 m ρ c (Proc.devRef .tc main_arg13) = m ((c : Thread nD τ).loc main_arg13) :=
  W4_of_window m ρ c 12 rfl (by decide) (by decide) (by decide)
theorem W4_main_arg14 (c : Dev nD) : W4 m ρ c (Proc.devRef .tc main_arg14) = m ((c : Thread nD τ).loc main_arg14) :=
  W4_of_window m ρ c 13 rfl (by decide) (by decide) (by decide)
theorem W4_main_arg15 (c : Dev nD) : W4 m ρ c (Proc.devRef .tc main_arg15) = m ((c : Thread nD τ).loc main_arg15) :=
  W4_of_window m ρ c 14 rfl (by decide) (by decide) (by decide)

/-! ### What the second region's windows read -/

/-- The latent sample's array enters the second region as the first region left it: the three host operations
    between write other buffers. -/
theorem V2_z (c : Dev nD) : V2 m ρ c main_v0_0 = (dat0 (V0 m ρ) c).arrAt 15 cfg0.N :=
  (W2_of_not_written m ρ c main_v0_0 (by decide)).trans (W1_z m ρ c)
/-- The prior sample's array enters the second region as launched. -/
theorem V2_arg3 (c : Dev nD) : V2 m ρ c main_arg3 = m ((c : Thread nD τ).loc main_arg3) :=
  (W2_of_not_written m ρ c main_arg3 (by decide)).trans <| (W1_of_ne m ρ c main_arg3 (by decide)).trans rfl

/-! ### The returned scalar

  The nine host operations' term over the two regions' one-element outputs: the squared error divided by its
  constant, plus the third constant times the pairwise kernel sum divided by the second constant. -/

theorem W4_main_v7 (c : Dev nD) : W4 m ρ c (Proc.devRef .tc main_v7) =
    addf
      (Host.divf (F := F)
        (fun i => shapeCast main_v1.ty.shape ((dat0 (V0 m ρ) c).arrAt 16 cfg0.N) shapeCasts_S1x1_S_ i)
        (constant (F := F) S_ .f32 0x4B000000#32))
      (mulf (constant (F := F) S_ .f32 0x41200000#32)
        (Host.divf (F := F)
          (fun i => shapeCast main_v4.ty.shape ((dat1 (V2 m ρ) c).arrAt 4 cfg1.N) shapeCasts_S1x1_S_ i)
          (constant (F := F) S_ .f32 0x4C800000#32))) := by
  show StableHlo.after hostOps2 (W3 m ρ c) (Proc.devRef .tc main_v7) = _
  after_results
  rw [W3_out, W3_of_ne m ρ c main_v2 (by decide)]
  show addf (StableHlo.after hostOps1 (W1 m ρ c) (Proc.devRef .tc main_v2)) _ = _
  after_results
  rw [W1_sq]
  rfl

/-! ## The second region's arrays, dealt by hand

  The second region's five windows stand on three buffers: the latent sample (windows 0 and 1), the prior
  sample (windows 2 and 3) and the one-element output (window 4). -/

section Shared

variable (V : (c : Dev nD) → (b : Ref sig .tc) → Buf (Elt F) ((c : Thread nD τ).loc b))

/-- The distinct buffers behind the second region's windows, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v0_0) ↦{fullShare} X main_v0_0)
          ∗ (((c : Thread nD τ).loc main_arg3) ↦{fullShare} X main_arg3)
          ∗ (((c : Thread nD τ).loc main_v3) ↦{fullShare} X main_v3)) := by
  unfold Pipeline.arrBufs
  exact bigSep_eq_bigSepL_of_eq [main_v0_0, main_arg3, main_v3] (by decide) (by decide) _

theorem share1_0 (c : Dev nD) : (dat1 V c).share 0 = fullShare.left := rfl
theorem share1_1 (c : Dev nD) : (dat1 V c).share 1 = fullShare.right := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl

/-- The second region's arrays at contents Fn, one by one: each a whole buffer, the two windows on one
    buffer at the two halves of the full share, the output at the full share. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v0_0) ↦{fullShare.left} Fn 0)
          ∗ (((c : Thread nD τ).loc main_v0_0) ↦{fullShare.right} Fn 1)
          ∗ (((c : Thread nD τ).loc main_arg3) ↦{fullShare.left} Fn 2)
          ∗ (((c : Thread nD τ).loc main_arg3) ↦{fullShare.right} Fn 3)
          ∗ (((c : Thread nD τ).loc main_v3) ↦{fullShare} Fn 4)) := by
  unfold Dat.arrays
  rw [bigSep_W1, share1_0, share1_1, share1_2, share1_3, share1_4]
  simp only [View.set_whole]

end Shared

section Shared2

variable (V : (c : Dev nD) → (b : Ref sig .tc) → Buf (Elt F) ((c : Thread nD τ).loc b))

/-- ENTRY: a core's unscoped buffers at V are the second region's arrays at the proof data's entry contents and
    the unscoped rest: the latent sample and the prior sample are each split along the share between their two
    windows. -/
theorem arrays_of_unscopedBufs1 (c : Dev nD) :
    (unscopedBufs c (V c) : sProp 𝕄)
      ⊢ iprop((dat1 V c).arrays ((dat1 V c).arrAt · 0) ∗ Pipeline.unscopedRest spec1 c (V c)) := by
  have hs : (unscopedBufs c (V c) : sProp 𝕄)
      = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨Hz, Hp, Ho⟩, Hrest⟩
  ihave Hz' := (pointsTo_share (PosShare.mem_left_op_right fullShare)).1 $$ Hz
  icases Hz' with ⟨Hz0, Hz1⟩
  ihave Hp' := (pointsTo_share (PosShare.mem_left_op_right fullShare)).1 $$ Hp
  icases Hp' with ⟨Hp0, Hp1⟩
  isplitr [Hrest]
  · isplitl [Hz0]; · iexact Hz0
    isplitl [Hz1]; · iexact Hz1
    isplitl [Hp0]; · iexact Hp0
    isplitl [Hp1]; · iexact Hp1
    iexact Ho
  iexact Hrest

end Shared2

section Shared3

variable (V : (c : Dev nD) → (b : Ref sig .tc) → Buf (Elt F) ((c : Thread nD τ).loc b))

/-- EXIT: the second region's arrays at their final contents and the unscoped rest at V are the core's unscoped
    buffers at any valuation X that has the output array at its final contents and agrees with V at every other
    buffer: an input window's array ends as it entered, so the two halves of the latent sample and of the prior
    sample join back along the share. -/
theorem unscopedBufs_of_arrays1 (c : Dev nD) (X : (b : Ref sig .tc) → Buf (Elt F) ((c : Thread nD τ).loc b))
    (hout : X main_v3 = (dat1 V c).arrAt 4 cfg1.N) (hrest : ∀ b, b ≠ main_v3 → X b = V c b) :
    iprop((dat1 V c).arrays ((dat1 V c).arrAt · cfg1.N) ∗ Pipeline.unscopedRest spec1 c (V c))
      ⊢ (unscopedBufs c X : sProp 𝕄) := by
  have hs : (unscopedBufs c X : sProp 𝕄)
      = iprop(Pipeline.arrBufs spec1 c X ∗ Pipeline.unscopedRest spec1 c X) :=
    Pipeline.unscopedBufs_split₀ cfgs 1 winFacts₀1.arr_unscoped c X
  have hr : (Pipeline.unscopedRest spec1 c X : sProp 𝕄) = Pipeline.unscopedRest spec1 c (V c) := by
    unfold Pipeline.unscopedRest
    exact bigSep_congr fun b hb => by
      rw [hrest b fun e => (Finset.mem_sdiff.mp hb).2 (e ▸ Finset.mem_image.mpr ⟨4, Finset.mem_univ _, rfl⟩)]
  have h0 : (dat1 V c).arrAt 0 cfg1.N = V c main_v0_0 := ((dat1 V c).arrAt_in 0 rfl _).trans (A_eq1 V c 0)
  have h1 : (dat1 V c).arrAt 1 cfg1.N = V c main_v0_0 := ((dat1 V c).arrAt_in 1 rfl _).trans (A_eq1 V c 1)
  have h2 : (dat1 V c).arrAt 2 cfg1.N = V c main_arg3 := ((dat1 V c).arrAt_in 2 rfl _).trans (A_eq1 V c 2)
  have h3 : (dat1 V c).arrAt 3 cfg1.N = V c main_arg3 := ((dat1 V c).arrAt_in 3 rfl _).trans (A_eq1 V c 3)
  rw [hs, hr, arrBufs1_eq, arrays1_eq, hrest main_v0_0 (by decide), hrest main_arg3 (by decide), hout]
  simp only [h0, h1, h2, h3]
  iintro ⟨⟨Hz0, Hz1, Hp0, Hp1, Ho⟩, Hrest⟩
  isplitr [Hrest]
  · isplitl [Hz0 Hz1]
    · iapply (pointsTo_share (PosShare.mem_left_op_right fullShare)).2
      isplitl [Hz0]; · iexact Hz0
      iexact Hz1
    isplitl [Hp0 Hp1]
    · iapply (pointsTo_share (PosShare.mem_left_op_right fullShare)).2
      isplitl [Hp0]; · iexact Hp0
      iexact Hp1
    iexact Ho
  iexact Hrest

end Shared3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

/-- No core owes another anything: no level is assigned. -/
abbrev runL : GSem nD τ sig → Finset Unit := fun _ => ∅
abbrev runLv : GSem nD τ sig → Unit → ℕ := fun _ _ => 0
/-- What rides beside the buffers through every segment: the core's generator register at some state and the
    core owing nothing. -/
abbrev runR (c : Dev nD) : sProp 𝕄 :=
  iprop((∃ r, prngReg c r) ∗ ∃ W, owes (c : Thread nD τ) (0 : CellTallies nD τ sig Unit) W)

/-- A stretch of host operations as a segment over the unscoped buffers from the contents W, the rest riding along:
    it leaves them at the fold of the operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the owing: every unscoped buffer at the last boundary's contents, the generator
    register at some state. -/
abbrev runTn (c : Dev nD) : sProp 𝕄 :=
  iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at W1.
    Its seventeen arrays are distinct buffers: they split out of the unscoped buffers and go back at the exit
    contents; the generator register goes into the region's invariant and comes out; nothing is owed. -/
def reg0 (hb0 : ∀ c, BodyObligation (dat0 (F := F) (V0 m ρ) c) (defs₀ (F := F)) Variants.none () Set.univ) :
    Pipeline.RegionSeg (pcfgs (F := F)) adm (pdats m ρ) () defs₀ Variants.none runL runLv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ runL runLv 0 fun _ _ => rfl
  pre c := iprop(StableHlo.held (c : Thread nD τ) (Pipeline.ucRefs τ sig) (W0 m ρ c) ∗ runR c)
  post c := iprop(StableHlo.held (c : Thread nD τ) (Pipeline.ucRefs τ sig) (W1 m ρ c) ∗ runR c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (fun b => W1 m ρ c b) ((pdats m ρ 0 c).arrAt · cfg0.N) (fun w => (W1_arr m ρ c w).symm)
      (fun b hb => W1_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at W3. Its windows
    share arrays: the three buffers behind them split out of the unscoped buffers and are dealt to the windows at
    the shares the proof data name, and join back at the exit. -/
def reg1 (hb1 : ∀ c, BodyObligation (dat1 (F := F) (V2 m ρ) c) (defs₀ (F := F)) Variants.none () Set.univ) :
    Pipeline.RegionSeg (pcfgs (F := F)) adm (pdats m ρ) () defs₀ Variants.none runL runLv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ runL runLv 1 fun _ _ => rfl
  pre c := iprop(StableHlo.held (c : Thread nD τ) (Pipeline.ucRefs τ sig) (W2 m ρ c) ∗ runR c)
  post c := iprop(StableHlo.held (c : Thread nD τ) (Pipeline.ucRefs τ sig) (W3 m ρ c) ∗ runR c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays_of_unscopedBufs1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V2 m ρ) c (fun b => W3 m ρ c b) (W3_out m ρ c) (fun b hb => W3_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's four segments in order: the first region, the three host operations from W1, the second region, the
    six host operations from W3. -/
abbrev segs (hb0 : ∀ c, BodyObligation (dat0 (F := F) (V0 m ρ) c) (defs₀ (F := F)) Variants.none () Set.univ)
    (hb1 : ∀ c, BodyObligation (dat1 (F := F) (V2 m ρ) c) (defs₀ (F := F)) Variants.none () Set.univ) :
    List (Pipeline.Seg (pcfgs (F := F)) adm (pdats m ρ) () defs₀ Variants.none runL runLv) :=
  [ .region (reg0 m ρ hb0),
    .host (hseg hostOps1 hostOps1_sub hostOps1_fresh (W1 m ρ)),
    .region (reg1 m ρ hb1),
    .host (hseg hostOps2 hostOps2_sub hostOps2_fresh (W3 m ρ)) ]

/-- @main is the run of the segments. -/
theorem main_run (hb0 : ∀ c, BodyObligation (dat0 (F := F) (V0 m ρ) c) (defs₀ (F := F)) Variants.none () Set.univ)
    (hb1 : ∀ c, BodyObligation (dat1 (F := F) (V2 m ρ) c) (defs₀ (F := F)) Variants.none () Set.univ) (c : Dev nD) :
    main (F := F) c = Pipeline.Seg.run (segs m ρ hb0 hb1) :=
  main_segs adm (pdats m ρ) () Variants.none runL runLv
    (hseg hostOps1 hostOps1_sub hostOps1_fresh (W1 m ρ)) (hseg hostOps2 hostOps2_sub hostOps2_fresh (W3 m ρ))
    (reg0 m ρ hb0) (reg1 m ρ hb1) rfl rfl c

set_option backward.isDefEq.respectTransparency.types false in
/-- THE RUN. From any memory with zero counters, given the two regions' body obligations, every weakly fair
    execution of @main on the TensorCores terminates, nothing faulting, and every final state holds every unscoped
    buffer at the last boundary's contents W4. -/
theorem run_all
    (hb0 : ∀ c, BodyObligation (dat0 (F := F) (V0 m ρ) c) (defs₀ (F := F)) Variants.none () Set.univ)
    (hb1 : ∀ c, BodyObligation (dat1 (F := F) (V2 m ρ) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ Variants.none runL runLv m ρ main
    (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn m ρ)
    (hch := ⟨fun _ => .rfl, fun _ => .rfl, fun _ => .rfl, fun _ => .rfl, fun c => by
      show iprop(StableHlo.held (c : Thread nD τ) (Pipeline.ucRefs τ sig) (W4 m ρ c) ∗ runR c)
        ⊢ iprop(runTn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.KI.Body0Defs.lean ====
/-
  What the two control cases of region 0's body share: the branch condition of the body's one conditional
  (the accumulator is zero-filled at the first point of the grid only), decided over the grid, the
  staging memrefs the body is called with at a point, and the two stored values as functions of the
  loaded blocks.
-/
import proofs.«125570_j13228499272255_1_alg».proof.Proof.KI.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's conditional, from the grid coordinates: the point's coordinate along the
    batch axis is zero. -/
abbrev cond0_0 (i : grid0.Coords) : Prop := (Scalar.cmpi .ne (Scalar.extui (Scalar.cmpi .eq (BitVec.ofNat 32 (i 0).val) 0#32)) 0#32) = 1#1

/-- It holds at the first point only: decided over the sixteen points. -/
theorem hcond0_0 : ∀ t : Fin cfg0.N, cond0_0 (grid0.coords t) ↔ t.val % 16 = 0 :=
  (by decide +kernel : ∀ t : Fin grid0.N, cond0_0 (grid0.coords t) ↔ t.val % 16 = 0)

/-- Each window's current staging memref at point t, as the body is called with it, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x64 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)

/-- The zero offsets of a whole-buffer rectangle, of rank one and of rank two. -/
theorem hz1 : (![0] : Fin 1 → Nat) = fun _ => 0 := funext fun a => by fin_cases a <;> rfl
theorem hz2 : (![0, 0] : Fin 2 → Nat) = fun _ => 0 := funext fun a => by fin_cases a <;> rfl

/-- A store through the whole-buffer rectangle, last in a list of stores, leaves its payload: read back
    through any view of the shape, whatever the earlier stores and the prior contents were. -/
theorem read_writes_unit_zero {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- The latent tile as a function of the blocks the body loads (x-w is window w's block). -/
def zOf (x0 : Vec F S512x1024 .f32) (x2 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) : Vec F S512x64 .f32 :=
  k0_pay7 (k0_pay4 x0 x3 x4 x5 x6) (k0_pay5 x0 x7 x8) x9 x10 x2

/-- The error window's new contents as a function of the blocks the body loads and of what it loaded
    from the error window itself. -/
def sqOf (x0 : Vec F S512x1024 .f32) (x1 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) (x11 : Vec F S64x512 .f32) (x12 : Vec F S512 .f32) (x13 : Vec F S512x1024 .f32) (x14 : Vec F S1024 .f32) (acc : Vec F S1x1 .f32) : Vec F S1x1 .f32 :=
  k0_pay1 x0 (k0_pay8 (k0_pay4 x0 x3 x4 x5 x6) (k0_pay5 x0 x7 x8) x9 x10 x1 x11 x12) (k0_pay9 (k0_pay4 x0 x3 x4 x5 x6) (k0_pay5 x0 x7 x8) x9 x10 x1 x11 x12) k0_pay10 x13 x14 acc

variable (V : (c : Dev nD) → (b : Ref sig .tc) → Buf (Elt F) ((c : Thread nD τ).loc b))

/-- The proof data's latent tile is that function of the point's blocks. -/
theorem zTile_eq (c : Dev nD) (t : Fin cfg0.N) :
    zTile V c t = zOf (iblk0 V c 0 t) (iblk0 V c 2 t) (iblk0 V c 3 t) (iblk0 V c 4 t) (iblk0 V c 5 t) (iblk0 V c 6 t) (iblk0 V c 7 t) (iblk0 V c 8 t) (iblk0 V c 9 t) (iblk0 V c 10 t) := rfl

/-- The proof data's accumulation step is that function of the point's blocks. -/
theorem sqStep_eq (c : Dev nD) (t : Fin cfg0.N) (acc : Vec F S1x1 .f32) :
    sqStep V c t acc = sqOf (iblk0 V c 0 t) (iblk0 V c 1 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) acc := rfl

end Cert.KernelIdeal.Hand

end
-- ==== Proof.KI.Body0A.lean ====
/-
  The body of region 0 run in its first control case: the point is the first of the grid, the conditional
  zero-fills the error window's buffer, and the accumulation reads that zero back.
-/
import proofs.«125570_j13228499272255_1_alg».proof.Proof.KI.Body0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at the first point of the grid. On whole staging memrefs, the fifteen inputs' at their blocks
    and the two outputs' at anything, the body runs to the continuation holding the inputs' as they were,
    the latent window's buffer at the latent tile and the error window's at the tile's squared error added
    to the zero it has just been filled with. -/
theorem run0_A (c : Dev nD) (i : grid0.Coords) (arg1 : Memref sig .tc .vmem S512x1024 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S512x64 .f32) (harg6 : arg6.IsWhole) (arg7 : Memref sig .tc .vmem S64 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x64 .f32) (harg10 : arg10.IsWhole) (arg11 : Memref sig .tc .vmem S64 .f32) (harg11 : arg11.IsWhole) (arg12 : Memref sig .tc .vmem S64x512 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S1024 .f32) (harg15 : arg15.IsWhole) (arg16 : Memref sig .tc .vmem S512x64 .f32) (harg16 : arg16.IsWhole) (arg17 : Memref sig .tc .vmem S1x1 .f32) (harg17 : arg17.IsWhole) (hc0 : cond0_0 i)
    (x0 : Vec F S512x1024 .f32) (x1 : Vec F S512x64 .f32) (x2 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) (x11 : Vec F S64x512 .f32) (x12 : Vec F S512 .f32) (x13 : Vec F S512x1024 .f32) (x14 : Vec F S1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (zOf x0 x2 x3 x4 x5 x6 x7 x8 x9 x10) ∗ owns (c : Thread nD τ) arg17 fullShare (sqOf x0 x1 x3 x4 x5 x6 x7 x8 x9 x10 x11 x12 x13 x14 k0_pay2)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr
    swap; · iexact H15
    ipureintro
    refine (read_writes_unit_zero (S := S512x64) _ _ hz2 _ _ _).trans ?_
    sl_unfold_words
    unfold zOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]
  · iexists _; isplitr
    swap; · iexact H16
    ipureintro
    refine (read_writes_unit_zero (S := S1x1) _ _ hz2 _ _ _).trans ?_
    sl_unfold_words
    rw [View.readCov_unit_zero (S := S1x1) _ hz2]
    unfold sqOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]

end Cert.KernelIdeal.Hand

end
-- ==== Proof.KI.Body0B.lean ====
/-
  The body of region 0 run in its second control case: the point is not the first of the grid, the conditional
  is skipped, and the accumulation reads what the point before left in the error window's buffer.
-/
import proofs.«125570_j13228499272255_1_alg».proof.Proof.KI.Body0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at a later point of the grid. On whole staging memrefs, the fifteen inputs' at their blocks,
    the latent window's at anything and the error window's at the running sum so far, the body runs to the
    continuation holding the inputs' as they were, the latent window's buffer at the latent tile and the
    error window's at the running sum plus the tile's squared error. -/
theorem run0_B (c : Dev nD) (i : grid0.Coords) (arg1 : Memref sig .tc .vmem S512x1024 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S512x64 .f32) (harg6 : arg6.IsWhole) (arg7 : Memref sig .tc .vmem S64 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x64 .f32) (harg10 : arg10.IsWhole) (arg11 : Memref sig .tc .vmem S64 .f32) (harg11 : arg11.IsWhole) (arg12 : Memref sig .tc .vmem S64x512 .f32) (harg12 : arg12.IsWhole) (arg13 : Memref sig .tc .vmem S512 .f32) (harg13 : arg13.IsWhole) (arg14 : Memref sig .tc .vmem S512x1024 .f32) (harg14 : arg14.IsWhole) (arg15 : Memref sig .tc .vmem S1024 .f32) (harg15 : arg15.IsWhole) (arg16 : Memref sig .tc .vmem S512x64 .f32) (harg16 : arg16.IsWhole) (arg17 : Memref sig .tc .vmem S1x1 .f32) (harg17 : arg17.IsWhole) (hc0 : ¬cond0_0 i)
    (x0 : Vec F S512x1024 .f32) (x1 : Vec F S512x64 .f32) (x2 : Vec F S512x64 .f32) (x3 : Vec F S1024x512 .f32) (x4 : Vec F S512 .f32) (x5 : Vec F S512x64 .f32) (x6 : Vec F S64 .f32) (x7 : Vec F S1024x512 .f32) (x8 : Vec F S512 .f32) (x9 : Vec F S512x64 .f32) (x10 : Vec F S64 .f32) (x11 : Vec F S64x512 .f32) (x12 : Vec F S512 .f32) (x13 : Vec F S512x1024 .f32) (x14 : Vec F S1024 .f32) (xo16 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (zOf x0 x2 x3 x4 x5 x6 x7 x8 x9 x10) ∗ owns (c : Thread nD τ) arg17 fullShare (sqOf x0 x1 x3 x4 x5 x6 x7 x8 x9 x10 x11 x12 x13 x14 xo16)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr
    swap; · iexact H15
    ipureintro
    refine (read_writes_unit_zero (S := S512x64) _ _ hz2 _ _ _).trans ?_
    sl_unfold_words
    unfold zOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]
  · iexists _; isplitr
    swap; · iexact H16
    ipureintro
    refine (read_writes_unit_zero (S := S1x1) _ _ hz2 _ _ _).trans ?_
    sl_unfold_words
    unfold sqOf
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S512x1024) hz2, View.ld_unit_zero (S := S512x64) hz2, View.ld_unit_zero (S := S1024x512) hz2, View.ld_unit_zero (S := S64x512) hz2, View.ld_unit_zero (S := S1x1) hz2, View.ld_unit_zero (S := S512) hz1, View.ld_unit_zero (S := S64) hz1, View.ld_unit_zero (S := S1024) hz1]

end Cert.KernelIdeal.Hand

end
-- ==== Proof.KI.Body0.lean ====
/-
  The body obligation of region 0. At every point of the grid the fifteen input windows' staging buffers hold
  their blocks (fetched there, or still there from the first point: their block index has not moved); the
  latent window's buffer is fresh; the error window's buffer is fresh at the first point and holds the
  running sum of the point before afterwards (it is written back after the last point only). The body's run
  in the point's control case then leaves what the proof data says.
-/
import proofs.«125570_j13228499272255_1_alg».proof.Proof.KI.Body0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves, window by window (the proof data's match reduced) -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = zTile V c t := by dsimp only [dat0]
theorem after0_16 (c : Dev nD) (t : Fin cfg0.N) : (dat0 V c).after 16 t = sqAcc V c t.val t.isLt := by dsimp only [dat0]

/-! ## What the body finds -/

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl)
    (fun t => by rw [after0_14]; unfold Dat.blockOf iblk0; rw [A_eq0]; try rfl) t d).trans
    (by unfold Dat.fetched Dat.blockOf iblk0; rw [A_eq0]; try rfl)

/-- The latent window is written back after every point: its buffer is fresh at every point. -/
theorem before0_15 (c : Dev nD) (t : Fin cfg0.N) (d) : (dat0 V c).before 15 t d = d :=
  (dat0 V c).before_out_reset 15 rfl t (by
    by_cases h : t.val = 0
    · exact .inl h
    · exact .inr ⟨h, flush0_15 _⟩) d

/-- At the first point the error window's buffer is fresh. -/
theorem before0_16_A (c : Dev nD) (t : Fin cfg0.N) (h0 : t.val % 16 = 0) (d) : (dat0 V c).before 16 t d = d := by
  have hN : t.val < 16 := lt_of_lt_of_eq t.isLt (show cfg0.N = 16 from N_0)
  exact (dat0 V c).before_out_reset 16 rfl t (.inl (by omega)) d

/-- At a later point it holds what the body left at the point before: it was not written back between. -/
theorem before0_16_B (c : Dev nD) (t : Fin cfg0.N) (h0 : ¬t.val % 16 = 0) (d) :
    (dat0 V c).before 16 t d = sqAcc V c (t.val - 1) (Nat.lt_of_le_of_lt (Nat.sub_le _ _) t.isLt) := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dat0]

/-! ## The running sum, case by case -/

/-- At the first point the running sum is the step applied to the zero fill. -/
theorem sqAcc_A (c : Dev nD) (t : Fin cfg0.N) (h0 : t.val % 16 = 0) :
    sqAcc V c t.val t.isLt = sqStep V c t (k0_pay2 (F := F)) := by
  obtain ⟨n, hn⟩ := t
  have hN : n < 16 := lt_of_lt_of_eq hn (show cfg0.N = 16 from N_0)
  obtain rfl : n = 0 := by dsimp only at h0; omega
  rfl

/-- At a later point it is the step applied to the running sum of the point before. -/
theorem sqAcc_B (c : Dev nD) (t : Fin cfg0.N) (h0 : ¬t.val % 16 = 0) :
    sqAcc V c t.val t.isLt = sqStep V c t (sqAcc V c (t.val - 1) (Nat.lt_of_le_of_lt (Nat.sub_le _ _) t.isLt)) := by
  obtain ⟨n, hn⟩ := t
  cases n with
  | zero => exact absurd (Nat.zero_mod _) h0
  | succ n => rfl

/-! ## The body obligation, at a generic point -/

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t))

set_option maxHeartbeats 1600000 in
/-- The body at any point: the inputs' memrefs hold their blocks; the closed form of the condition says which
    case the point is in; the run of that case applies; the invariant passes through unread; the core owes
    nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, zTile_eq]
  by_cases h0 : t.val % 16 = 0
  · rw [sqAcc_A V c t h0, sqStep_eq]
    simp only [before0_16_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run0_A c (grid0.coords t) _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [sqAcc_B V c t h0, sqStep_eq]
    simp only [before0_16_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run0_B c (grid0.coords t) _ _ _ _ _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The library's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body V c t

end Cert.KernelIdeal.Hand

end
-- ==== Proof.KI.Body1.lean ====
/-
  The body obligation of region 1 (the pairwise kernel-sum kernel, 16 x 16 points).

  At every point the body loads its four 512-row tiles, computes s_xx + s_yy - 2 s_xy from them, loads the
  one-element accumulator and stores the accumulator plus that value. One conditional on the grid coordinates
  (both zero) fills the accumulator with zero first; it holds at the first point only, decided once over the grid
  in closed form. So there are two runs of the body: where the conditional is taken the accumulator's buffer may
  hold anything and is left at the step applied to zero (the load after the zero fill reads the zero vector back);
  where it is not, the buffer holds what the point before left (it is not written back in between) and is left at
  the step applied to that. Each input window's buffer holds its block at every point, fetched there or not.
-/
import proofs.«125570_j13228499272255_1_alg».proof.Proof.KI.Data
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's conditional and its step -/

/-- The condition of the body's one conditional, from the grid coordinates. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond1_0 : ∀ t : Fin cfg1.N, cond1_0 (grid1.coords t) ↔ t.val % 256 = 0 :=
  (by decide +kernel : ∀ t : Fin grid1.N, cond1_0 (grid1.coords t) ↔ t.val % 256 = 0)

/-- What the body stores in the accumulator from its four tiles and what it loaded from the accumulator. -/
def step1 (x0 x1 x2 x3 : Vec F S512x64 .f32) (acc : Vec F S1x1 .f32) : FVec F S1x1 .f32 :=
  k1_pay1 (k1_pay4 x0 x1) (k1_pay6 x2 x3 (k1_pay5 x2)) (k1_pay7 (k1_pay3 x0) x3) acc

/-! ## The body's two runs -/

/-- The zero offsets of a whole-block rectangle of rank 2, however spelt. -/
theorem hz00 : (![0, 0] : Fin 2 → Nat) = fun _ => 0 := funext fun a => by fin_cases a <;> rfl

set_option maxHeartbeats 1000000 in
/-- The body where the conditional is taken (the first point): the accumulator's buffer, whatever it held, is
    filled with zero, read back, and left at the step applied to zero; the four tiles are left as they were. -/
theorem run1_A (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S512x64 .f32) (harg4 : arg4.IsWhole) (arg5 : Memref sig .tc .vmem S512x64 .f32) (harg5 : arg5.IsWhole)
    (arg6 : Memref sig .tc .vmem S1x1 .f32) (harg6 : arg6.IsWhole) (hc0 : cond1_0 i)
    (x0 x1 x2 x3 : Vec F S512x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare (step1 x0 x1 x2 x3 k1_pay2)) -∗ K ⟨⟩))
      ⊢ wp frame (wpE (defs₀ (F := F)) Variants.none c none) E (cc1__mmd_kernel i arg2 harg2 arg3 harg3 arg4 harg4 arg5 harg5 arg6 harg6) K := by
  simp only [cc1__mmd_kernel_eq_skeleton]; unfold cc1__mmd_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_words
  refine (View.read_writes_eq_canon _ _ _ (fun y => ⟨_, List.mem_cons_self, View.mem_set_unit_zero (S := S1x1) hz00 inb_S1x1_S1x1_0_0 y⟩)).trans ?_
  rw [View.canon_cons_unit_zero (S := S1x1) hz00, View.readCov_unit_zero (S := S1x1) _ hz00]
  simp only [View.readAt_eq_ld, harg2.read_unread, harg3.read_unread, harg4.read_unread, harg5.read_unread, View.ld_unit_zero (S := S512x64) hz00]
  rfl

set_option maxHeartbeats 1000000 in
/-- The body where the conditional is not taken (every later point): the accumulator's buffer holding xo is
    left at the step applied to xo; the four tiles are left as they were. -/
theorem run1_B (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S512x64 .f32) (harg4 : arg4.IsWhole) (arg5 : Memref sig .tc .vmem S512x64 .f32) (harg5 : arg5.IsWhole)
    (arg6 : Memref sig .tc .vmem S1x1 .f32) (harg6 : arg6.IsWhole) (hc0 : ¬cond1_0 i)
    (x0 x1 x2 x3 : Vec F S512x64 .f32) (xo : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare (step1 x0 x1 x2 x3 xo)) -∗ K ⟨⟩))
      ⊢ wp frame (wpE (defs₀ (F := F)) Variants.none c none) E (cc1__mmd_kernel i arg2 harg2 arg3 harg3 arg4 harg4 arg5 harg5 arg6 harg6) K := by
  simp only [cc1__mmd_kernel_eq_skeleton]; unfold cc1__mmd_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_words
  refine (View.read_writes_eq_canon _ _ _ (fun y => ⟨_, List.mem_cons_self, View.mem_set_unit_zero (S := S1x1) hz00 inb_S1x1_S1x1_0_0 y⟩)).trans ?_
  rw [View.canon_unit_zero (S := S1x1) hz00]
  simp only [View.readAt_eq_ld, harg2.read_unread, harg3.read_unread, harg4.read_unread, harg5.read_unread, harg6.read_unread,
    View.ld_unit_zero (S := S512x64) hz00, View.ld_unit_zero (S := S1x1) hz00]
  rfl

/-! ## The proof data, window by window -/

variable (V : (c : Dev nD) → (b : Ref sig .tc) → Buf (Elt F) ((c : Thread nD τ).loc b))

/-- Each window's current staging memref at point t, as the pipeline passes it to the body, and its wholeness. -/
abbrev ms1_0 (t : Fin cfg1.N) : Memref sig .tc .vmem S512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = mmdAcc V c t.val t.isLt := by dsimp only [dat1]

/-- Each input window's current staging buffer holds its block at every point, fetched there or not: unfetched, the
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point the accumulator's staging buffer holds what the body left at the point before: the buffer is
    written back at the last point only, the window is live and uncut. -/
theorem before1_4_B (c : Dev nD) (t : Fin cfg1.N) (h0 : ¬t.val % 256 = 0) (d) :
    (dat1 V c).before 4 t d = mmdAcc V c (t.val - 1) (Nat.lt_of_le_of_lt (Nat.sub_le _ _) t.isLt) := by
  have hN : t.val < 256 := lt_of_lt_of_eq t.isLt (show cfg1.N = 256 from N_1)
  rw [Dat.before_out_kept _ 4 rfl t (by omega) (Bool.eq_false_iff.mpr fun h => by have := (flush1_4 _).mp h; dsimp only at this; omega)
    (fun _ => rfl) (fun _ _ => rfl)]
  dsimp only [dat1]

/-- The running sum at the first point: the step applied to zero. -/
theorem mmdAcc_A (c : Dev nD) (t : Fin cfg1.N) (h0 : t.val % 256 = 0) :
    mmdAcc V c t.val t.isLt = step1 (iblk1 V c 0 t) (iblk1 V c 1 t) (iblk1 V c 2 t) (iblk1 V c 3 t) k1_pay2 := by
  obtain ⟨n, hn⟩ := t
  cases n with
  | zero => exact rfl
  | succ n =>
    exfalso
    have hN : n + 1 < 256 := lt_of_lt_of_eq hn (show cfg1.N = 256 from N_1)
    dsimp only at h0
    omega

/-- The running sum at a later point: the step applied to the running sum at the point before. -/
theorem mmdAcc_B (c : Dev nD) (t : Fin cfg1.N) (h0 : ¬t.val % 256 = 0) :
    mmdAcc V c t.val t.isLt = step1 (iblk1 V c 0 t) (iblk1 V c 1 t) (iblk1 V c 2 t) (iblk1 V c 3 t)
      (mmdAcc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the closed form says which case the point is in;
    at a later point the accumulator's buffer holds what the point before left; so the case's run applies; the
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 256 = 0
  · rw [mmdAcc_A V c t h0]
    iintro ⟨HΦ, Ho, ⟨%d0, H0⟩, ⟨%d1, H1⟩, ⟨%d2, H2⟩, ⟨%d3, H3⟩, ⟨%d4, H4⟩⟩
    iapply (run1_A c (grid1.coords t) _ _ _ _ _ _ _ _ _ _ ((hcond1_0 t).mpr h0)
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [mmdAcc_B V c t h0]
    simp only [before1_4_B V c t h0]
    iintro ⟨HΦ, Ho, ⟨%d0, H0⟩, ⟨%d1, H1⟩, ⟨%d2, H2⟩, ⟨%d3, H3⟩, ⟨%d4, H4⟩⟩
    iapply (run1_B c (grid1.coords t) _ _ _ _ _ _ _ _ _ _ (fun h => h0 ((hcond1_0 t).mp h))
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation of region 1, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.Blocks0.lean ====
/-
  Region 0's windows read off their arrays. A tiled window's block at point t is rows 512 t … 512 t + 511 of
  its array (block index (t, 0), unit strides); a weight or bias window's block is its whole array at every
  point (block index zero). The block indices are decided once over the 16 points.
-/
import proofs.«125570_j13228499272255_1_alg».proof.Proof.KI.Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

variable {F : FTy → Type} [FloatOps F]

variable (V : (c : Dev nD) → (b : Ref sig .tc) → Buf (Elt F) ((c : Thread nD τ).loc b))

theorem row_lt0 (t : Fin cfg0.N) (p : Fin 512) : 512 * t.val + p.val < 8192 := by
  have hN : cfg0.N = 16 := N_0
  have := t.isLt; have := p.isLt; omega

/-- The block index of every window of region 0 at every point. -/
theorem idx0 : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0)
    ∧ (win0_5.index t 0 = 0 ∧ win0_5.index t 1 = 0)
    ∧ (win0_6.index t 0 = 0)
    ∧ (win0_7.index t 0 = 0 ∧ win0_7.index t 1 = 0)
    ∧ (win0_8.index t 0 = 0)
    ∧ (win0_9.index t 0 = 0 ∧ win0_9.index t 1 = 0)
    ∧ (win0_10.index t 0 = 0)
    ∧ (win0_11.index t 0 = 0 ∧ win0_11.index t 1 = 0)
    ∧ (win0_12.index t 0 = 0)
    ∧ (win0_13.index t 0 = 0 ∧ win0_13.index t 1 = 0)
    ∧ (win0_14.index t 0 = 0)
    ∧ (win0_15.index t 0 = t.val ∧ win0_15.index t 1 = 0)
    ∧ (win0_16.index t 0 = 0 ∧ win0_16.index t 1 = 0) :=
  (by decide +kernel : ∀ t : Fin grid0.N, _)

/-- Window 0's block at point t is rows 512 t … 512 t + 511 of its array. -/
theorem iblk0_0_apply (c : Dev nD) (t : Fin cfg0.N) (p : Fin 512) (k : Fin 1024) :
    (iblk0 V c 0 t : Vec F S512x1024 .f32) (ix2 p k) = V c main_arg0 (ix2 (⟨512 * t.val + p.val, row_lt0 t p⟩ : Fin 8192) k) := by
  unfold iblk0
  rw [View.read_apply]
  show V c main_arg0 _ = V c main_arg0 _
  refine congrArg (V c main_arg0) (funext fun a => Fin.ext ?_)
  match a with
  | ⟨0, _⟩ => show win0_0.index t 0 * 512 + 1 * p.val = 512 * t.val + p.val; rw [(idx0 t).1.1]; omega
  | ⟨1, _⟩ => show win0_0.index t 1 * 1024 + 1 * k.val = k.val; rw [(idx0 t).1.2]; omega

/-- Window 1's block at point t is rows 512 t … 512 t + 511 of its array. -/
theorem iblk0_1_apply (c : Dev nD) (t : Fin cfg0.N) (p : Fin 512) (k : Fin 64) :
    (iblk0 V c 1 t : Vec F S512x64 .f32) (ix2 p k) = V c main_arg1 (ix2 (⟨512 * t.val + p.val, row_lt0 t p⟩ : Fin 8192) k) := by
  unfold iblk0
  rw [View.read_apply]
  show V c main_arg1 _ = V c main_arg1 _
  refine congrArg (V c main_arg1) (funext fun a => Fin.ext ?_)
  match a with
  | ⟨0, _⟩ => show win0_1.index t 0 * 512 + 1 * p.val = 512 * t.val + p.val; rw [(idx0 t).2.1.1]; omega
  | ⟨1, _⟩ => show win0_1.index t 1 * 64 + 1 * k.val = k.val; rw [(idx0 t).2.1.2]; omega

/-- Window 2's block at point t is rows 512 t … 512 t + 511 of its array. -/
theorem iblk0_2_apply (c : Dev nD) (t : Fin cfg0.N) (p : Fin 512) (k : Fin 64) :
    (iblk0 V c 2 t : Vec F S512x64 .f32) (ix2 p k) = V c main_arg2 (ix2 (⟨512 * t.val + p.val, row_lt0 t p⟩ : Fin 8192) k) := by
  unfold iblk0
  rw [View.read_apply]
  show V c main_arg2 _ = V c main_arg2 _
  refine congrArg (V c main_arg2) (funext fun a => Fin.ext ?_)
  match a with
  | ⟨0, _⟩ => show win0_2.index t 0 * 512 + 1 * p.val = 512 * t.val + p.val; rw [(idx0 t).2.2.1.1]; omega
  | ⟨1, _⟩ => show win0_2.index t 1 * 64 + 1 * k.val = k.val; rw [(idx0 t).2.2.1.2]; omega

/-- Window 3's block at every point is its whole array. -/
theorem iblk0_3_eq (c : Dev nD) (t : Fin cfg0.N) : (iblk0 V c 3 t : Vec F S1024x512 .f32) = V c main_arg4 := by
  funext j
  unfold iblk0
  rw [View.read_apply]
  show V c main_arg4 _ = V c main_arg4 _
  refine congrArg (V c main_arg4) (funext fun a => Fin.ext ?_)
  match a with
  | ⟨0, _⟩ => show win0_3.index t 0 * 1024 + 1 * (j 0).val = (j 0).val; rw [(idx0 t).2.2.2.1.1]; omega
  | ⟨1, _⟩ => show win0_3.index t 1 * 512 + 1 * (j 1).val = (j 1).val; rw [(idx0 t).2.2.2.1.2]; omega

/-- Window 4's block at every point is its whole array. -/
theorem iblk0_4_eq (c : Dev nD) (t : Fin cfg0.N) : (iblk0 V c 4 t : Vec F S512 .f32) = V c main_arg5 := by
  funext j
  unfold iblk0
  rw [View.read_apply]
  show V c main_arg5 _ = V c main_arg5 _
  refine congrArg (V c main_arg5) (funext fun a => Fin.ext ?_)
  match a with
  | ⟨0, _⟩ => show win0_4.index t 0 * 512 + 1 * (j 0).val = (j 0).val; rw [(idx0 t).2.2.2.2.1]; omega

/-- Window 5's block at every point is its whole array. -/
theorem iblk0_5_eq (c : Dev nD) (t : Fin cfg0.N) : (iblk0 V c 5 t : Vec F S512x64 .f32) = V c main_arg6 := by
  funext j
  unfold iblk0
  rw [View.read_apply]
  show V c main_arg6 _ = V c main_arg6 _
  refine congrArg (V c main_arg6) (funext fun a => Fin.ext ?_)
  match a with
  | ⟨0, _⟩ => show win0_5.index t 0 * 512 + 1 * (j 0).val = (j 0).val; rw [(idx0 t).2.2.2.2.2.1.1]; omega
  | ⟨1, _⟩ => show win0_5.index t 1 * 64 + 1 * (j 1).val = (j 1).val; rw [(idx0 t).2.2.2.2.2.1.2]; omega

/-- Window 6's block at every point is its whole array. -/
theorem iblk0_6_eq (c : Dev nD) (t : Fin cfg0.N) : (iblk0 V c 6 t : Vec F S64 .f32) = V c main_arg7 := by
  funext j
  unfold iblk0
  rw [View.read_apply]
  show V c main_arg7 _ = V c main_arg7 _
  refine congrArg (V c main_arg7) (funext fun a => Fin.ext ?_)
  match a with
  | ⟨0, _⟩ => show win0_6.index t 0 * 64 + 1 * (j 0).val = (j 0).val; rw [(idx0 t).2.2.2.2.2.2.1]; omega

/-- Window 7's block at every point is its whole array. -/
theorem iblk0_7_eq (c : Dev nD) (t : Fin cfg0.N) : (iblk0 V c 7 t : Vec F S1024x512 .f32) = V c main_arg8 := by
  funext j
  unfold iblk0
  rw [View.read_apply]
  show V c main_arg8 _ = V c main_arg8 _
  refine congrArg (V c main_arg8) (funext fun a => Fin.ext ?_)
  match a with
  | ⟨0, _⟩ => show win0_7.index t 0 * 1024 + 1 * (j 0).val = (j 0).val; rw [(idx0 t).2.2.2.2.2.2.2.1.1]; omega
  | ⟨1, _⟩ => show win0_7.index t 1 * 512 + 1 * (j 1).val = (j 1).val; rw [(idx0 t).2.2.2.2.2.2.2.1.2]; omega

/-- Window 8's block at every point is its whole array. -/
theorem iblk0_8_eq (c : Dev nD) (t : Fin cfg0.N) : (iblk0 V c 8 t : Vec F S512 .f32) = V c main_arg9 := by
  funext j
  unfold iblk0
  rw [View.read_apply]
  show V c main_arg9 _ = V c main_arg9 _
  refine congrArg (V c main_arg9) (funext fun a => Fin.ext ?_)
  match a with
  | ⟨0, _⟩ => show win0_8.index t 0 * 512 + 1 * (j 0).val = (j 0).val; rw [(idx0 t).2.2.2.2.2.2.2.2.1]; omega

/-- Window 9's block at every point is its whole array. -/
theorem iblk0_9_eq (c : Dev nD) (t : Fin cfg0.N) : (iblk0 V c 9 t : Vec F S512x64 .f32) = V c main_arg10 := by
  funext j
  unfold iblk0
  rw [View.read_apply]
  show V c main_arg10 _ = V c main_arg10 _
  refine congrArg (V c main_arg10) (funext fun a => Fin.ext ?_)
  match a with
  | ⟨0, _⟩ => show win0_9.index t 0 * 512 + 1 * (j 0).val = (j 0).val; rw [(idx0 t).2.2.2.2.2.2.2.2.2.1.1]; omega
  | ⟨1, _⟩ => show win0_9.index t 1 * 64 + 1 * (j 1).val = (j 1).val; rw [(idx0 t).2.2.2.2.2.2.2.2.2.1.2]; omega

/-- Window 10's block at every point is its whole array. -/
theorem iblk0_10_eq (c : Dev nD) (t : Fin cfg0.N) : (iblk0 V c 10 t : Vec F S64 .f32) = V c main_arg11 := by
  funext j
  unfold iblk0
  rw [View.read_apply]
  show V c main_arg11 _ = V c main_arg11 _
  refine congrArg (V c main_arg11) (funext fun a => Fin.ext ?_)
  match a with
  | ⟨0, _⟩ => show win0_10.index t 0 * 64 + 1 * (j 0).val = (j 0).val; rw [(idx0 t).2.2.2.2.2.2.2.2.2.2.1]; omega

/-- Window 11's block at every point is its whole array. -/
theorem iblk0_11_eq (c : Dev nD) (t : Fin cfg0.N) : (iblk0 V c 11 t : Vec F S64x512 .f32) = V c main_arg12 := by
  funext j
  unfold iblk0
  rw [View.read_apply]
  show V c main_arg12 _ = V c main_arg12 _
  refine congrArg (V c main_arg12) (funext fun a => Fin.ext ?_)
  match a with
  | ⟨0, _⟩ => show win0_11.index t 0 * 64 + 1 * (j 0).val = (j 0).val; rw [(idx0 t).2.2.2.2.2.2.2.2.2.2.2.1.1]; omega
  | ⟨1, _⟩ => show win0_11.index t 1 * 512 + 1 * (j 1).val = (j 1).val; rw [(idx0 t).2.2.2.2.2.2.2.2.2.2.2.1.2]; omega

/-- Window 12's block at every point is its whole array. -/
theorem iblk0_12_eq (c : Dev nD) (t : Fin cfg0.N) : (iblk0 V c 12 t : Vec F S512 .f32) = V c main_arg13 := by
  funext j
  unfold iblk0
  rw [View.read_apply]
  show V c main_arg13 _ = V c main_arg13 _
  refine congrArg (V c main_arg13) (funext fun a => Fin.ext ?_)
  match a with
  | ⟨0, _⟩ => show win0_12.index t 0 * 512 + 1 * (j 0).val = (j 0).val; rw [(idx0 t).2.2.2.2.2.2.2.2.2.2.2.2.1]; omega

/-- Window 13's block at every point is its whole array. -/
theorem iblk0_13_eq (c : Dev nD) (t : Fin cfg0.N) : (iblk0 V c 13 t : Vec F S512x1024 .f32) = V c main_arg14 := by
  funext j
  unfold iblk0
  rw [View.read_apply]
  show V c main_arg14 _ = V c main_arg14 _
  refine congrArg (V c main_arg14) (funext fun a => Fin.ext ?_)
  match a with
  | ⟨0, _⟩ => show win0_13.index t 0 * 512 + 1 * (j 0).val = (j 0).val; rw [(idx0 t).2.2.2.2.2.2.2.2.2.2.2.2.2.1.1]; omega
  | ⟨1, _⟩ => show win0_13.index t 1 * 1024 + 1 * (j 1).val = (j 1).val; rw [(idx0 t).2.2.2.2.2.2.2.2.2.2.2.2.2.1.2]; omega

/-- Window 14's block at every point is its whole array. -/
theorem iblk0_14_eq (c : Dev nD) (t : Fin cfg0.N) : (iblk0 V c 14 t : Vec F S1024 .f32) = V c main_arg15 := by
  funext j
  unfold iblk0
  rw [View.read_apply]
  show V c main_arg15 _ = V c main_arg15 _
  refine congrArg (V c main_arg15) (funext fun a => Fin.ext ?_)
  match a with
  | ⟨0, _⟩ => show win0_14.index t 0 * 1024 + 1 * (j 0).val = (j 0).val; rw [(idx0 t).2.2.2.2.2.2.2.2.2.2.2.2.2.2.1]; omega

end Cert.KernelIdeal.Hand

end
-- ==== Proof.KI.Fold0.lean ====
/-
  Region 0's two output arrays after the run.

  The z array: point t writes back rows 512 t … 512 t + 511 (block index (t, 0)), the sixteen blocks tile the
  8192 rows, and what each point writes is its tile of ONE array, the one assembled from the tiles; so the z
  array ends holding that array. The one-element error array is written back once, after the last point, from
  the accumulator's buffer: it ends holding the running sum after point 15.
-/
import proofs.«125570_j13228499272255_1_alg».proof.Proof.KI.Blocks0

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

variable {F : FTy → Type} [FloatOps F]

variable (V : (c : Dev nD) → (b : Ref sig .tc) → Buf (Elt F) ((c : Thread nD τ).loc b))

theorem lt_N0_of_row {r : Nat} (h : r < 8192) : r / 512 < cfg0.N := by
  have := N_0; show r / 512 < grid0.N; omega

/-- The z array assembled from the tiles: row r is row r % 512 of tile r / 512. -/
def zAssembled (c : Dev nD) : Buf (Elt F) ((c : Thread nD τ).loc main_v0_0) := fun i =>
  zTile V c ⟨(i 0).val / 512, lt_N0_of_row (show (i 0).val < 8192 from (i 0).isLt)⟩
    (ix2 (⟨(i 0).val % 512, Nat.mod_lt _ (by norm_num)⟩ : Fin 512) (⟨(i 1).val, (i 1).isLt⟩ : Fin 64))

theorem xsize15 : ∀ t : Fin cfg0.N, win0_15.xsize (grid0.coords t) 0 = 512 ∧ win0_15.xsize (grid0.coords t) 1 = 64 :=
  (by decide +kernel : ∀ t : Fin grid0.N, _)

theorem idx15 (t : Fin cfg0.N) : win0_15.index t 0 = t.val ∧ win0_15.index t 1 = 0 :=
  (idx0 t).2.2.2.2.2.2.2.2.2.2.2.2.2.2.2.1

theorem fold_after0_15 (c : Dev nD) (t : Fin cfg0.N) : (dat0 V c).after 15 t = zTile V c t := by dsimp only [dat0]
theorem fold_after0_16 (c : Dev nD) (t : Fin cfg0.N) : (dat0 V c).after 16 t = sqAcc V c t.val t.isLt := by dsimp only [dat0]

theorem zTile_congr (c : Dev nD) (t t' : Fin cfg0.N) (p p' : Fin 512) (d d' : Fin 64) (ht : t' = t) (hp : p' = p) (hd : d' = d) :
    zTile V c t' (ix2 p' d') = zTile V c t (ix2 p d) := by subst ht hp hd; rfl

/-- What point t writes back into the z array is its block of the assembled array. -/
theorem flushed15_eq (c : Dev nD) (t : Fin cfg0.N) (hf : (cfg0.win 15).flush t = true) :
    (dat0 V c).flushed 15 t = ((cfg0.win 15).blk t).view.read (Elt F) (zAssembled V c) := by
  show (cfg0.win 15).cut (grid0.coords t) ((dat0 V c).after 15 t) = _
  rw [fold_after0_15]
  funext y
  rw [View.read_apply]
  obtain ⟨p, d, rfl⟩ : ∃ (p : Fin 512) (d : Fin 64), y = ix2 p d := ⟨y 0, y 1, eq_ix2 y⟩
  have e0 : ((((cfg0.win 15).blk t).view.emb (ix2 p d)) 0).val = 512 * t.val + p.val := by
    show win0_15.index t 0 * 512 + 1 * p.val = _
    rw [(idx15 t).1]; omega
  have e1 : ((((cfg0.win 15).blk t).view.emb (ix2 p d)) 1).val = d.val := by
    show win0_15.index t 1 * 64 + 1 * d.val = _
    rw [(idx15 t).2]; omega
  show zTile V c t (ix2 p d) = zAssembled V c _
  unfold zAssembled
  refine (zTile_congr V c t _ p _ d _ (Fin.ext ?_) (Fin.ext ?_) (Fin.ext ?_)).symm
  · show _ / 512 = t.val; rw [e0]; have := p.isLt; omega
  · show _ % 512 = p.val; rw [e0]; have := p.isLt; omega
  · exact e1

/-- The z array after the run. -/
theorem z_final (c : Dev nD) : (dat0 V c).arrAt 15 cfg0.N = zAssembled V c :=
  (dat0 V c).arrAt_eq_of_cover 15 (zAssembled V c) (flushed15_eq V c) fun i => by
    have h0 : (i 0 : Nat) < 8192 := (i 0).isLt
    have h1 : (i 1 : Nat) < 64 := (i 1).isLt
    refine ⟨⟨(i 0).val / 512, lt_N0_of_row h0⟩, flush0_15 _, ?_⟩
    generalize ht : (⟨(i 0).val / 512, lt_N0_of_row h0⟩ : Fin cfg0.N) = t
    have htv : t.val = (i 0).val / 512 := by rw [← ht]
    show i ∈ ((View.whole main_v0_0).slice (win0_15.rect t)).set
    rw [View.set_slice_whole, Rect.mem_set_unit]
    intro a
    match a with
    | ⟨0, _⟩ =>
      show win0_15.index t 0 * win0_15.size 0 ≤ (i 0 : Nat) ∧ (i 0 : Nat) < win0_15.index t 0 * win0_15.size 0 + win0_15.xsize (grid0.coords t) 0
      rw [(idx15 t).1, (xsize15 t).1, show win0_15.size 0 = 512 from rfl, htv]
      omega
    | ⟨1, _⟩ =>
      show win0_15.index t 1 * win0_15.size 1 ≤ (i 1 : Nat) ∧ (i 1 : Nat) < win0_15.index t 1 * win0_15.size 1 + win0_15.xsize (grid0.coords t) 1
      rw [(idx15 t).2, (xsize15 t).2]
      omega

/-- The running sum after the last point, as the one-element array. -/
abbrev sqResult (c : Dev nD) : Buf (Elt F) ((c : Thread nD τ).loc main_v0_1) :=
  sqAcc V c 15 (by rw [show cfg0.N = 16 from N_0]; decide)

/-- The one write-back of the error array, after point 15, writes the running sum: block (0, 0) of a [1,1]
    array read through zero offsets is the array. -/
theorem flushed16_eq (c : Dev nD) (t : Fin cfg0.N) (hf : (cfg0.win 16).flush t = true) :
    (dat0 V c).flushed 16 t = ((cfg0.win 16).blk t).view.read (Elt F) (sqResult V c) := by
  have hN : cfg0.N = 16 := N_0
  have h15 : t.val = 15 := by have := (flush0_16 t).mp hf; have := t.isLt; omega
  obtain rfl : t = t0_15 := Fin.ext h15
  show (cfg0.win 16).cut (grid0.coords t0_15) ((dat0 V c).after 16 t0_15) = _
  rw [fold_after0_16]
  have hz' : (fun a => win0_16.index t0_15 a * main_v0_1.ty.shape.size a) = fun _ => 0 := funext fun a => by fin_cases a <;> decide
  exact (Memref.read_access_unit_zero (Elt F) main_v0_1 hz' (fun a => by rw [congrFun hz' a]; simp) (sqResult V c)).symm

/-- The error array after the run. -/
theorem sq_final (c : Dev nD) : (dat0 V c).arrAt 16 cfg0.N = sqResult V c :=
  (dat0 V c).arrAt_eq_of_cover 16 (sqResult V c) (flushed16_eq V c) fun i =>
    ⟨t0_15, (flush0_16 t0_15).mpr rfl, by
      show i ∈ ((View.whole main_v0_1).slice (win0_16.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_16.index t0_15 0 * win0_16.size 0 ≤ (i 0 : Nat) ∧ (i 0 : Nat) < win0_16.index t0_15 0 * win0_16.size 0 + win0_16.xsize (grid0.coords t0_15) 0
                  rw [show win0_16.index t0_15 0 * win0_16.size 0 = 0 from by decide +kernel, show win0_16.xsize (grid0.coords t0_15) 0 = 1 from by decide +kernel]; omega
      | ⟨1, _⟩ => show win0_16.index t0_15 1 * win0_16.size 1 ≤ (i 1 : Nat) ∧ (i 1 : Nat) < win0_16.index t0_15 1 * win0_16.size 1 + win0_16.xsize (grid0.coords t0_15) 1
                  rw [show win0_16.index t0_15 1 * win0_16.size 1 = 0 from by decide +kernel, show win0_16.xsize (grid0.coords t0_15) 1 = 1 from by decide +kernel]; omega⟩

end Cert.KernelIdeal.Hand

end
-- ==== Proof.Spec.lean ====
/-
  The specification: the loss as functions of the argument arrays over the extended reals, written once for the
  kernel's arrangement (sums taken tile by tile) and once for the reference's (sums over the whole arrays), with
  the one law that joins them.

  Row functions. For one row x_r of the batch (1024 entries) and its two noise rows (64 entries each):
    mean   = lrelu (lrelu (x_r W1mu + b1mu) W2mu + b2mu)
    logvar = clip (lrelu (tanh (x_r W1sig + b1sig) W2sig + b2sig), -10, 10)
    z(n)   = mean + exp (logvar / 2) * n                      (n the encoder's noise row, or the sampling one)
    recon  = lrelu (lrelu (z(noise_enc) W1dec + b1dec) W2dec + b2dec)
    sq_j   = (recon_j - x_rj)^2
  Every one of them reads the batch through the row r alone: a tile of 512 rows computes them row by row.

  Pair function. For two rows a, b of 64 entries: k(a, b) = exp (-(|a|^2 + |b|^2 - 2 a.b) / 4096). The kernel
  multiplies by the word of 2^-12 where the reference divides by 4096: the same extended real.

  The loss is  (sum of sq) / 2^23 + 10 * mmd  where, with Sxx, Syy, Sxy the sums of k over all pairs of rows of
  (z, z), (z_prior, z_prior), (z, z_prior):
    the reference:  mmd = (Sxx / 2^26 + Syy / 2^26) - 2 * (Sxy / 2^26)
    the kernel:     mmd = (sum over the 256 tile pairs of ((sxx + syy) - 2 * sxy)) / 2^26.
  Each k is an exponential, so it lies in [0, +inf]; on [0, +inf] the two groupings agree (the only infinity that
  can meet an opposite one is a +inf among the sxy, and then both sides are -inf).
-/
import Idealize.ShloMosaic.PureOps.Ideal
import Idealize.ShloMosaic.Lib.ValueIdx

noncomputable section

namespace Cert.Spec

open Idealize.ShloMosaic

/-! ## The float words the two programs spell -/

abbrev zeroW : Ideal .f32 := Ideal.ofBits .f32 0x00000000#32
abbrev slopeW : Ideal .f32 := Ideal.ofBits .f32 0x3C23D70A#32
abbrev loW : Ideal .f32 := Ideal.ofBits .f32 0xC1200000#32
abbrev hiW : Ideal .f32 := Ideal.ofBits .f32 0x41200000#32
abbrev halfW : Ideal .f32 := Ideal.ofBits .f32 0x3F000000#32
abbrev twoW : Ideal .f32 := Ideal.ofBits .f32 0x40000000#32
abbrev tenW : Ideal .f32 := Ideal.ofBits .f32 0x41200000#32
/-- 2^-12, the kernel's multiplier. -/
abbrev invD2W : Ideal .f32 := Ideal.ofBits .f32 0x39800000#32
/-- 4096, the reference's divisor. -/
abbrev d2W : Ideal .f32 := Ideal.ofBits .f32 0x45800000#32
/-- 2^23 = 8192 * 1024. -/
abbrev nRecW : Ideal .f32 := Ideal.ofBits .f32 0x4B000000#32
/-- 2^26 = 8192 * 8192. -/
abbrev nMmdW : Ideal .f32 := Ideal.ofBits .f32 0x4C800000#32

/-! ## Row functions -/

/-- where(x > 0, x, slope * x). -/
def lrelu (x : Ideal .f32) : Ideal .f32 :=
  Scalar.select (FloatOps.cmpf (F := Ideal) .ogt x zeroW) x (slopeW * x)

/-- One dense layer at one output: v . W[:, n] + b[n]. -/
def dense {K N : Nat} (v : Fin K → EReal) (w : Fin K → Fin N → EReal) (b : Fin N → EReal) (n : Fin N) : EReal :=
  (∑ k : Fin K, v k * w k n) + b n

/-- The weight and bias arrays by coordinates. -/
structure Params where
  w1mu : Fin 1024 → Fin 512 → EReal
  b1mu : Fin 512 → EReal
  w2mu : Fin 512 → Fin 64 → EReal
  b2mu : Fin 64 → EReal
  w1sig : Fin 1024 → Fin 512 → EReal
  b1sig : Fin 512 → EReal
  w2sig : Fin 512 → Fin 64 → EReal
  b2sig : Fin 64 → EReal
  w1dec : Fin 64 → Fin 512 → EReal
  b1dec : Fin 512 → EReal
  w2dec : Fin 512 → Fin 1024 → EReal
  b2dec : Fin 1024 → EReal

variable (P : Params)

def meanRow (xr : Fin 1024 → EReal) (d : Fin 64) : EReal :=
  lrelu (dense (fun k => lrelu (dense xr P.w1mu P.b1mu k)) P.w2mu P.b2mu d)

def logvarRow (xr : Fin 1024 → EReal) (d : Fin 64) : EReal :=
  min hiW (max loW (lrelu (dense (fun k => Ideal.tanh (dense xr P.w1sig P.b1sig k)) P.w2sig P.b2sig d)))

def stdRow (xr : Fin 1024 → EReal) (d : Fin 64) : EReal :=
  Ideal.exp (halfW * logvarRow P xr d)

/-- mean + std * noise. -/
def zRow (xr : Fin 1024 → EReal) (nr : Fin 64 → EReal) (d : Fin 64) : EReal :=
  meanRow P xr d + stdRow P xr d * nr d

def reconRow (xr : Fin 1024 → EReal) (ner : Fin 64 → EReal) (j : Fin 1024) : EReal :=
  lrelu (dense (fun k => lrelu (dense (zRow P xr ner) P.w1dec P.b1dec k)) P.w2dec P.b2dec j)

def sqRow (xr : Fin 1024 → EReal) (ner : Fin 64 → EReal) (j : Fin 1024) : EReal :=
  (reconRow P xr ner j - xr j) * (reconRow P xr ner j - xr j)

/-! ## The pair function -/

def sqn (a : Fin 64 → EReal) : EReal := ∑ d : Fin 64, a d * a d

def dot64 (a b : Fin 64 → EReal) : EReal := ∑ d : Fin 64, a d * b d

/-- |a|^2 + |b|^2 - 2 a.b -/
def sqdist (a b : Fin 64 → EReal) : EReal := (sqn a + sqn b) - twoW * dot64 a b

/-- The kernel's spelling: exp ((0 - sqdist) * 2^-12). -/
def kPair (a b : Fin 64 → EReal) : EReal := Ideal.exp ((zeroW - sqdist a b) * invD2W)

/-- The reference's spelling: exp ((-sqdist) / 4096). -/
def kPairRef (a b : Fin 64 → EReal) : EReal := Ideal.exp (Ideal.div (-(sqdist a b)) d2W)

/-! ## The two totals -/

/-- Row 512 t + p of the batch. -/
def row (t : Fin 16) (p : Fin 512) : Fin 8192 := ⟨512 * t.val + p.val, by omega⟩

variable (x : Fin 8192 → Fin 1024 → EReal) (ne nz zp : Fin 8192 → Fin 64 → EReal)

/-- The latent sample, row by row. -/
def zArr (r : Fin 8192) (d : Fin 64) : EReal := zRow P (x r) (nz r) d

/-- The squared error of tile t. -/
def tileSq (t : Fin 16) : EReal := ∑ p : Fin 512, ∑ j : Fin 1024, sqRow P (x (row t p)) (ne (row t p)) j

/-- The pair sum of tile i of a against tile j of b. -/
def tileK (a b : Fin 8192 → Fin 64 → EReal) (i j : Fin 16) : EReal :=
  ∑ p : Fin 512, ∑ q : Fin 512, kPair (a (row i p)) (b (row j q))

/-- What the kernel adds at tile pair (i, j). -/
def tileMmd (i j : Fin 16) : EReal :=
  (tileK (zArr P x nz) (zArr P x nz) i j + tileK zp zp i j) - twoW * tileK (zArr P x nz) zp i j

/-- The kernel's arrangement. -/
def kernelTotal : EReal :=
  Ideal.div (∑ t : Fin 16, tileSq P x ne t) nRecW
    + tenW * Ideal.div (∑ i : Fin 16, ∑ j : Fin 16, tileMmd P x nz zp i j) nMmdW

/-- The pair sum over all rows, in the reference's spelling. -/
def allK (a b : Fin 8192 → Fin 64 → EReal) : EReal := ∑ r : Fin 8192, ∑ s : Fin 8192, kPairRef (a r) (b s)

/-- The reference's arrangement. -/
def refTotal : EReal :=
  Ideal.div (∑ r : Fin 8192, ∑ j : Fin 1024, sqRow P (x r) (ne r) j) nRecW
    + tenW * ((Ideal.div (allK (zArr P x nz) (zArr P x nz)) nMmdW + Ideal.div (allK zp zp) nMmdW)
        - twoW * Ideal.div (allK (zArr P x nz) zp) nMmdW)

/-! ## Arrays by coordinates -/

open ValueIdx

/-- A rank-2 array read by its two coordinates. -/
def arr2 {a b : Nat} (f : (⟨2, ![a, b]⟩ : Shape).Idx → EReal) : Fin a → Fin b → EReal := fun i j => f (ix2 i j)

/-- A rank-1 array read by its coordinate. -/
def arr1 {a : Nat} (f : (⟨1, ![a]⟩ : Shape).Idx → EReal) : Fin a → EReal := fun i => f (ix1 i)

/-- The twelve weight and bias arrays, in the order the programs take them. -/
def paramsOf (a4 : (⟨2, ![1024, 512]⟩ : Shape).Idx → EReal) (a5 : (⟨1, ![512]⟩ : Shape).Idx → EReal)
    (a6 : (⟨2, ![512, 64]⟩ : Shape).Idx → EReal) (a7 : (⟨1, ![64]⟩ : Shape).Idx → EReal)
    (a8 : (⟨2, ![1024, 512]⟩ : Shape).Idx → EReal) (a9 : (⟨1, ![512]⟩ : Shape).Idx → EReal)
    (a10 : (⟨2, ![512, 64]⟩ : Shape).Idx → EReal) (a11 : (⟨1, ![64]⟩ : Shape).Idx → EReal)
    (a12 : (⟨2, ![64, 512]⟩ : Shape).Idx → EReal) (a13 : (⟨1, ![512]⟩ : Shape).Idx → EReal)
    (a14 : (⟨2, ![512, 1024]⟩ : Shape).Idx → EReal) (a15 : (⟨1, ![1024]⟩ : Shape).Idx → EReal) : Params where
  w1mu := arr2 a4
  b1mu := arr1 a5
  w2mu := arr2 a6
  b2mu := arr1 a7
  w1sig := arr2 a8
  b1sig := arr1 a9
  w2sig := arr2 a10
  b2sig := arr1 a11
  w1dec := arr2 a12
  b1dec := arr1 a13
  w2dec := arr2 a14
  b2dec := arr1 a15

end Cert.Spec

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Layers.lean ====
/-
  The vector unit's spellings of the specification's row functions, read at one entry, on the extended reals.

  A dense layer of a tile: the product of the tile (its entries rounded to bf16, the identity here) with the
  weight matrix (likewise) into a zero accumulator, plus the bias vector laid out as a row and repeated down the
  tile, is at entry (p, n) the dot product of the tile's row p with column n of the weights, plus the bias at n.
  A leaky_relu spelt as compare / scale / select is Spec.lrelu at every entry.
-/
import proofs.«125570_j13228499272255_1_alg».proof.Proof.Spec
import proofs.«125570_j13228499272255_1_alg».proof.Proof.LibPlainDot
import Idealize.ShloMosaic.Lib.ValueLayout
import Idealize.ShloMosaic.Lib.ValueIdx
import Idealize.ShloMosaic.PureOps.Ideal.Laws

noncomputable section

namespace Cert.Layers

open Idealize.ShloMosaic Idealize.ShloMosaic.ValueIdx Cert.Spec

/-- where(v > 0, v, slope * v) at an entry. -/
theorem lrelu_apply {s : Shape} (v : FVec Ideal s .f32) (i : s.Idx) :
    select (cmpf .ogt v (broadcast s (Scalar.ofBits (F := Ideal) .f32 0x00000000#32))) v
      (mulf (broadcast s (Scalar.ofBits (F := Ideal) .f32 0x3C23D70A#32)) v) i = lrelu (v i) := rfl

section Dense

variable {M K N : Nat}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hrank hsize hlc hrc hL0 hR1 in
/-- One dense layer of a tile at entry (p, n). -/
theorem dense_apply {φ : FTy} (l : FVec Ideal (⟨2, ![M, K]⟩ : Shape) φ) (w : FVec Ideal (⟨2, ![K, N]⟩ : Shape) .f32)
    (hw : FTy.bits .bf16 < FTy.bits .f32) (b : FVec Ideal (⟨1, ![N]⟩ : Shape) .f32)
    (hsc : (⟨1, ![N]⟩ : Shape).ShapeCasts ⟨2, ![1, N]⟩) (hbc : (⟨2, ![1, N]⟩ : Shape).Broadcasts ⟨2, ![M, N]⟩)
    (p : Fin M) (n : Fin N) :
    addf (FloatOps.matmul D none l (truncf .bf16 w hw) (constant (⟨2, ![M, N]⟩ : Shape) .f32 0x00000000#32))
        (broadcastTo (⟨2, ![M, N]⟩ : Shape) (shapeCast (⟨2, ![1, N]⟩ : Shape) b hsc) hbc) (ix2 p n)
      = dense (fun k => l (ix2 p k)) (arr2 w) (arr1 b) n := by
  show FloatOps.matmul D none l (truncf .bf16 w hw) (constant (⟨2, ![M, N]⟩ : Shape) .f32 0x00000000#32) (ix2 p n)
      + broadcastTo (⟨2, ![M, N]⟩ : Shape) (shapeCast (⟨2, ![1, N]⟩ : Shape) b hsc) hbc (ix2 p n) = _
  rw [Cert.LibPlainDot.matmul_zero_apply D hrank hsize hlc hrc hL0 hR1 none l (truncf .bf16 w hw) p n,
    broadcastTo_1b_ab_apply _ hbc p n, shapeCast_a_1a_apply b hsc 0 n]
  rfl

end Dense

end Cert.Layers

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibFirstAxisSum.lean ====
/-
  A sum of an [a, b] array along its FIRST axis, read at a coordinate: started from the neutral element it is, at
  column q, the plain sum over k < a of the array at (k, q).
-/
import Idealize.ShloMosaic.PureOps.Ideal.Laws
import Idealize.ShloMosaic.Lib.ValueIdx

noncomputable section

namespace Cert.AxisSums

open Idealize.ShloMosaic Idealize.ShloMosaic.ValueIdx

/-- The source index above column q with k on the summed first axis is (k, q). -/
theorem lift_first {a b : ℕ} (h : (⟨2, ![a, b]⟩ : Shape).Reduces [0] ⟨1, ![b]⟩) (q : Fin b) (k : Fin a) :
    h.lift (ix1 q) k = ix2 k q := by
  funext d; apply Fin.ext
  show h.liftVal (ix1 q) k.val d = (ix2 k q d).val
  unfold Shape.Reduces.liftVal
  match d with
  | ⟨0, _⟩ => rfl
  | ⟨1, _⟩ => rfl

/-- A sum of an [a, b] array along its first axis, from the neutral element, at q: the sum over k of the array at
    (k, q). -/
theorem sum_first_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] (⟨1, ![b]⟩ : Shape) src acc h hφ hacc (ix1 q) = ∑ k : Fin a, src (ix2 k q) :=
  (Ideal.multiReduction_add_single src acc h hφ hacc (ix1 q)).trans
    (Finset.sum_congr rfl fun k _ => congrArg src (lift_first h q k))

end Cert.AxisSums

end
-- ==== Proof.KI.Val0.lean ====
/-
  Region 0's payloads read at an entry, on the extended reals: each is the specification's row function of the
  tile's row.

  The tile's mean head, its standard deviation, its two latent samples, the decoder and the squared error all
  read the 512-row tile of x and of the noise arrays through one row p, and the weights whole. The body's
  accumulator update adds, to what it loaded from the one-element error window, the sum over the tile's rows and
  the 1024 features of the squared reconstruction error: a lane sum per row, then a sum down the rows.
-/
import proofs.«125570_j13228499272255_1_alg».proof.Proof.Gen.KernelIdeal.Skeleton
import proofs.«125570_j13228499272255_1_alg».proof.Proof.Spec
import proofs.«125570_j13228499272255_1_alg».proof.Proof.Layers
import proofs.«125570_j13228499272255_1_alg».proof.Proof.LibLaneSums
import proofs.«125570_j13228499272255_1_alg».proof.Proof.LibFirstAxisSum
import Idealize.ShloMosaic.Lib.Pipeline.Value

set_option maxRecDepth 16384

noncomputable section

namespace Cert.KernelIdeal.Val

open Idealize.ShloMosaic Idealize.ShloMosaic.ValueIdx Cert.Spec
open Cert.KernelIdeal Cert.KernelIdeal.Gen

/-! ## The four products' dimension numbers: left rows against right columns -/

theorem hL0_A (j : S512x512.Idx) (q : dot_S512x1024_S1024x512_S512x512_1_0_0_1_n_n.contr.Idx) :
    (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem hR1_A (j : S512x512.Idx) (q : dot_S512x1024_S1024x512_S512x512_1_0_0_1_n_n.contr.Idx) :
    (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

theorem hL0_B (j : S512x64.Idx) (q : dot_S512x512_S512x64_S512x64_1_0_0_1_n_n.contr.Idx) :
    (dot_S512x512_S512x64_S512x64_1_0_0_1_n_n.lhsIdx j q 0).val = (j 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem hR1_B (j : S512x64.Idx) (q : dot_S512x512_S512x64_S512x64_1_0_0_1_n_n.contr.Idx) :
    (dot_S512x512_S512x64_S512x64_1_0_0_1_n_n.rhsIdx j q 1).val = (j 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

theorem hL0_C (j : S512x512.Idx) (q : dot_S512x64_S64x512_S512x512_1_0_0_1_n_n.contr.Idx) :
    (dot_S512x64_S64x512_S512x512_1_0_0_1_n_n.lhsIdx j q 0).val = (j 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
theorem hR1_C (j : S512x512.Idx) (q : dot_S512x64_S64x512_S512x512_1_0_0_1_n_n.contr.Idx) :
    (dot_S512x64_S64x512_S512x512_1_0_0_1_n_n.rhsIdx j q 1).val = (j 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

theorem hL0_D (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem hR1_D (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-! ## The encoder -/

/-- The mean head at entry (p, d). -/
theorem pay4_apply (x : Vec Ideal S512x1024 .f32) (w1 : Vec Ideal S1024x512 .f32) (b1 : Vec Ideal S512 .f32)
    (w2 : Vec Ideal S512x64 .f32) (b2 : Vec Ideal S64 .f32) (p : Fin 512) (d : Fin 64) :
    k0_pay4 (F := Ideal) x w1 b1 w2 b2 (ix2 p d)
      = lrelu (dense (fun k => lrelu (dense (fun j => x (ix2 p j)) (arr2 w1) (arr1 b1) k)) (arr2 w2) (arr1 b2) d) := by
  unfold k0_pay4 k0_pay3
  refine (Cert.Layers.lrelu_apply _ _).trans (congrArg lrelu ?_)
  refine (Cert.Layers.dense_apply dot_S512x512_S512x64_S512x64_1_0_0_1_n_n rfl rfl rfl rfl hL0_B hR1_B _ w2 _ b2 _ _ p d).trans ?_
  refine congrArg (fun g => dense g (arr2 w2) (arr1 b2) d) (funext fun k => ?_)
  refine (Cert.Layers.lrelu_apply _ _).trans (congrArg lrelu ?_)
  exact Cert.Layers.dense_apply dot_S512x1024_S1024x512_S512x512_1_0_0_1_n_n rfl rfl rfl rfl hL0_A hR1_A _ w1 _ b1 _ _ p k

/-- The variance head's hidden layer at entry (p, k). -/
theorem pay5_apply (x : Vec Ideal S512x1024 .f32) (w1 : Vec Ideal S1024x512 .f32) (b1 : Vec Ideal S512 .f32)
    (p k : Fin 512) :
    k0_pay5 (F := Ideal) x w1 b1 (ix2 p k) = Ideal.tanh (dense (fun j => x (ix2 p j)) (arr2 w1) (arr1 b1) k) := by
  unfold k0_pay5 k0_pay3
  exact congrArg Ideal.tanh
    (Cert.Layers.dense_apply dot_S512x1024_S1024x512_S512x512_1_0_0_1_n_n rfl rfl rfl rfl hL0_A hR1_A _ w1 _ b1 _ _ p k)

/-- The standard deviation at entry (p, d), from the hidden layer's values. -/
theorem pay6_apply (h : FVec Ideal S512x512 .f32) (w2 : Vec Ideal S512x64 .f32) (b2 : Vec Ideal S64 .f32)
    (p : Fin 512) (d : Fin 64) :
    k0_pay6 (F := Ideal) h w2 b2 (ix2 p d)
      = Ideal.exp (halfW * min hiW (max loW (lrelu (dense (fun k => h (ix2 p k)) (arr2 w2) (arr1 b2) d)))) := by
  unfold k0_pay6
  refine congrArg (fun y => Ideal.exp (halfW * min hiW (max loW y))) ?_
  refine (Cert.Layers.lrelu_apply _ _).trans (congrArg lrelu ?_)
  exact Cert.Layers.dense_apply dot_S512x512_S512x64_S512x64_1_0_0_1_n_n rfl rfl rfl rfl hL0_B hR1_B _ w2 _ b2 _ _ p d

end Cert.KernelIdeal.Val

end
-- ==== Proof.KI.Val0b.lean ====
/-
  Region 0's two stored values at an entry: the latent sample of the tile's row, and the accumulator update.
-/
import proofs.«125570_j13228499272255_1_alg».proof.Proof.KI.Val0

set_option maxRecDepth 16384

noncomputable section

namespace Cert.KernelIdeal.Val

open Idealize.ShloMosaic Idealize.ShloMosaic.ValueIdx Cert.Spec
open Cert.KernelIdeal Cert.KernelIdeal.Gen

/-- The decoder's first layer before its activation at entry (p, k): the dense layer of the encoder's sample
    mean + std * noise of row p. -/
theorem pay8_apply (mean : FVec Ideal S512x64 .f32) (h : FVec Ideal S512x512 .f32) (w2 : Vec Ideal S512x64 .f32)
    (b2 : Vec Ideal S64 .f32) (ne : Vec Ideal S512x64 .f32) (wd : Vec Ideal S64x512 .f32) (bd : Vec Ideal S512 .f32)
    (p k : Fin 512) :
    k0_pay8 (F := Ideal) mean h w2 b2 ne wd bd (ix2 p k)
      = dense (fun d => mean (ix2 p d) + k0_pay6 (F := Ideal) h w2 b2 (ix2 p d) * ne (ix2 p d)) (arr2 wd) (arr1 bd) k := by
  unfold k0_pay8
  exact Cert.Layers.dense_apply dot_S512x64_S64x512_S512x512_1_0_0_1_n_n rfl rfl rfl rfl hL0_C hR1_C _ wd _ bd _ _ p k

/-- The accumulator update at its one entry: what was loaded plus the tile's squared error, a lane sum per row
    and then a sum down the rows. The decoder's hidden activation arrives split into its three operands. -/
theorem pay1_apply (x : Vec Ideal S512x1024 .f32) (v72 : FVec Ideal S512x512 .f32) (v74 : IVec S512x512 1)
    (v75 : FVec Ideal S512x512 .f32) (w : Vec Ideal S512x1024 .f32) (b : Vec Ideal S1024 .f32) (acc : Vec Ideal S1x1 .f32) :
    k0_pay1 (F := Ideal) x v72 v74 v75 w b acc (ix2 0 0)
      = acc (ix2 0 0) + ∑ p : Fin 512, ∑ j : Fin 1024,
          (lrelu (dense (fun k => Scalar.select (v74 (ix2 p k)) (v72 (ix2 p k)) (v75 (ix2 p k) * v72 (ix2 p k)))
              (arr2 w) (arr1 b) j) - x (ix2 p j))
          * (lrelu (dense (fun k => Scalar.select (v74 (ix2 p k)) (v72 (ix2 p k)) (v75 (ix2 p k) * v72 (ix2 p k)))
              (arr2 w) (arr1 b) j) - x (ix2 p j)) := by
  unfold k0_pay1
  refine congrArg₂ (· + ·) (congrFun (shapeCast_self acc _) _) ?_
  refine (shapeCast_a_1a_apply _ _ 0 0).trans ?_
  refine (Cert.AxisSums.sum_first_apply _ 0x00000000#32 reduces_S512x1_S1 (.inl rfl) rfl 0).trans ?_
  refine Finset.sum_congr rfl fun p _ => ?_
  refine (Cert.LibLaneSums.shapeCast_a_a1_apply _ _ p 0).trans ?_
  refine (Cert.LibLaneSums.sum_last_apply _ 0x00000000#32 reduces_S512x1024_S512 (.inl rfl) rfl p).trans ?_
  refine Finset.sum_congr rfl fun j _ => ?_
  refine congrArg (fun y => (y - x (ix2 p j)) * (y - x (ix2 p j))) ?_
  refine (Cert.Layers.lrelu_apply _ _).trans (congrArg lrelu ?_)
  exact Cert.Layers.dense_apply dot_S512x512_S512x1024_S512x1024_1_0_0_1_n_n rfl rfl rfl rfl hL0_D hR1_D _ w _ b _ _ p j

section Tile

variable (x : Vec Ideal S512x1024 .f32) (ne nz : Vec Ideal S512x64 .f32)
  (a4 : Vec Ideal S1024x512 .f32) (a5 : Vec Ideal S512 .f32) (a6 : Vec Ideal S512x64 .f32) (a7 : Vec Ideal S64 .f32)
  (a8 : Vec Ideal S1024x512 .f32) (a9 : Vec Ideal S512 .f32) (a10 : Vec Ideal S512x64 .f32) (a11 : Vec Ideal S64 .f32)
  (a12 : Vec Ideal S64x512 .f32) (a13 : Vec Ideal S512 .f32) (a14 : Vec Ideal S512x1024 .f32) (a15 : Vec Ideal S1024 .f32)

/-- The latent sample the body stores, at entry (p, d): the specification's row function of row p of the tile
    with noise row n. -/
theorem sample_apply (n : Vec Ideal S512x64 .f32) (p : Fin 512) (d : Fin 64) :
    k0_pay4 (F := Ideal) x a4 a5 a6 a7 (ix2 p d) + k0_pay6 (F := Ideal) (k0_pay5 (F := Ideal) x a8 a9) a10 a11 (ix2 p d) * n (ix2 p d)
      = zRow (paramsOf a4 a5 a6 a7 a8 a9 a10 a11 a12 a13 a14 a15) (fun j => x (ix2 p j)) (fun e => n (ix2 p e)) d := by
  rw [pay4_apply, pay6_apply]
  simp only [pay5_apply]
  rfl

/-- What the body stores in the z window, at entry (p, d). -/
theorem zTile_apply (p : Fin 512) (d : Fin 64) :
    k0_pay7 (F := Ideal) (k0_pay4 (F := Ideal) x a4 a5 a6 a7) (k0_pay5 (F := Ideal) x a8 a9) a10 a11 nz (ix2 p d)
      = zRow (paramsOf a4 a5 a6 a7 a8 a9 a10 a11 a12 a13 a14 a15) (fun j => x (ix2 p j)) (fun e => nz (ix2 p e)) d :=
  sample_apply x a4 a5 a6 a7 a8 a9 a10 a11 a12 a13 a14 a15 nz p d

/-- What the body stores in the error window, at its one entry: what it loaded plus the tile's squared error. -/
theorem sqStep_apply (acc : Vec Ideal S1x1 .f32) :
    k0_pay1 (F := Ideal) x
        (k0_pay8 (F := Ideal) (k0_pay4 (F := Ideal) x a4 a5 a6 a7) (k0_pay5 (F := Ideal) x a8 a9) a10 a11 ne a12 a13)
        (k0_pay9 (F := Ideal) (k0_pay4 (F := Ideal) x a4 a5 a6 a7) (k0_pay5 (F := Ideal) x a8 a9) a10 a11 ne a12 a13)
        (k0_pay10 (F := Ideal)) a14 a15 acc (ix2 0 0)
      = acc (ix2 0 0) + ∑ p : Fin 512, ∑ j : Fin 1024,
          sqRow (paramsOf a4 a5 a6 a7 a8 a9 a10 a11 a12 a13 a14 a15) (fun i => x (ix2 p i)) (fun e => ne (ix2 p e)) j := by
  rw [pay1_apply]
  refine congrArg (fun s => acc (ix2 0 0) + s) (Finset.sum_congr rfl fun p _ => Finset.sum_congr rfl fun j _ => ?_)
  have hk : ∀ k : Fin 512,
      Scalar.select
          (k0_pay9 (F := Ideal) (k0_pay4 (F := Ideal) x a4 a5 a6 a7) (k0_pay5 (F := Ideal) x a8 a9) a10 a11 ne a12 a13 (ix2 p k))
          (k0_pay8 (F := Ideal) (k0_pay4 (F := Ideal) x a4 a5 a6 a7) (k0_pay5 (F := Ideal) x a8 a9) a10 a11 ne a12 a13 (ix2 p k))
          (k0_pay10 (F := Ideal) (ix2 p k)
            * k0_pay8 (F := Ideal) (k0_pay4 (F := Ideal) x a4 a5 a6 a7) (k0_pay5 (F := Ideal) x a8 a9) a10 a11 ne a12 a13 (ix2 p k))
        = lrelu (dense (zRow (paramsOf a4 a5 a6 a7 a8 a9 a10 a11 a12 a13 a14 a15) (fun i => x (ix2 p i)) (fun e => ne (ix2 p e)))
            (arr2 a12) (arr1 a13) k) := fun k => by
    have h8 := pay8_apply (k0_pay4 (F := Ideal) x a4 a5 a6 a7) (k0_pay5 (F := Ideal) x a8 a9) a10 a11 ne a12 a13 p k
    simp only [sample_apply x a4 a5 a6 a7 a8 a9 a10 a11 a12 a13 a14 a15 ne p] at h8
    rw [← h8]
    rfl
  simp only [hk]
  rfl

end Tile

end Cert.KernelIdeal.Val

end
-- ==== Proof.Law.lean ====
/-
  The law that joins the two arrangements of the loss: Spec.kernelTotal = Spec.refTotal, on the extended reals,
  for any argument arrays whatever.

  1. A sum over the 16 tiles of sums over a tile's 512 rows is the sum over the 8192 rows (row 512 t + p).
  2. exp ((0 - s) * 2^-12) = exp ((-s) / 4096): the two float words denote 1/4096 and 4096.
  3. Every pair value is an exponential, hence in [0, +inf], and so is every sum of them. For A, B, C in
     [0, +inf]:  ((a + b) - 2 c) + ((A + B) - 2 C) = ((a + A) + (b + B)) - 2 (c + C)  and
     ((A + B) - 2 C) / n = (A / n + B / n) - 2 (C / n)  for a positive real n.  If c or C is +inf both sides are
     -inf; otherwise 2 c and 2 C are reals and only sums remain, which commute and associate on the extended reals.
-/
import proofs.«125570_j13228499272255_1_alg».proof.Proof.Spec
import Mathlib.Data.EReal.Operations
import Mathlib.Algebra.BigOperators.Fin
import Mathlib.Logic.Equiv.Fin.Basic

noncomputable section

namespace Cert.Law

open Cert.Spec Idealize.ShloMosaic

/-! ## The float words -/

theorem zeroW_eq : zeroW = 0 := by
  simp [Ideal.ofBits, Ideal.ieee]

theorem twoW_eq : twoW = ((2 : ℝ) : EReal) := by
  simp [Ideal.ofBits, Ideal.ieee, -EReal.coe_mul]; norm_num

theorem d2W_eq : d2W = ((4096 : ℝ) : EReal) := by
  simp [Ideal.ofBits, Ideal.ieee, -EReal.coe_mul]; norm_num

theorem invD2W_eq : invD2W = ((1 / 4096 : ℝ) : EReal) := by
  simp [Ideal.ofBits, Ideal.ieee, -EReal.coe_mul]; norm_num

theorem nMmdW_eq : nMmdW = ((67108864 : ℝ) : EReal) := by
  simp [Ideal.ofBits, Ideal.ieee, -EReal.coe_mul]; norm_num

/-! ## The pair function -/

theorem exp_nonneg (x : EReal) : 0 ≤ Ideal.exp x := by
  induction x using EReal.rec with
  | bot => simp
  | coe r => rw [Ideal.exp_coe]; exact EReal.coe_nonneg.mpr (Real.exp_pos r).le
  | top => simp

theorem kPair_eq (a b : Fin 64 → EReal) : kPair a b = kPairRef a b := by
  unfold kPair kPairRef
  rw [zeroW_eq, zero_sub, d2W_eq, invD2W_eq, Ideal.div_coe (by norm_num)]

theorem kPair_nonneg (a b : Fin 64 → EReal) : 0 ≤ kPair a b := exp_nonneg _

/-! ## Tiles and rows -/

/-- The rows of the batch as (tile, row in the tile). -/
def rowEquiv : Fin 16 × Fin 512 ≃ Fin 8192 :=
  (finProdFinEquiv (m := 16) (n := 512)).trans (finCongr (by norm_num))

theorem rowEquiv_apply (t : Fin 16) (p : Fin 512) : rowEquiv (t, p) = row t p := by
  apply Fin.ext
  simp [rowEquiv, row, finProdFinEquiv]
  omega

theorem sum_rows {M : Type*} [AddCommMonoid M] (g : Fin 8192 → M) :
    ∑ t : Fin 16, ∑ p : Fin 512, g (row t p) = ∑ r : Fin 8192, g r := by
  rw [← Finset.sum_product', Finset.univ_product_univ, ← rowEquiv.sum_comp]
  exact Finset.sum_congr rfl fun tp _ => by rw [← rowEquiv_apply]

/-- The pair sums tile against tile add up to the pair sum over all rows. -/
theorem sum_tileK (a b : Fin 8192 → Fin 64 → EReal) :
    ∑ i : Fin 16, ∑ j : Fin 16, tileK a b i j = allK a b := by
  unfold tileK allK
  have h1 : ∀ i : Fin 16, ∑ j : Fin 16, ∑ p : Fin 512, ∑ q : Fin 512, kPair (a (row i p)) (b (row j q))
      = ∑ p : Fin 512, ∑ s : Fin 8192, kPairRef (a (row i p)) (b s) := fun i => by
    rw [Finset.sum_comm]
    refine Finset.sum_congr rfl fun p _ => ?_
    rw [← sum_rows fun s => kPairRef (a (row i p)) (b s)]
    exact Finset.sum_congr rfl fun j _ => Finset.sum_congr rfl fun q _ => kPair_eq _ _
  rw [Finset.sum_congr rfl fun i _ => h1 i]
  exact sum_rows fun r => ∑ s : Fin 8192, kPairRef (a r) (b s)

theorem tileK_nonneg (a b : Fin 8192 → Fin 64 → EReal) (i j : Fin 16) : 0 ≤ tileK a b i j :=
  Finset.sum_nonneg fun _ _ => Finset.sum_nonneg fun _ _ => kPair_nonneg _ _

/-! ## Regrouping on [0, +inf] -/

theorem ne_bot_of_nonneg {x : EReal} (h : 0 ≤ x) : x ≠ ⊥ := (EReal.bot_lt_zero.trans_le h).ne'

theorem two_mul_top : ((2 : ℝ) : EReal) * ⊤ = ⊤ := EReal.coe_mul_top_of_pos (by norm_num)

theorem regroup_step {a b c A B C : EReal} (ha : 0 ≤ a) (hb : 0 ≤ b) (hc : 0 ≤ c) (hA : 0 ≤ A) (hB : 0 ≤ B) (hC : 0 ≤ C) :
    ((a + b) - ((2 : ℝ) : EReal) * c) + ((A + B) - ((2 : ℝ) : EReal) * C)
      = ((a + A) + (b + B)) - ((2 : ℝ) : EReal) * (c + C) := by
  rcases eq_or_ne c ⊤ with rfl | hct
  · rw [EReal.top_add_of_ne_bot (ne_bot_of_nonneg hC), two_mul_top, EReal.sub_top, EReal.sub_top, EReal.bot_add]
  rcases eq_or_ne C ⊤ with rfl | hCt
  · rw [EReal.add_top_of_ne_bot (ne_bot_of_nonneg hc), two_mul_top, EReal.sub_top, EReal.sub_top, EReal.add_bot]
  lift c to ℝ using ⟨hct, ne_bot_of_nonneg hc⟩
  lift C to ℝ using ⟨hCt, ne_bot_of_nonneg hC⟩
  rw [← EReal.coe_add, ← EReal.coe_mul, ← EReal.coe_mul, ← EReal.coe_mul, sub_eq_add_neg, sub_eq_add_neg, sub_eq_add_neg,
    ← EReal.coe_neg, ← EReal.coe_neg, ← EReal.coe_neg,
    show (-(2 * (c + C)) : ℝ) = -(2 * c) + -(2 * C) by ring, EReal.coe_add]
  abel

theorem sum_regroup {ι : Type*} (s : Finset ι) (A B C : ι → EReal) (hA : ∀ i, 0 ≤ A i) (hB : ∀ i, 0 ≤ B i) (hC : ∀ i, 0 ≤ C i) :
    ∑ i ∈ s, ((A i + B i) - ((2 : ℝ) : EReal) * C i)
      = ((∑ i ∈ s, A i) + ∑ i ∈ s, B i) - ((2 : ℝ) : EReal) * ∑ i ∈ s, C i := by
  classical
  induction s using Finset.induction_on with
  | empty => simp
  | insert i s hi ih =>
    rw [Finset.sum_insert hi, Finset.sum_insert hi, Finset.sum_insert hi, Finset.sum_insert hi, ih]
    exact regroup_step (hA i) (hB i) (hC i) (Finset.sum_nonneg fun j _ => hA j) (Finset.sum_nonneg fun j _ => hB j)
      (Finset.sum_nonneg fun j _ => hC j)

theorem div_regroup {A B C : EReal} (hA : 0 ≤ A) (hB : 0 ≤ B) (hC : 0 ≤ C) {n : ℝ} (hn : 0 < n) :
    Ideal.div ((A + B) - ((2 : ℝ) : EReal) * C) (n : EReal)
      = (Ideal.div A (n : EReal) + Ideal.div B (n : EReal)) - ((2 : ℝ) : EReal) * Ideal.div C (n : EReal) := by
  have hr : (0 : ℝ) < 1 / n := by positivity
  rw [Ideal.div_coe hn.ne', Ideal.div_coe hn.ne', Ideal.div_coe hn.ne', Ideal.div_coe hn.ne']
  generalize 1 / n = r at hr
  have hAr : (0 : EReal) ≤ A * (r : EReal) := mul_nonneg hA (EReal.coe_nonneg.mpr hr.le)
  have hBr : (0 : EReal) ≤ B * (r : EReal) := mul_nonneg hB (EReal.coe_nonneg.mpr hr.le)
  rcases eq_or_ne C ⊤ with rfl | hCt
  · rw [two_mul_top, EReal.sub_top, EReal.bot_mul_coe_of_pos hr, EReal.top_mul_coe_of_pos hr, two_mul_top, EReal.sub_top]
  lift C to ℝ using ⟨hCt, ne_bot_of_nonneg hC⟩
  rw [← EReal.coe_mul, ← EReal.coe_mul, ← EReal.coe_mul]
  rcases eq_or_ne A ⊤ with rfl | hAt
  · rw [EReal.top_add_of_ne_bot (ne_bot_of_nonneg hB), EReal.top_sub_coe, EReal.top_mul_coe_of_pos hr,
      EReal.top_add_of_ne_bot (ne_bot_of_nonneg hBr), EReal.top_sub_coe]
  rcases eq_or_ne B ⊤ with rfl | hBt
  · rw [EReal.add_top_of_ne_bot (ne_bot_of_nonneg hA), EReal.top_sub_coe, EReal.top_mul_coe_of_pos hr,
      EReal.add_top_of_ne_bot (ne_bot_of_nonneg hAr), EReal.top_sub_coe]
  lift A to ℝ using ⟨hAt, ne_bot_of_nonneg hA⟩
  lift B to ℝ using ⟨hBt, ne_bot_of_nonneg hB⟩
  norm_cast
  ring

/-! ## The law -/

theorem total_eq (P : Params) (x : Fin 8192 → Fin 1024 → EReal) (ne nz zp : Fin 8192 → Fin 64 → EReal) :
    kernelTotal P x ne nz zp = refTotal P x ne nz zp := by
  have hrec : ∑ t : Fin 16, tileSq P x ne t = ∑ r : Fin 8192, ∑ j : Fin 1024, sqRow P (x r) (ne r) j := by
    unfold tileSq
    exact sum_rows fun r => ∑ j : Fin 1024, sqRow P (x r) (ne r) j
  have hsum : ∑ i : Fin 16, ∑ j : Fin 16, tileMmd P x nz zp i j
      = (allK (zArr P x nz) (zArr P x nz) + allK zp zp) - ((2 : ℝ) : EReal) * allK (zArr P x nz) zp := by
    unfold tileMmd
    rw [twoW_eq, ← Finset.sum_product',
      sum_regroup _ (fun ij : Fin 16 × Fin 16 => tileK (zArr P x nz) (zArr P x nz) ij.1 ij.2)
        (fun ij => tileK zp zp ij.1 ij.2) (fun ij => tileK (zArr P x nz) zp ij.1 ij.2)
        (fun _ => tileK_nonneg _ _ _ _) (fun _ => tileK_nonneg _ _ _ _) (fun _ => tileK_nonneg _ _ _ _),
      Finset.sum_product' (f := fun i j => tileK (zArr P x nz) (zArr P x nz) i j),
      Finset.sum_product' (f := fun i j => tileK zp zp i j),
      Finset.sum_product' (f := fun i j => tileK (zArr P x nz) zp i j),
      sum_tileK, sum_tileK, sum_tileK]
  have hK : ∀ a b : Fin 8192 → Fin 64 → EReal, 0 ≤ allK a b := fun a b =>
    Finset.sum_nonneg fun _ _ => Finset.sum_nonneg fun _ _ => exp_nonneg _
  have hdiv := div_regroup (hK (zArr P x nz) (zArr P x nz)) (hK zp zp) (hK (zArr P x nz) zp) (n := 67108864) (by norm_num)
  unfold kernelTotal refTotal
  rw [hrec, hsum, twoW_eq, nMmdW_eq, hdiv]

end Cert.Law

end
-- ==== Proof.KI.KVal0.lean ====
/-
  Region 0's output arrays as the specification's functions of the argument arrays, on the extended reals.

  The z array: entry (r, d) is the latent sample of row r (the tile r / 512 computes it from its row r % 512,
  which is row r of x and of the noise). The error array: the running sum after the last point is the sum over
  the sixteen tiles of the tile's squared error, the zero fill contributing nothing.
-/
import proofs.«125570_j13228499272255_1_alg».proof.Proof.KI.Fold0
import proofs.«125570_j13228499272255_1_alg».proof.Proof.KI.Val0b
import proofs.«125570_j13228499272255_1_alg».proof.Proof.Law

set_option maxRecDepth 16384

noncomputable section

namespace Cert.KernelIdeal.Hand

open Idealize.ShloMosaic Idealize.ShloMosaic.TcCoe Idealize.ShloMosaic.ValueIdx
open Idealize.SL.Sem
open Cert.KernelIdeal.Gen Cert.Spec

variable (V : (c : Dev nD) → (b : Ref sig .tc) → Buf (Elt Ideal) ((c : Thread nD τ).loc b))

/-- The weight and bias arrays as the region finds them. -/
abbrev PP (c : Dev nD) : Params :=
  paramsOf (V c main_arg4) (V c main_arg5) (V c main_arg6) (V c main_arg7) (V c main_arg8) (V c main_arg9)
    (V c main_arg10) (V c main_arg11) (V c main_arg12) (V c main_arg13) (V c main_arg14) (V c main_arg15)

theorem fin8192_ext {r s : Fin 8192} (h : r.val = s.val) : r = s := Fin.ext h

/-- The tile's z store at entry (p, d): the latent sample of row 512 t + p. -/
theorem zTile_row (c : Dev nD) (t : Fin cfg0.N) (p : Fin 512) (d : Fin 64) :
    zTile V c t (ix2 p d)
      = zArr (PP V c) (arr2 (V c main_arg0)) (arr2 (V c main_arg2)) ⟨512 * t.val + p.val, row_lt0 t p⟩ d := by
  unfold zTile mean0 hsig0
  rw [iblk0_3_eq V c t, iblk0_4_eq V c t, iblk0_5_eq V c t, iblk0_6_eq V c t, iblk0_7_eq V c t, iblk0_8_eq V c t,
    iblk0_9_eq V c t, iblk0_10_eq V c t]
  refine (Cert.KernelIdeal.Val.zTile_apply (iblk0 V c 0 t) (iblk0 V c 2 t) (V c main_arg4) (V c main_arg5) (V c main_arg6)
    (V c main_arg7) (V c main_arg8) (V c main_arg9) (V c main_arg10) (V c main_arg11) (V c main_arg12) (V c main_arg13)
    (V c main_arg14) (V c main_arg15) p d).trans ?_
  unfold zArr arr2
  simp only [iblk0_0_apply V c t p, iblk0_2_apply V c t p]

/-- The z array after the run, entry by entry. -/
theorem zAssembled_apply (c : Dev nD) (r : Fin 8192) (d : Fin 64) :
    zAssembled V c (ix2 r d) = zArr (PP V c) (arr2 (V c main_arg0)) (arr2 (V c main_arg2)) r d := by
  unfold zAssembled
  refine (zTile_row V c _ _ _).trans ?_
  have hr : (⟨512 * (r.val / 512) + r.val % 512, row_lt0 ⟨r.val / 512, lt_N0_of_row r.isLt⟩ ⟨r.val % 512, Nat.mod_lt _ (by norm_num)⟩⟩ : Fin 8192) = r :=
    Fin.ext (Nat.div_add_mod r.val 512)
  exact congrArg (fun s => zArr (PP V c) (arr2 (V c main_arg0)) (arr2 (V c main_arg2)) s d) hr

/-- The tile's accumulator update at its entry. -/
theorem sqStep_row (c : Dev nD) (t : Fin cfg0.N) (acc : Vec Ideal S1x1 .f32) :
    sqStep V c t acc (ix2 0 0)
      = acc (ix2 0 0) + tileSq (PP V c) (arr2 (V c main_arg0)) (arr2 (V c main_arg1))
          ⟨t.val, lt_of_lt_of_eq t.isLt (show cfg0.N = 16 from N_0)⟩ := by
  unfold sqStep hdec0 hdecPos0 mean0 hsig0
  rw [iblk0_3_eq V c t, iblk0_4_eq V c t, iblk0_5_eq V c t, iblk0_6_eq V c t, iblk0_7_eq V c t, iblk0_8_eq V c t,
    iblk0_9_eq V c t, iblk0_10_eq V c t, iblk0_11_eq V c t, iblk0_12_eq V c t, iblk0_13_eq V c t, iblk0_14_eq V c t]
  refine (Cert.KernelIdeal.Val.sqStep_apply (iblk0 V c 0 t) (iblk0 V c 1 t) (V c main_arg4) (V c main_arg5) (V c main_arg6)
    (V c main_arg7) (V c main_arg8) (V c main_arg9) (V c main_arg10) (V c main_arg11) (V c main_arg12) (V c main_arg13)
    (V c main_arg14) (V c main_arg15) acc).trans ?_
  unfold tileSq arr2 row
  simp only [iblk0_0_apply V c t, iblk0_1_apply V c t]

/-- Tile s's squared error, zero past the grid. -/
def sqTerm (c : Dev nD) (s : Nat) : EReal :=
  if hs : s < 16 then tileSq (PP V c) (arr2 (V c main_arg0)) (arr2 (V c main_arg1)) ⟨s, hs⟩ else 0

/-- The running sum after position n. -/
theorem sqAcc_apply (c : Dev nD) : ∀ (n : Nat) (h : n < cfg0.N), sqAcc V c n h (ix2 0 0) = ∑ s ∈ Finset.range (n + 1), sqTerm V c s
  | 0, h => by
    have hN : cfg0.N = 16 := N_0
    show sqStep V c ⟨0, h⟩ (k0_pay2 (F := Ideal)) (ix2 0 0) = _
    rw [sqStep_row, Finset.sum_range_one, sqTerm, dif_pos (by omega)]
    show Cert.Spec.zeroW + _ = _
    rw [Cert.Law.zeroW_eq, zero_add]
  | n + 1, h => by
    have hN : cfg0.N = 16 := N_0
    show sqStep V c ⟨n + 1, h⟩ (sqAcc V c n (Nat.lt_of_succ_lt h)) (ix2 0 0) = _
    rw [sqStep_row, sqAcc_apply c n (Nat.lt_of_succ_lt h), Finset.sum_range_succ _ (n + 1)]
    congr 1
    rw [sqTerm, dif_pos (by omega)]

/-- The error array after the run: the sum over the tiles. -/
theorem sqResult_apply (c : Dev nD) (i : S1x1.Idx) :
    sqResult V c i = ∑ t : Fin 16, tileSq (PP V c) (arr2 (V c main_arg0)) (arr2 (V c main_arg1)) t := by
  have hi : i = ix2 0 0 := by
    have h0 : (i 0 : Nat) < 1 := (i 0).isLt
    have h1 : (i 1 : Nat) < 1 := (i 1).isLt
    rw [eq_ix2 i]
    congr 1
    · exact Fin.ext (by show (i 0 : Nat) = 0; omega)
    · exact Fin.ext (by show (i 1 : Nat) = 0; omega)
  rw [hi]
  show sqAcc V c 15 _ (ix2 0 0) = _
  rw [sqAcc_apply, ← Fin.sum_univ_eq_sum_range (fun s => sqTerm V c s) 16]
  exact Finset.sum_congr rfl fun t _ => by rw [sqTerm, dif_pos t.isLt]

end Cert.KernelIdeal.Hand

end
-- ==== Proof.KI.Blocks1.lean ====
/-
  Region 1's windows read off their arrays. The grid is 16 x 16 and point t has coordinates (t / 16, t % 16).
  Windows 0 and 2 take block row t / 16 of the latent sample and of the prior sample, windows 1 and 3 block row
  t % 16 of the same two arrays: rows 512 b … 512 b + 511 for block row b (block index (b, 0), unit strides). The
  output window sits at block (0, 0) of its one-element array at every point. The block indices are decided once
  over the 256 points.
-/
import proofs.«125570_j13228499272255_1_alg».proof.Proof.KI.Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

variable {F : FTy → Type} [FloatOps F]

variable (V : (c : Dev nD) → (b : Ref sig .tc) → Buf (Elt F) ((c : Thread nD τ).loc b))

theorem row_lt1a (t : Fin cfg1.N) (p : Fin 512) : 512 * (t.val / 16) + p.val < 8192 := by
  have hN : cfg1.N = 256 := N_1
  have := t.isLt; have := p.isLt; omega

theorem row_lt1b (t : Fin cfg1.N) (p : Fin 512) : 512 * (t.val % 16) + p.val < 8192 := by
  have := p.isLt; omega

/-- The block index of every window of region 1 at every point. -/
theorem idx1 : ∀ t : Fin cfg1.N,
    (win1_0.index t 0 = t.val / 16 ∧ win1_0.index t 1 = 0)
    ∧ (win1_1.index t 0 = t.val % 16 ∧ win1_1.index t 1 = 0)
    ∧ (win1_2.index t 0 = t.val / 16 ∧ win1_2.index t 1 = 0)
    ∧ (win1_3.index t 0 = t.val % 16 ∧ win1_3.index t 1 = 0)
    ∧ (win1_4.index t 0 = 0 ∧ win1_4.index t 1 = 0) :=
  (by decide +kernel : ∀ t : Fin grid1.N, _)

/-- Window 0's block at point t is rows 512 (t / 16) … 512 (t / 16) + 511 of the latent sample. -/
theorem iblk1_0_apply (c : Dev nD) (t : Fin cfg1.N) (p : Fin 512) (d : Fin 64) :
    (iblk1 V c 0 t : Vec F S512x64 .f32) (ix2 p d) = V c main_v0_0 (ix2 (⟨512 * (t.val / 16) + p.val, row_lt1a t p⟩ : Fin 8192) d) := by
  unfold iblk1
  rw [View.read_apply]
  show V c main_v0_0 _ = V c main_v0_0 _
  refine congrArg (V c main_v0_0) (funext fun a => Fin.ext ?_)
  match a with
  | ⟨0, _⟩ => show win1_0.index t 0 * 512 + 1 * p.val = 512 * (t.val / 16) + p.val; rw [(idx1 t).1.1]; omega
  | ⟨1, _⟩ => show win1_0.index t 1 * 64 + 1 * d.val = d.val; rw [(idx1 t).1.2]; omega

/-- Window 1's block at point t is rows 512 (t % 16) … 512 (t % 16) + 511 of the latent sample. -/
theorem iblk1_1_apply (c : Dev nD) (t : Fin cfg1.N) (p : Fin 512) (d : Fin 64) :
    (iblk1 V c 1 t : Vec F S512x64 .f32) (ix2 p d) = V c main_v0_0 (ix2 (⟨512 * (t.val % 16) + p.val, row_lt1b t p⟩ : Fin 8192) d) := by
  unfold iblk1
  rw [View.read_apply]
  show V c main_v0_0 _ = V c main_v0_0 _
  refine congrArg (V c main_v0_0) (funext fun a => Fin.ext ?_)
  match a with
  | ⟨0, _⟩ => show win1_1.index t 0 * 512 + 1 * p.val = 512 * (t.val % 16) + p.val; rw [(idx1 t).2.1.1]; omega
  | ⟨1, _⟩ => show win1_1.index t 1 * 64 + 1 * d.val = d.val; rw [(idx1 t).2.1.2]; omega

/-- Window 2's block at point t is rows 512 (t / 16) … 512 (t / 16) + 511 of the prior sample. -/
theorem iblk1_2_apply (c : Dev nD) (t : Fin cfg1.N) (p : Fin 512) (d : Fin 64) :
    (iblk1 V c 2 t : Vec F S512x64 .f32) (ix2 p d) = V c main_arg3 (ix2 (⟨512 * (t.val / 16) + p.val, row_lt1a t p⟩ : Fin 8192) d) := by
  unfold iblk1
  rw [View.read_apply]
  show V c main_arg3 _ = V c main_arg3 _
  refine congrArg (V c main_arg3) (funext fun a => Fin.ext ?_)
  match a with
  | ⟨0, _⟩ => show win1_2.index t 0 * 512 + 1 * p.val = 512 * (t.val / 16) + p.val; rw [(idx1 t).2.2.1.1]; omega
  | ⟨1, _⟩ => show win1_2.index t 1 * 64 + 1 * d.val = d.val; rw [(idx1 t).2.2.1.2]; omega

/-- Window 3's block at point t is rows 512 (t % 16) … 512 (t % 16) + 511 of the prior sample. -/
theorem iblk1_3_apply (c : Dev nD) (t : Fin cfg1.N) (p : Fin 512) (d : Fin 64) :
    (iblk1 V c 3 t : Vec F S512x64 .f32) (ix2 p d) = V c main_arg3 (ix2 (⟨512 * (t.val % 16) + p.val, row_lt1b t p⟩ : Fin 8192) d) := by
  unfold iblk1
  rw [View.read_apply]
  show V c main_arg3 _ = V c main_arg3 _
  refine congrArg (V c main_arg3) (funext fun a => Fin.ext ?_)
  match a with
  | ⟨0, _⟩ => show win1_3.index t 0 * 512 + 1 * p.val = 512 * (t.val % 16) + p.val; rw [(idx1 t).2.2.2.1.1]; omega
  | ⟨1, _⟩ => show win1_3.index t 1 * 64 + 1 * d.val = d.val; rw [(idx1 t).2.2.2.1.2]; omega

end Cert.KernelIdeal.Hand

end
-- ==== Proof.KI.Fold1.lean ====
/-
  Region 1's output array after the run. The one-element array is written back once, after the last of the 256
  points, from the accumulator's buffer (its block index never moves, so nothing is written back in between):
  it ends holding the running sum after point 255.
-/
import proofs.«125570_j13228499272255_1_alg».proof.Proof.KI.Blocks1

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

variable {F : FTy → Type} [FloatOps F]

variable (V : (c : Dev nD) → (b : Ref sig .tc) → Buf (Elt F) ((c : Thread nD τ).loc b))

/-- The last point of the 16 x 16 grid. -/
def tLast1 : Fin cfg1.N := ⟨255, by rw [show cfg1.N = 256 from N_1]; decide⟩

theorem fold_after1_4 (c : Dev nD) (t : Fin cfg1.N) : (dat1 V c).after 4 t = mmdAcc V c t.val t.isLt := by dsimp only [dat1]

/-- The running sum after the last point, as the one-element array. -/
abbrev mmdResult (c : Dev nD) : Buf (Elt F) ((c : Thread nD τ).loc main_v3) :=
  mmdAcc V c 255 (by rw [show cfg1.N = 256 from N_1]; decide)

/-- The one write-back of the output array, after point 255, writes the running sum: block (0, 0) of a [1,1]
    array read through zero offsets is the array. -/
theorem flushed4_eq (c : Dev nD) (t : Fin cfg1.N) (hf : (cfg1.win 4).flush t = true) :
    (dat1 V c).flushed 4 t = ((cfg1.win 4).blk t).view.read (Elt F) (mmdResult V c) := by
  have hN : cfg1.N = 256 := N_1
  have h255 : t.val = 255 := by have := (flush1_4 t).mp hf; have := t.isLt; omega
  obtain rfl : t = tLast1 := Fin.ext h255
  show (cfg1.win 4).cut (grid1.coords tLast1) ((dat1 V c).after 4 tLast1) = _
  rw [fold_after1_4]
  have hz' : (fun a => win1_4.index tLast1 a * main_v3.ty.shape.size a) = fun _ => 0 := funext fun a => by fin_cases a <;> decide +kernel
  exact (Memref.read_access_unit_zero (Elt F) main_v3 hz' (fun a => by rw [congrFun hz' a]; simp) (mmdResult V c)).symm

/-- The output array after the run. -/
theorem mmd_final (c : Dev nD) : (dat1 V c).arrAt 4 cfg1.N = mmdResult V c :=
  (dat1 V c).arrAt_eq_of_cover 4 (mmdResult V c) (flushed4_eq V c) fun i =>
    ⟨tLast1, (flush1_4 tLast1).mpr rfl, by
      show i ∈ ((View.whole main_v3).slice (win1_4.rect tLast1)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast1 0 * win1_4.size 0 ≤ (i 0 : Nat) ∧ (i 0 : Nat) < win1_4.index tLast1 0 * win1_4.size 0 + win1_4.xsize (grid1.coords tLast1) 0
                  rw [show win1_4.index tLast1 0 * win1_4.size 0 = 0 from by decide +kernel, show win1_4.xsize (grid1.coords tLast1) 0 = 1 from by decide +kernel]; omega
      | ⟨1, _⟩ => show win1_4.index tLast1 1 * win1_4.size 1 ≤ (i 1 : Nat) ∧ (i 1 : Nat) < win1_4.index tLast1 1 * win1_4.size 1 + win1_4.xsize (grid1.coords tLast1) 1
                  rw [show win1_4.index tLast1 1 * win1_4.size 1 = 0 from by decide +kernel, show win1_4.xsize (grid1.coords tLast1) 1 = 1 from by decide +kernel]; omega⟩

end Cert.KernelIdeal.Hand

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KI.Val1.lean ====
/-
  Region 1's stored value read at its one entry, on the extended reals.

  For two 512-row tiles a and b of 64 columns the body forms, at entry (p, q) of a 512 x 512 array, the scaled
  negative squared distance of row p of a and row q of b: the squared norms of the rows (a lane sum of the squares,
  laid out down the rows for a and, transposed, along the columns for b), minus twice the product of a with the
  transpose of b (the entries rounded to bf16, the identity here) into a zero accumulator, subtracted from zero
  and multiplied by the word of 2^-12. The exponential of that array is summed along each row and then down the
  rows: the sum over all pairs (p, q) of the pair function. The body does this for (z_i, z_j), (prior_i, prior_j)
  and (z_i, prior_j) and stores what it loaded from the accumulator plus (s_xx + s_yy) - 2 s_xy.
-/
import proofs.«125570_j13228499272255_1_alg».proof.Proof.Gen.KernelIdeal.Skeleton
import proofs.«125570_j13228499272255_1_alg».proof.Proof.Spec
import proofs.«125570_j13228499272255_1_alg».proof.Proof.Layers
import proofs.«125570_j13228499272255_1_alg».proof.Proof.LibPlainDot
import proofs.«125570_j13228499272255_1_alg».proof.Proof.LibLaneSums
import proofs.«125570_j13228499272255_1_alg».proof.Proof.LibFirstAxisSum
import proofs.«125570_j13228499272255_1_alg».proof.Proof.LibUnitAxes
import proofs.«125570_j13228499272255_1_alg».proof.Proof.KI.Val0
import Idealize.ShloMosaic.Lib.ValueLayout
import Idealize.ShloMosaic.Lib.Pipeline.Value

set_option maxRecDepth 16384

noncomputable section

namespace Cert.KernelIdeal.Val

open Idealize.ShloMosaic Idealize.ShloMosaic.ValueIdx Cert.Spec
open Cert.KernelIdeal Cert.KernelIdeal.Gen

/-! ## The scaled negative squared distance at an entry -/

/-- The 512 x 512 array of scaled negative squared distances of the rows of a against the rows of b, at entry
    (p, q): (0 - ((|a_p|^2 + |b_q|^2) - 2 a_p . b_q)) * 2^-12. The squares of a arrive as an array of their own. -/
theorem k1_scaled_apply (a A2 b : FVec Ideal S512x64 .f32)
    (hA2 : ∀ (p : Fin 512) (d : Fin 64), A2 (ix2 p d) = a (ix2 p d) * a (ix2 p d)) (p q : Fin 512) :
    mulf (subf (broadcast S512x512 (Scalar.ofBits (F := Ideal) .f32 0x00000000#32))
          (subf
            (addf
              (broadcastTo S512x512
                (shapeCast S512x1 (multiReduction .add [1] S512 A2 0x00000000#32 reduces_S512x64_S512 (.inl rfl) rfl)
                  shapeCasts_S512_S512x1) broadcasts_S512x1_S512x512)
              (broadcastTo S512x512
                (transpose S1x512 [1, 0]
                  (shapeCast S512x1 (multiReduction .add [1] S512 (mulf b b) 0x00000000#32 reduces_S512x64_S512 (.inl rfl) rfl)
                    shapeCasts_S512_S512x1) transposes_S512x1_p1_0_S1x512) broadcasts_S1x512_S512x512))
            (mulf (broadcast S512x512 (Scalar.ofBits (F := Ideal) .f32 0x40000000#32))
              (FloatOps.matmul dot_S512x64_S64x512_S512x512_1_0_0_1_n_n none (truncf .bf16 a bitsLt_bf16_f32)
                (transpose S64x512 [1, 0] (truncf .bf16 b bitsLt_bf16_f32) transposes_S512x64_p1_0_S64x512)
                (constant S512x512 .f32 0x00000000#32)))))
        (broadcast S512x512 (Scalar.ofBits (F := Ideal) .f32 0x39800000#32)) (ix2 p q)
      = (zeroW - sqdist (fun d => a (ix2 p d)) (fun d => b (ix2 q d))) * invD2W := by
  refine congrArg (fun y => (zeroW - y) * invD2W) ?_
  show _ = (sqn (fun d => a (ix2 p d)) + sqn (fun d => b (ix2 q d))) - twoW * dot64 (fun d => a (ix2 p d)) (fun d => b (ix2 q d))
  refine congrArg₂ (· - ·) (congrArg₂ (· + ·) ?_ ?_) (congrArg (fun y => twoW * y) ?_)
  · refine (Cert.LibUnitAxes.broadcastTo_a1_ab_apply _ _ p q).trans ?_
    refine (Cert.LibLaneSums.shapeCast_a_a1_apply _ _ p 0).trans ?_
    refine (Cert.LibLaneSums.sum_last_apply _ 0x00000000#32 reduces_S512x64_S512 (.inl rfl) rfl p).trans ?_
    exact Finset.sum_congr rfl fun d _ => hA2 p d
  · refine (broadcastTo_1b_ab_apply _ _ p q).trans ?_
    refine (transpose_ix2_apply _ _ 0 q).trans ?_
    refine (Cert.LibLaneSums.shapeCast_a_a1_apply _ _ q 0).trans ?_
    refine (Cert.LibLaneSums.sum_last_apply _ 0x00000000#32 reduces_S512x64_S512 (.inl rfl) rfl q).trans ?_
    rfl
  · refine (Cert.LibPlainDot.matmul_zero_apply dot_S512x64_S64x512_S512x512_1_0_0_1_n_n rfl rfl rfl rfl hL0_C hR1_C none _ _ p q).trans ?_
    exact Finset.sum_congr rfl fun k _ => congrArg (fun y => a (ix2 p k) * y) (transpose_ix2_apply _ _ k q)

/-! ## The total over a tile pair -/

/-- The exponential of a 512 x 512 array summed along each row and then down the rows, seen as a [1, 1] array, at
    its one entry: the sum over all (p, q) of the exponential of the entry. -/
theorem k1_total_apply (E : FVec Ideal S512x512 .f32) :
    shapeCast S1x1
        (multiReduction .add [0] S1
          (shapeCast S512x1 (multiReduction .add [1] S512 (exp E) 0x00000000#32 reduces_S512x512_S512 (.inl rfl) rfl)
            shapeCasts_S512_S512x1) 0x00000000#32 reduces_S512x1_S1 (.inl rfl) rfl) shapeCasts_S1_S1x1 (ix2 0 0)
      = ∑ p : Fin 512, ∑ q : Fin 512, Ideal.exp (E (ix2 p q)) := by
  refine (shapeCast_a_1a_apply _ _ 0 0).trans ?_
  refine (Cert.AxisSums.sum_first_apply _ 0x00000000#32 reduces_S512x1_S1 (.inl rfl) rfl 0).trans ?_
  refine Finset.sum_congr rfl fun p _ => ?_
  refine (Cert.LibLaneSums.shapeCast_a_a1_apply _ _ p 0).trans ?_
  refine (Cert.LibLaneSums.sum_last_apply _ 0x00000000#32 reduces_S512x512_S512 (.inl rfl) rfl p).trans ?_
  rfl

/-! ## The three pair sums and the update -/

/-- A cast to the same shape moves nothing. -/
theorem k1_pay3_eq (v : Vec Ideal S512x64 .f32) : k1_pay3 (F := Ideal) v = v := by
  unfold k1_pay3
  exact shapeCast_self v _

/-- The (z_i, prior_j) array of scaled negative squared distances at entry (p, q). -/
theorem k1_pay7_apply (a : FVec Ideal S512x64 .f32) (b : Vec Ideal S512x64 .f32) (p q : Fin 512) :
    k1_pay7 (F := Ideal) a b (ix2 p q) = (zeroW - sqdist (fun d => a (ix2 p d)) (fun d => b (ix2 q d))) * invD2W := by
  unfold k1_pay7
  exact k1_scaled_apply a (mulf a a) b (fun _ _ => rfl) p q

/-- The pair sum of tile i of z against tile j of z. -/
theorem k1_pay4_apply (zi zj : Vec Ideal S512x64 .f32) :
    k1_pay4 (F := Ideal) zi zj (ix2 0 0)
      = ∑ p : Fin 512, ∑ q : Fin 512, kPair (fun d => zi (ix2 p d)) (fun d => zj (ix2 q d)) := by
  unfold k1_pay4
  refine (k1_total_apply _).trans ?_
  refine Finset.sum_congr rfl fun p _ => Finset.sum_congr rfl fun q _ => ?_
  refine (congrArg Ideal.exp ?_ : Ideal.exp _ = kPair _ _)
  refine (k1_scaled_apply (k1_pay3 (F := Ideal) zi) (mulf (k1_pay3 (F := Ideal) zi) (k1_pay3 (F := Ideal) zi))
    (shapeCast S512x64 zj shapeCasts_S512x64_S512x64) (fun _ _ => rfl) p q).trans ?_
  exact congrArg₂ (fun (u v : Vec Ideal S512x64 .f32) => (zeroW - sqdist (fun d => u (ix2 p d)) (fun d => v (ix2 q d))) * invD2W)
    (k1_pay3_eq zi) (shapeCast_self zj _)

/-- The pair sum of tile i of the prior sample against tile j of it. -/
theorem k1_pay6_apply (pi pj : Vec Ideal S512x64 .f32) :
    k1_pay6 (F := Ideal) pi pj (k1_pay5 (F := Ideal) pi) (ix2 0 0)
      = ∑ p : Fin 512, ∑ q : Fin 512, kPair (fun d => pi (ix2 p d)) (fun d => pj (ix2 q d)) := by
  unfold k1_pay6
  refine (k1_total_apply _).trans ?_
  refine Finset.sum_congr rfl fun p _ => Finset.sum_congr rfl fun q _ => ?_
  exact (congrArg Ideal.exp (k1_scaled_apply pi (k1_pay5 (F := Ideal) pi) pj (fun _ _ => rfl) p q) : Ideal.exp _ = kPair _ _)

/-- What the body stores in the output window, at its one entry: what it loaded plus (s_xx + s_yy) - 2 s_xy of the
    point's four tiles. -/
theorem mmdStep_apply (zi zj pi pj : Vec Ideal S512x64 .f32) (acc : Vec Ideal S1x1 .f32) :
    k1_pay1 (F := Ideal) (k1_pay4 (F := Ideal) zi zj) (k1_pay6 (F := Ideal) pi pj (k1_pay5 (F := Ideal) pi)) (k1_pay7 (F := Ideal) (k1_pay3 (F := Ideal) zi) pj) acc (ix2 0 0)
      = acc (ix2 0 0) + (((∑ p : Fin 512, ∑ q : Fin 512, kPair (fun d => zi (ix2 p d)) (fun d => zj (ix2 q d)))
            + ∑ p : Fin 512, ∑ q : Fin 512, kPair (fun d => pi (ix2 p d)) (fun d => pj (ix2 q d)))
          - twoW * ∑ p : Fin 512, ∑ q : Fin 512, kPair (fun d => zi (ix2 p d)) (fun d => pj (ix2 q d))) := by
  unfold k1_pay1
  refine congrArg₂ (· + ·) (congrFun (shapeCast_self acc _) _) ?_
  refine congrArg₂ (· - ·) (congrArg₂ (· + ·) (k1_pay4_apply zi zj) (k1_pay6_apply pi pj)) ?_
  refine congrArg (fun y => twoW * y) ?_
  refine (k1_total_apply _).trans ?_
  refine Finset.sum_congr rfl fun p _ => Finset.sum_congr rfl fun q _ => ?_
  refine (congrArg Ideal.exp ?_ : Ideal.exp _ = kPair _ _)
  refine (k1_pay7_apply (k1_pay3 (F := Ideal) zi) pj p q).trans ?_
  exact congrArg (fun (u : Vec Ideal S512x64 .f32) => (zeroW - sqdist (fun d => u (ix2 p d)) (fun d => pj (ix2 q d))) * invD2W)
    (k1_pay3_eq zi)

end Cert.KernelIdeal.Val

end
-- ==== Proof.KI.KVal1.lean ====
/-
  Region 1's output array as the specification's function of the two arrays its windows read, on the extended
  reals: the running sum after the last point is the sum over the 16 x 16 tile pairs (i, j) of
  (sxx + syy) - 2 sxy, each a pair sum of tile i of one array against tile j of another, the zero fill
  contributing nothing. Point t of the grid is the pair (t / 16, t % 16).
-/
import proofs.«125570_j13228499272255_1_alg».proof.Proof.KI.Fold1
import proofs.«125570_j13228499272255_1_alg».proof.Proof.KI.Val1
import proofs.«125570_j13228499272255_1_alg».proof.Proof.Law

set_option maxRecDepth 16384

noncomputable section

namespace Cert.KernelIdeal.Hand

open Idealize.ShloMosaic Idealize.ShloMosaic.TcCoe Idealize.ShloMosaic.ValueIdx
open Idealize.SL.Sem
open Cert.KernelIdeal.Gen Cert.Spec

variable (V : (c : Dev nD) → (b : Ref sig .tc) → Buf (Elt Ideal) ((c : Thread nD τ).loc b))

/-- What tile pair (i, j) adds, over the arrays the region finds. -/
def tileMmdV (c : Dev nD) (i j : Fin 16) : EReal :=
  (tileK (arr2 (V c main_v0_0)) (arr2 (V c main_v0_0)) i j + tileK (arr2 (V c main_arg3)) (arr2 (V c main_arg3)) i j)
    - twoW * tileK (arr2 (V c main_v0_0)) (arr2 (V c main_arg3)) i j

theorem div16_lt (t : Fin cfg1.N) : t.val / 16 < 16 := by
  have hN : cfg1.N = 256 := N_1
  have := t.isLt; omega

/-- The point's accumulator update at its entry. -/
theorem mmdStep_row (c : Dev nD) (t : Fin cfg1.N) (acc : Vec Ideal S1x1 .f32) :
    mmdStep V c t acc (ix2 0 0)
      = acc (ix2 0 0) + tileMmdV V c ⟨t.val / 16, div16_lt t⟩ ⟨t.val % 16, Nat.mod_lt _ (by norm_num)⟩ := by
  unfold mmdStep
  refine (Cert.KernelIdeal.Val.mmdStep_apply (iblk1 V c 0 t) (iblk1 V c 1 t) (iblk1 V c 2 t) (iblk1 V c 3 t) acc).trans ?_
  unfold tileMmdV tileK arr2 row
  simp only [iblk1_0_apply V c t, iblk1_1_apply V c t, iblk1_2_apply V c t, iblk1_3_apply V c t]

/-- Point s's term, zero past the grid. -/
def mmdTerm (c : Dev nD) (s : Nat) : EReal :=
  if hs : s < 256 then tileMmdV V c ⟨s / 16, by omega⟩ ⟨s % 16, Nat.mod_lt _ (by norm_num)⟩ else 0

/-- The running sum after position n. -/
theorem mmdAcc_apply (c : Dev nD) : ∀ (n : Nat) (h : n < cfg1.N), mmdAcc V c n h (ix2 0 0) = ∑ s ∈ Finset.range (n + 1), mmdTerm V c s
  | 0, h => by
    have hN : cfg1.N = 256 := N_1
    show mmdStep V c ⟨0, h⟩ (k1_pay2 (F := Ideal)) (ix2 0 0) = _
    rw [mmdStep_row, Finset.sum_range_one, mmdTerm, dif_pos (by omega)]
    show Cert.Spec.zeroW + _ = _
    rw [Cert.Law.zeroW_eq, zero_add]
  | n + 1, h => by
    have hN : cfg1.N = 256 := N_1
    show mmdStep V c ⟨n + 1, h⟩ (mmdAcc V c n (Nat.lt_of_succ_lt h)) (ix2 0 0) = _
    rw [mmdStep_row, mmdAcc_apply c n (Nat.lt_of_succ_lt h), Finset.sum_range_succ _ (n + 1)]
    congr 1
    rw [mmdTerm, dif_pos (by omega)]

/-- The 256 points as the 16 x 16 tile pairs. -/
theorem sum_pairs (g : Fin 16 → Fin 16 → EReal) :
    ∑ s : Fin 256, g ⟨s.val / 16, by have := s.isLt; omega⟩ ⟨s.val % 16, Nat.mod_lt _ (by norm_num)⟩
      = ∑ i : Fin 16, ∑ j : Fin 16, g i j := by
  rw [← Finset.sum_product', Finset.univ_product_univ]
  refine Fintype.sum_equiv (finProdFinEquiv (m := 16) (n := 16)).symm _ _ fun s => ?_
  rfl

/-- The output array after the run: the sum over the tile pairs. -/
theorem mmdResult_apply (c : Dev nD) (i : S1x1.Idx) :
    mmdResult V c i = ∑ a : Fin 16, ∑ b : Fin 16, tileMmdV V c a b := by
  have hi : i = ix2 0 0 := by
    have h0 : (i 0 : Nat) < 1 := (i 0).isLt
    have h1 : (i 1 : Nat) < 1 := (i 1).isLt
    rw [eq_ix2 i]
    congr 1
    · exact Fin.ext (by show (i 0 : Nat) = 0; omega)
    · exact Fin.ext (by show (i 1 : Nat) = 0; omega)
  rw [hi]
  show mmdAcc V c 255 _ (ix2 0 0) = _
  rw [mmdAcc_apply, ← Fin.sum_univ_eq_sum_range (fun s => mmdTerm V c s) 256, ← sum_pairs (tileMmdV V c)]
  exact Finset.sum_congr rfl fun s _ => by rw [mmdTerm, dif_pos s.isLt]

end Cert.KernelIdeal.Hand

end
-- ==== Proof.KI.KFinal.lean ====
/-
  The idealized kernel's result as the specification's function of the argument arrays.

  @main divides region 0's error sum by 2^23, divides region 1's sum by 2^26, scales it by ten and adds. Region
  1 reads z through the array region 0 left (the latent sample row by row) and z_prior as launched; so its sum
  is the specification's sum over the tile pairs, and the result is Spec.kernelTotal of the argument arrays.
-/
import proofs.«125570_j13228499272255_1_alg».proof.Proof.KI.Run
import proofs.«125570_j13228499272255_1_alg».proof.Proof.KI.KVal0
import proofs.«125570_j13228499272255_1_alg».proof.Proof.KI.KVal1

set_option maxRecDepth 16384

noncomputable section

namespace Cert.KernelIdeal.Hand

open Idealize.ShloMosaic Idealize.ShloMosaic.TcCoe Idealize.ShloMosaic.ValueIdx
open Idealize.SL.Sem
open Cert.KernelIdeal.Gen Cert.Spec

variable (m : (ℓ : Loc nD τ sig) → Buf (Elt Ideal) ℓ) (ρ : Dev nD → PrngReg)

/-- A [1,1] array seen as a scalar reads its one entry. -/
theorem scalar_cast (a : S1x1.Idx → EReal) (i : S_.Idx) : shapeCast S_ a shapeCasts_S1x1_S_ i = a (ix2 0 0) :=
  shapeCast_apply a shapeCasts_S1x1_S_ i (ix2 0 0) (by
    have h2 : (S_.rowMajor i).val < 1 := (S_.rowMajor i).isLt
    rw [Shape.rowMajor_val_two]
    show (0 : Nat) * 1 + 0 = _
    omega)

/-- The z array region 1 reads is the latent sample of the launch arrays. -/
theorem z_read (c : Dev nD) :
    arr2 (V2 m ρ c main_v0_0) = zArr (PP (V0 m ρ) c) (arr2 (V0 m ρ c main_arg0)) (arr2 (V0 m ρ c main_arg2)) := by
  funext r d
  unfold arr2
  rw [V2_z, z_final]
  exact zAssembled_apply (V0 m ρ) c r d

theorem zp_read (c : Dev nD) : arr2 (V2 m ρ c main_arg3) = arr2 (V0 m ρ c main_arg3) := by
  rw [V2_arg3]

/-- What a tile pair adds, over the launch arrays. -/
theorem tileMmdV_eq (c : Dev nD) (i j : Fin 16) :
    tileMmdV (V2 m ρ) c i j
      = tileMmd (PP (V0 m ρ) c) (arr2 (V0 m ρ c main_arg0)) (arr2 (V0 m ρ c main_arg2)) (arr2 (V0 m ρ c main_arg3)) i j := by
  unfold tileMmdV tileMmd
  rw [z_read, zp_read]

/-- THE KERNEL'S VALUE. -/
theorem kernel_value (c : Dev nD) :
    W4 m ρ c (Proc.devRef .tc main_v7)
      = fun _ => kernelTotal (PP (V0 m ρ) c) (arr2 (V0 m ρ c main_arg0)) (arr2 (V0 m ρ c main_arg1))
          (arr2 (V0 m ρ c main_arg2)) (arr2 (V0 m ρ c main_arg3)) := by
  rw [W4_main_v7]
  funext i
  show Ideal.div (shapeCast _ ((dat0 (V0 m ρ) c).arrAt 16 cfg0.N) shapeCasts_S1x1_S_ i) nRecW
      + tenW * Ideal.div (shapeCast _ ((dat1 (V2 m ρ) c).arrAt 4 cfg1.N) shapeCasts_S1x1_S_ i) nMmdW = _
  rw [sq_final, mmd_final, scalar_cast, scalar_cast, sqResult_apply, mmdResult_apply]
  unfold kernelTotal
  simp only [tileMmdV_eq]

end Cert.KernelIdeal.Hand

end
-- ==== Proof.RefValueEnc.lean ====
/-
  The reference's encoder read at an entry. Each of its two heads is two dense layers, a dot product of a row with a
  column of the weights plus the bias entry, each followed by its activation; the latent sample of a row is the
  mean plus the standard deviation times the row's noise. Every entry depends on the batch through its row alone.
-/
import proofs.«125570_j13228499272255_1_alg».proof.Proof.Spec
import proofs.«125570_j13228499272255_1_alg».proof.Proof.Gen.ReferenceIdeal.Read
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Read Cert.Spec Idealize.ShloMosaic Idealize.ShloMosaic.ValueIdx

/-- The select on "y > 0" between y and the slope word times y is the leaky rectifier. -/
theorem lrelu_word (y : Ideal .f32) :
    Scalar.select (FloatOps.cmpf (F := Ideal) .ogt y (FloatOps.ofBits (F := Ideal) .f32 0x00000000#32)) y
      (FloatOps.mulf (FloatOps.ofBits (F := Ideal) .f32 0x3C23D70A#32) y) = lrelu y := rfl

/-- The minimum with 10 of the maximum with -10 is the clip. -/
theorem clip_word (y : Ideal .f32) :
    FloatOps.minimumf (FloatOps.ofBits (F := Ideal) .f32 0x41200000#32)
      (FloatOps.maximumf (FloatOps.ofBits (F := Ideal) .f32 0xC1200000#32) y) = min hiW (max loW y) := rfl

variable (x0 : (⟨S8192x1024, .f32⟩ : BufTy).Contents (Elt Ideal)) (x1 x2 x3 : (⟨S8192x64, .f32⟩ : BufTy).Contents (Elt Ideal))
  (x4 : (⟨S1024x512, .f32⟩ : BufTy).Contents (Elt Ideal)) (x5 : (⟨S512, .f32⟩ : BufTy).Contents (Elt Ideal)) (x6 : (⟨S512x64, .f32⟩ : BufTy).Contents (Elt Ideal)) (x7 : (⟨S64, .f32⟩ : BufTy).Contents (Elt Ideal))
  (x8 : (⟨S1024x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal))
  (x12 : (⟨S64x512, .f32⟩ : BufTy).Contents (Elt Ideal)) (x13 : (⟨S512, .f32⟩ : BufTy).Contents (Elt Ideal)) (x14 : (⟨S512x1024, .f32⟩ : BufTy).Contents (Elt Ideal)) (x15 : (⟨S1024, .f32⟩ : BufTy).Contents (Elt Ideal))

local notation "PP" => paramsOf x4 x5 x6 x7 x8 x9 x10 x11 x12 x13 x14 x15

/-! ## The mean head -/

theorem v3_at (r : Fin 8192) (n : Fin 512) :
    val_main_v3 (F := Ideal) x0 x4 x5 (ix2 r n) = dense (arr2 x0 r) (arr2 x4) (arr1 x5) n := by
  rw [val_main_v3_apply, val_main_v0_apply, val_main_v2_apply, val_main_v1_apply]
  have e1 : ∀ k : Fin 1024, lidx_main_v0 (ix2 r n) k = ix2 r k := fun k => funext fun a => Fin.ext (by match a with | ⟨0, _⟩ => rfl | ⟨1, _⟩ => rfl)
  have e2 : ∀ k : Fin 1024, ridx_main_v0 (ix2 r n) k = ix2 k n := fun k => funext fun a => Fin.ext (by match a with | ⟨0, _⟩ => rfl | ⟨1, _⟩ => rfl)
  have e3 : idx_main_v1 (idx_main_v2 (ix2 r n)) = ix1 n := funext fun a => Fin.ext (by match a with | ⟨0, _⟩ => rfl)
  simp only [e1, e2, e3]
  rfl

theorem v8_at (r : Fin 8192) (n : Fin 512) :
    val_main_v8 (F := Ideal) x0 x4 x5 (ix2 r n) = lrelu (dense (arr2 x0 r) (arr2 x4) (arr1 x5) n) := by
  rw [val_main_v8_apply, val_main_v5_apply, val_main_v7_apply, val_main_v4_apply, val_main_v6_apply,
    val_main_cst_apply, val_main_cst_0_apply, v3_at]
  exact lrelu_word _

theorem v12_at (r : Fin 8192) (n : Fin 64) :
    val_main_v12 (F := Ideal) x0 x4 x5 x6 x7 (ix2 r n) = dense (fun k => lrelu (dense (arr2 x0 r) (arr2 x4) (arr1 x5) k)) (arr2 x6) (arr1 x7) n := by
  rw [val_main_v12_apply, val_main_v9_apply, val_main_v11_apply, val_main_v10_apply]
  have e1 : ∀ k : Fin 512, lidx_main_v9 (ix2 r n) k = ix2 r k := fun k => funext fun a => Fin.ext (by match a with | ⟨0, _⟩ => rfl | ⟨1, _⟩ => rfl)
  have e2 : ∀ k : Fin 512, ridx_main_v9 (ix2 r n) k = ix2 k n := fun k => funext fun a => Fin.ext (by match a with | ⟨0, _⟩ => rfl | ⟨1, _⟩ => rfl)
  have e3 : idx_main_v10 (idx_main_v11 (ix2 r n)) = ix1 n := funext fun a => Fin.ext (by match a with | ⟨0, _⟩ => rfl)
  simp only [e1, e2, e3, v8_at]
  rfl

theorem v17_at (r : Fin 8192) (d : Fin 64) :
    val_main_v17 (F := Ideal) x0 x4 x5 x6 x7 (ix2 r d) = meanRow PP (arr2 x0 r) d := by
  rw [val_main_v17_apply, val_main_v14_apply, val_main_v16_apply, val_main_v13_apply, val_main_v15_apply,
    val_main_cst_1_apply, val_main_cst_2_apply, v12_at]
  exact lrelu_word _

/-! ## The log-variance head -/

theorem v21_at (r : Fin 8192) (n : Fin 512) :
    val_main_v21 (F := Ideal) x0 x8 x9 (ix2 r n) = dense (arr2 x0 r) (arr2 x8) (arr1 x9) n := by
  rw [val_main_v21_apply, val_main_v18_apply, val_main_v20_apply, val_main_v19_apply]
  have e1 : ∀ k : Fin 1024, lidx_main_v18 (ix2 r n) k = ix2 r k := fun k => funext fun a => Fin.ext (by match a with | ⟨0, _⟩ => rfl | ⟨1, _⟩ => rfl)
  have e2 : ∀ k : Fin 1024, ridx_main_v18 (ix2 r n) k = ix2 k n := fun k => funext fun a => Fin.ext (by match a with | ⟨0, _⟩ => rfl | ⟨1, _⟩ => rfl)
  have e3 : idx_main_v19 (idx_main_v20 (ix2 r n)) = ix1 n := funext fun a => Fin.ext (by match a with | ⟨0, _⟩ => rfl)
  simp only [e1, e2, e3]
  rfl

theorem v26_at (r : Fin 8192) (n : Fin 64) :
    val_main_v26 (F := Ideal) x0 x8 x9 x10 x11 (ix2 r n) = dense (fun k => Ideal.tanh (dense (arr2 x0 r) (arr2 x8) (arr1 x9) k)) (arr2 x10) (arr1 x11) n := by
  rw [val_main_v26_apply, val_main_v23_apply, val_main_v25_apply, val_main_v24_apply]
  have e1 : ∀ k : Fin 512, lidx_main_v23 (ix2 r n) k = ix2 r k := fun k => funext fun a => Fin.ext (by match a with | ⟨0, _⟩ => rfl | ⟨1, _⟩ => rfl)
  have e2 : ∀ k : Fin 512, ridx_main_v23 (ix2 r n) k = ix2 k n := fun k => funext fun a => Fin.ext (by match a with | ⟨0, _⟩ => rfl | ⟨1, _⟩ => rfl)
  have e3 : idx_main_v24 (idx_main_v25 (ix2 r n)) = ix1 n := funext fun a => Fin.ext (by match a with | ⟨0, _⟩ => rfl)
  simp only [e1, e2, e3, val_main_v22_apply, v21_at]
  rfl

theorem v32_at (r : Fin 8192) (d : Fin 64) :
    val_main_v32 (F := Ideal) x0 x8 x9 x10 x11 (ix2 r d) = logvarRow PP (arr2 x0 r) d := by
  rw [val_main_v32_apply, val_main_call3_v4_apply, val_main_call3_v3_apply, val_main_cst_6_apply,
    val_main_call3_v2_apply, val_main_call3_v1_apply, val_main_call3_v0_apply, val_main_cst_5_apply, clip_word,
    val_main_v31_apply, val_main_v28_apply, val_main_v30_apply, val_main_v27_apply, val_main_v29_apply,
    val_main_cst_3_apply, val_main_cst_4_apply, lrelu_word, v26_at]
  rfl

/-- The standard deviation, as the encoder's sample takes it. -/
theorem v35_at (r : Fin 8192) (d : Fin 64) :
    val_main_v35 (F := Ideal) x0 x8 x9 x10 x11 (ix2 r d) = stdRow PP (arr2 x0 r) d := by
  rw [val_main_v35_apply, val_main_v34_apply, val_main_v33_apply, val_main_cst_7_apply,
    v32_at x0 x4 x5 x6 x7 x8 x9 x10 x11 x12 x13 x14 x15]
  rfl

/-- The standard deviation, as the latent sample takes it. -/
theorem v62_at (r : Fin 8192) (d : Fin 64) :
    val_main_v62 (F := Ideal) x0 x8 x9 x10 x11 (ix2 r d) = stdRow PP (arr2 x0 r) d := by
  rw [val_main_v62_apply, val_main_v61_apply, val_main_v60_apply, val_main_cst_14_apply,
    v32_at x0 x4 x5 x6 x7 x8 x9 x10 x11 x12 x13 x14 x15]
  rfl

/-! ## The two samples -/

/-- The encoder's sample, the decoder's input. -/
theorem v37_at (r : Fin 8192) (d : Fin 64) :
    val_main_v37 (F := Ideal) x0 x1 x4 x5 x6 x7 x8 x9 x10 x11 (ix2 r d) = zRow PP (arr2 x0 r) (arr2 x1 r) d := by
  rw [val_main_v37_apply, val_main_v36_apply, v17_at x0 x4 x5 x6 x7 x8 x9 x10 x11 x12 x13 x14 x15, v35_at x0 x4 x5 x6 x7 x8 x9 x10 x11 x12 x13 x14 x15]
  rfl

/-- The latent sample the kernel matrices are built from. -/
theorem v64_at (r : Fin 8192) (d : Fin 64) :
    val_main_v64 (F := Ideal) x0 x2 x4 x5 x6 x7 x8 x9 x10 x11 (ix2 r d) = zArr PP (arr2 x0) (arr2 x2) r d := by
  rw [val_main_v64_apply, val_main_v63_apply, v17_at x0 x4 x5 x6 x7 x8 x9 x10 x11 x12 x13 x14 x15, v62_at x0 x4 x5 x6 x7 x8 x9 x10 x11 x12 x13 x14 x15]
  rfl

end Cert.RefValue

end
-- ==== Proof.RefValueDec.lean ====
/-
  The reference's decoder read at an entry: two dense layers with the leaky rectifier on the encoder's sample of the
  row, then the squared difference from the batch entry.
-/
import proofs.«125570_j13228499272255_1_alg».proof.Proof.RefValueEnc

noncomputable section

namespace Cert.RefValue

open Cert.ReferenceIdeal Cert.ReferenceIdeal.Read Cert.Spec Idealize.ShloMosaic Idealize.ShloMosaic.ValueIdx

variable (x0 : (⟨S8192x1024, .f32⟩ : BufTy).Contents (Elt Ideal)) (x1 x2 x3 : (⟨S8192x64, .f32⟩ : BufTy).Contents (Elt Ideal))
  (x4 : (⟨S1024x512, .f32⟩ : BufTy).Contents (Elt Ideal)) (x5 : (⟨S512, .f32⟩ : BufTy).Contents (Elt Ideal)) (x6 : (⟨S512x64, .f32⟩ : BufTy).Contents (Elt Ideal)) (x7 : (⟨S64, .f32⟩ : BufTy).Contents (Elt Ideal))
  (x8 : (⟨S1024x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal))
  (x12 : (⟨S64x512, .f32⟩ : BufTy).Contents (Elt Ideal)) (x13 : (⟨S512, .f32⟩ : BufTy).Contents (Elt Ideal)) (x14 : (⟨S512x1024, .f32⟩ : BufTy).Contents (Elt Ideal)) (x15 : (⟨S1024, .f32⟩ : BufTy).Contents (Elt Ideal))

local notation "PP" => paramsOf x4 x5 x6 x7 x8 x9 x10 x11 x12 x13 x14 x15

theorem v41_at (r : Fin 8192) (n : Fin 512) :
    val_main_v41 (F := Ideal) x0 x1 x4 x5 x6 x7 x8 x9 x10 x11 x12 x13 (ix2 r n) = dense (zRow PP (arr2 x0 r) (arr2 x1 r)) (arr2 x12) (arr1 x13) n := by
  rw [val_main_v41_apply, val_main_v38_apply, val_main_v40_apply, val_main_v39_apply]
  have e1 : ∀ k : Fin 64, lidx_main_v38 (ix2 r n) k = ix2 r k := fun k => funext fun a => Fin.ext (by match a with | ⟨0, _⟩ => rfl | ⟨1, _⟩ => rfl)
  have e2 : ∀ k : Fin 64, ridx_main_v38 (ix2 r n) k = ix2 k n := fun k => funext fun a => Fin.ext (by match a with | ⟨0, _⟩ => rfl | ⟨1, _⟩ => rfl)
  have e3 : idx_main_v39 (idx_main_v40 (ix2 r n)) = ix1 n := funext fun a => Fin.ext (by match a with | ⟨0, _⟩ => rfl)
  simp only [e1, e2, e3, v37_at x0 x1 x4 x5 x6 x7 x8 x9 x10 x11 x12 x13 x14 x15]
  rfl

theorem v46_at (r : Fin 8192) (n : Fin 512) :
    val_main_v46 (F := Ideal) x0 x1 x4 x5 x6 x7 x8 x9 x10 x11 x12 x13 (ix2 r n) = lrelu (dense (zRow PP (arr2 x0 r) (arr2 x1 r)) (arr2 x12) (arr1 x13) n) := by
  rw [val_main_v46_apply, val_main_v43_apply, val_main_v45_apply, val_main_v42_apply, val_main_v44_apply,
    val_main_cst_8_apply, val_main_cst_9_apply, v41_at x0 x1 x4 x5 x6 x7 x8 x9 x10 x11 x12 x13 x14 x15]
  exact lrelu_word _

theorem v50_at (r : Fin 8192) (n : Fin 1024) :
    val_main_v50 (F := Ideal) x0 x1 x4 x5 x6 x7 x8 x9 x10 x11 x12 x13 x14 x15 (ix2 r n) = dense (fun k => lrelu (dense (zRow PP (arr2 x0 r) (arr2 x1 r)) (arr2 x12) (arr1 x13) k)) (arr2 x14) (arr1 x15) n := by
  rw [val_main_v50_apply, val_main_v47_apply, val_main_v49_apply, val_main_v48_apply]
  have e1 : ∀ k : Fin 512, lidx_main_v47 (ix2 r n) k = ix2 r k := fun k => funext fun a => Fin.ext (by match a with | ⟨0, _⟩ => rfl | ⟨1, _⟩ => rfl)
  have e2 : ∀ k : Fin 512, ridx_main_v47 (ix2 r n) k = ix2 k n := fun k => funext fun a => Fin.ext (by match a with | ⟨0, _⟩ => rfl | ⟨1, _⟩ => rfl)
  have e3 : idx_main_v48 (idx_main_v49 (ix2 r n)) = ix1 n := funext fun a => Fin.ext (by match a with | ⟨0, _⟩ => rfl)
  simp only [e1, e2, e3, v46_at x0 x1 x4 x5 x6 x7 x8 x9 x10 x11 x12 x13 x14 x15]
  rfl

/-- The reconstruction. -/
theorem v55_at (r : Fin 8192) (j : Fin 1024) :
    val_main_v55 (F := Ideal) x0 x1 x4 x5 x6 x7 x8 x9 x10 x11 x12 x13 x14 x15 (ix2 r j) = reconRow PP (arr2 x0 r) (arr2 x1 r) j := by
  rw [val_main_v55_apply, val_main_v52_apply, val_main_v54_apply, val_main_v51_apply, val_main_v53_apply,
    val_main_cst_10_apply, val_main_cst_11_apply, v50_at x0 x1 x4 x5 x6 x7 x8 x9 x10 x11 x12 x13 x14 x15]
  exact lrelu_word _

/-- The squared reconstruction error of one entry. -/
theorem v57_at (r : Fin 8192) (j : Fin 1024) :
    val_main_v57 (F := Ideal) x0 x1 x4 x5 x6 x7 x8 x9 x10 x11 x12 x13 x14 x15 (ix2 r j) = sqRow PP (arr2 x0 r) (arr2 x1 r) j := by
  rw [val_main_v57_apply, val_main_v56_apply, v55_at x0 x1 x4 x5 x6 x7 x8 x9 x10 x11 x12 x13 x14 x15]
  rfl

end Cert.RefValue

end
-- ==== Proof.RefValuePair.lean ====
/-
  The reference's three kernel matrices read at an entry. For two arrays of rows a, b the entry (r, s) is
  exp (-(|a_r|^2 + |b_s|^2 - 2 a_r . b_s) / 4096): the squared norms come from a sum along the row kept as a column,
  the second one transposed, both broadcast to the square; the dot products from a product with the transposed
  array. The sums start from the zero word, which is the extended real 0.
-/
import proofs.«125570_j13228499272255_1_alg».proof.Proof.RefValueEnc

noncomputable section

namespace Cert.RefValue

open Cert.ReferenceIdeal Cert.ReferenceIdeal.Read Cert.Spec Idealize.ShloMosaic Idealize.ShloMosaic.ValueIdx

/-- The entry's arithmetic, with the two row sums started from the zero word. -/
theorem pair_word (a b : Fin 64 → EReal) :
    FloatOps.hostUnary (F := Ideal) (φ := .f32) .exp
      (FloatOps.hostDivf (F := Ideal) (φ := .f32)
        (FloatOps.hostNegf (F := Ideal) (φ := .f32)
          (FloatOps.subf (F := Ideal) (φ := .f32) ((zeroW + sqn a) + (zeroW + sqn b))
            (FloatOps.mulf (F := Ideal) (φ := .f32) (FloatOps.ofBits (F := Ideal) .f32 0x40000000#32) (dot64 a b))))
        (FloatOps.ofBits (F := Ideal) .f32 0x45800000#32)) = kPairRef a b := by
  show Ideal.exp (Ideal.div (-(((zeroW + sqn a) + (zeroW + sqn b)) - twoW * dot64 a b)) d2W) = kPairRef a b
  rw [show (zeroW : EReal) = 0 from Ideal.ofBits_zero_f32, zero_add, zero_add]
  rfl

variable (x0 : (⟨S8192x1024, .f32⟩ : BufTy).Contents (Elt Ideal)) (x1 x2 x3 : (⟨S8192x64, .f32⟩ : BufTy).Contents (Elt Ideal))
  (x4 : (⟨S1024x512, .f32⟩ : BufTy).Contents (Elt Ideal)) (x5 : (⟨S512, .f32⟩ : BufTy).Contents (Elt Ideal)) (x6 : (⟨S512x64, .f32⟩ : BufTy).Contents (Elt Ideal)) (x7 : (⟨S64, .f32⟩ : BufTy).Contents (Elt Ideal))
  (x8 : (⟨S1024x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal))
  (x12 : (⟨S64x512, .f32⟩ : BufTy).Contents (Elt Ideal)) (x13 : (⟨S512, .f32⟩ : BufTy).Contents (Elt Ideal)) (x14 : (⟨S512x1024, .f32⟩ : BufTy).Contents (Elt Ideal)) (x15 : (⟨S1024, .f32⟩ : BufTy).Contents (Elt Ideal))

local notation "PP" => paramsOf x4 x5 x6 x7 x8 x9 x10 x11 x12 x13 x14 x15

/-! ## The latent sample against itself -/

theorem v66_at (r : Fin 8192) :
    val_main_v66 (F := Ideal) x0 x2 x4 x5 x6 x7 x8 x9 x10 x11 (ix1 r) = zeroW + sqn ((zArr PP (arr2 x0) (arr2 x2)) r) := by
  rw [val_main_v66_apply, val_main_cst_15_apply]
  have e : ∀ k : Fin 64, idx_main_v66 (ix1 r) k = ix2 r k := fun k => funext fun a => Fin.ext (by match a with | ⟨0, _⟩ => rfl | ⟨1, _⟩ => rfl)
  simp only [e, val_main_v65_apply, v64_at x0 x2 x4 x5 x6 x7 x8 x9 x10 x11 x12 x13 x14 x15]
  rfl

theorem v69_at (r : Fin 8192) :
    val_main_v69 (F := Ideal) x0 x2 x4 x5 x6 x7 x8 x9 x10 x11 (ix1 r) = zeroW + sqn ((zArr PP (arr2 x0) (arr2 x2)) r) := by
  rw [val_main_v69_apply, val_main_cst_16_apply]
  have e : ∀ k : Fin 64, idx_main_v69 (ix1 r) k = ix2 r k := fun k => funext fun a => Fin.ext (by match a with | ⟨0, _⟩ => rfl | ⟨1, _⟩ => rfl)
  simp only [e, val_main_v68_apply, v64_at x0 x2 x4 x5 x6 x7 x8 x9 x10 x11 x12 x13 x14 x15]
  rfl

theorem v74_at (r s : Fin 8192) :
    val_main_v74 (F := Ideal) x0 x2 x4 x5 x6 x7 x8 x9 x10 x11 (ix2 r s) = (zeroW + sqn ((zArr PP (arr2 x0) (arr2 x2)) r)) + (zeroW + sqn ((zArr PP (arr2 x0) (arr2 x2)) s)) := by
  rw [val_main_v74_apply, val_main_v72_apply, val_main_v67_apply, val_main_v73_apply, val_main_v71_apply, val_main_v70_apply]
  have e1 : idx_main_v67 (idx_main_v72 (ix2 r s)) = ix1 r := funext fun a => Fin.ext (by match a with | ⟨0, _⟩ => rfl)
  have e2 : idx_main_v70 (idx_main_v71 (idx_main_v73 (ix2 r s))) = ix1 s := funext fun a => Fin.ext (by match a with | ⟨0, _⟩ => rfl)
  rw [e1, e2, v66_at x0 x2 x4 x5 x6 x7 x8 x9 x10 x11 x12 x13 x14 x15, v69_at x0 x2 x4 x5 x6 x7 x8 x9 x10 x11 x12 x13 x14 x15]
  rfl

theorem v76_at (r s : Fin 8192) :
    val_main_v76 (F := Ideal) x0 x2 x4 x5 x6 x7 x8 x9 x10 x11 (ix2 r s) = dot64 ((zArr PP (arr2 x0) (arr2 x2)) r) ((zArr PP (arr2 x0) (arr2 x2)) s) := by
  rw [val_main_v76_apply]
  have e1 : ∀ k : Fin 64, lidx_main_v76 (ix2 r s) k = ix2 r k := fun k => funext fun a => Fin.ext (by match a with | ⟨0, _⟩ => rfl | ⟨1, _⟩ => rfl)
  have e2 : ∀ k : Fin 64, idx_main_v75 (ridx_main_v76 (ix2 r s) k) = ix2 s k := fun k => funext fun a => Fin.ext (by match a with | ⟨0, _⟩ => rfl | ⟨1, _⟩ => rfl)
  simp only [val_main_v75_apply, e1, e2, v64_at x0 x2 x4 x5 x6 x7 x8 x9 x10 x11 x12 x13 x14 x15]
  rfl

theorem v83_at (r s : Fin 8192) :
    val_main_v83 (F := Ideal) x0 x2 x4 x5 x6 x7 x8 x9 x10 x11 (ix2 r s) = kPairRef ((zArr PP (arr2 x0) (arr2 x2)) r) ((zArr PP (arr2 x0) (arr2 x2)) s) := by
  rw [val_main_v83_apply, val_main_v82_apply, val_main_v81_apply, val_main_cst_18_apply, val_main_v80_apply, val_main_v79_apply, val_main_v78_apply,
    val_main_v77_apply, val_main_cst_17_apply, v74_at x0 x2 x4 x5 x6 x7 x8 x9 x10 x11 x12 x13 x14 x15, v76_at x0 x2 x4 x5 x6 x7 x8 x9 x10 x11 x12 x13 x14 x15]
  exact pair_word _ _

/-! ## The prior sample against itself -/

theorem v85_at (r : Fin 8192) :
    val_main_v85 (F := Ideal) x3 (ix1 r) = zeroW + sqn ((arr2 x3) r) := by
  rw [val_main_v85_apply, val_main_cst_19_apply]
  have e : ∀ k : Fin 64, idx_main_v85 (ix1 r) k = ix2 r k := fun k => funext fun a => Fin.ext (by match a with | ⟨0, _⟩ => rfl | ⟨1, _⟩ => rfl)
  simp only [e, val_main_v84_apply]
  rfl

theorem v88_at (r : Fin 8192) :
    val_main_v88 (F := Ideal) x3 (ix1 r) = zeroW + sqn ((arr2 x3) r) := by
  rw [val_main_v88_apply, val_main_cst_20_apply]
  have e : ∀ k : Fin 64, idx_main_v88 (ix1 r) k = ix2 r k := fun k => funext fun a => Fin.ext (by match a with | ⟨0, _⟩ => rfl | ⟨1, _⟩ => rfl)
  simp only [e, val_main_v87_apply]
  rfl

theorem v93_at (r s : Fin 8192) :
    val_main_v93 (F := Ideal) x3 (ix2 r s) = (zeroW + sqn ((arr2 x3) r)) + (zeroW + sqn ((arr2 x3) s)) := by
  rw [val_main_v93_apply, val_main_v91_apply, val_main_v86_apply, val_main_v92_apply, val_main_v90_apply, val_main_v89_apply]
  have e1 : idx_main_v86 (idx_main_v91 (ix2 r s)) = ix1 r := funext fun a => Fin.ext (by match a with | ⟨0, _⟩ => rfl)
  have e2 : idx_main_v89 (idx_main_v90 (idx_main_v92 (ix2 r s))) = ix1 s := funext fun a => Fin.ext (by match a with | ⟨0, _⟩ => rfl)
  rw [e1, e2, v85_at x3, v88_at x3]
  rfl

theorem v95_at (r s : Fin 8192) :
    val_main_v95 (F := Ideal) x3 (ix2 r s) = dot64 ((arr2 x3) r) ((arr2 x3) s) := by
  rw [val_main_v95_apply]
  have e1 : ∀ k : Fin 64, lidx_main_v95 (ix2 r s) k = ix2 r k := fun k => funext fun a => Fin.ext (by match a with | ⟨0, _⟩ => rfl | ⟨1, _⟩ => rfl)
  have e2 : ∀ k : Fin 64, idx_main_v94 (ridx_main_v95 (ix2 r s) k) = ix2 s k := fun k => funext fun a => Fin.ext (by match a with | ⟨0, _⟩ => rfl | ⟨1, _⟩ => rfl)
  simp only [val_main_v94_apply, e1, e2]
  rfl

theorem v102_at (r s : Fin 8192) :
    val_main_v102 (F := Ideal) x3 (ix2 r s) = kPairRef ((arr2 x3) r) ((arr2 x3) s) := by
  rw [val_main_v102_apply, val_main_v101_apply, val_main_v100_apply, val_main_cst_22_apply, val_main_v99_apply, val_main_v98_apply, val_main_v97_apply,
    val_main_v96_apply, val_main_cst_21_apply, v93_at x3, v95_at x3]
  exact pair_word _ _

/-! ## The latent sample against the prior sample -/

theorem v104_at (r : Fin 8192) :
    val_main_v104 (F := Ideal) x0 x2 x4 x5 x6 x7 x8 x9 x10 x11 (ix1 r) = zeroW + sqn ((zArr PP (arr2 x0) (arr2 x2)) r) := by
  rw [val_main_v104_apply, val_main_cst_23_apply]
  have e : ∀ k : Fin 64, idx_main_v104 (ix1 r) k = ix2 r k := fun k => funext fun a => Fin.ext (by match a with | ⟨0, _⟩ => rfl | ⟨1, _⟩ => rfl)
  simp only [e, val_main_v103_apply, v64_at x0 x2 x4 x5 x6 x7 x8 x9 x10 x11 x12 x13 x14 x15]
  rfl

theorem v107_at (r : Fin 8192) :
    val_main_v107 (F := Ideal) x3 (ix1 r) = zeroW + sqn ((arr2 x3) r) := by
  rw [val_main_v107_apply, val_main_cst_24_apply]
  have e : ∀ k : Fin 64, idx_main_v107 (ix1 r) k = ix2 r k := fun k => funext fun a => Fin.ext (by match a with | ⟨0, _⟩ => rfl | ⟨1, _⟩ => rfl)
  simp only [e, val_main_v106_apply]
  rfl

theorem v112_at (r s : Fin 8192) :
    val_main_v112 (F := Ideal) x0 x2 x3 x4 x5 x6 x7 x8 x9 x10 x11 (ix2 r s) = (zeroW + sqn ((zArr PP (arr2 x0) (arr2 x2)) r)) + (zeroW + sqn ((arr2 x3) s)) := by
  rw [val_main_v112_apply, val_main_v110_apply, val_main_v105_apply, val_main_v111_apply, val_main_v109_apply, val_main_v108_apply]
  have e1 : idx_main_v105 (idx_main_v110 (ix2 r s)) = ix1 r := funext fun a => Fin.ext (by match a with | ⟨0, _⟩ => rfl)
  have e2 : idx_main_v108 (idx_main_v109 (idx_main_v111 (ix2 r s))) = ix1 s := funext fun a => Fin.ext (by match a with | ⟨0, _⟩ => rfl)
  rw [e1, e2, v104_at x0 x2 x4 x5 x6 x7 x8 x9 x10 x11 x12 x13 x14 x15, v107_at x3]
  rfl

theorem v114_at (r s : Fin 8192) :
    val_main_v114 (F := Ideal) x0 x2 x3 x4 x5 x6 x7 x8 x9 x10 x11 (ix2 r s) = dot64 ((zArr PP (arr2 x0) (arr2 x2)) r) ((arr2 x3) s) := by
  rw [val_main_v114_apply]
  have e1 : ∀ k : Fin 64, lidx_main_v114 (ix2 r s) k = ix2 r k := fun k => funext fun a => Fin.ext (by match a with | ⟨0, _⟩ => rfl | ⟨1, _⟩ => rfl)
  have e2 : ∀ k : Fin 64, idx_main_v113 (ridx_main_v114 (ix2 r s) k) = ix2 s k := fun k => funext fun a => Fin.ext (by match a with | ⟨0, _⟩ => rfl | ⟨1, _⟩ => rfl)
  simp only [val_main_v113_apply, e1, e2, v64_at x0 x2 x4 x5 x6 x7 x8 x9 x10 x11 x12 x13 x14 x15]
  rfl

theorem v121_at (r s : Fin 8192) :
    val_main_v121 (F := Ideal) x0 x2 x3 x4 x5 x6 x7 x8 x9 x10 x11 (ix2 r s) = kPairRef ((zArr PP (arr2 x0) (arr2 x2)) r) ((arr2 x3) s) := by
  rw [val_main_v121_apply, val_main_v120_apply, val_main_v119_apply, val_main_cst_26_apply, val_main_v118_apply, val_main_v117_apply, val_main_v116_apply,
    val_main_v115_apply, val_main_cst_25_apply, v112_at x0 x2 x3 x4 x5 x6 x7 x8 x9 x10 x11 x12 x13 x14 x15, v114_at x0 x2 x3 x4 x5 x6 x7 x8 x9 x10 x11 x12 x13 x14 x15]
  exact pair_word _ _

end Cert.RefValue

end
-- ==== Proof.RefValue.lean ====
/-
  The reference's value. Its four float sums over whole arrays, each started from the zero word, are the double
  sums over rows and columns of the entries read in the sibling modules; the last scalar operations put them
  together as the mean squared error plus ten times the sum of the two self kernel means less twice the cross one.
-/
import proofs.«125570_j13228499272255_1_alg».proof.Proof.Spec
import proofs.«125570_j13228499272255_1_alg».proof.Proof.Gen.ReferenceIdeal.Read
import proofs.«125570_j13228499272255_1_alg».proof.Proof.RefValueDec
import proofs.«125570_j13228499272255_1_alg».proof.Proof.RefValuePair
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Read Cert.Spec Idealize.ShloMosaic Idealize.ShloMosaic.ValueIdx

/-- A float sum over all of a rank-2 array, started from the zero word, is the double sum of its entries. -/
theorem total_word {n0 n1 : Nat} (f : (⟨2, ![n0, n1]⟩ : Shape).Idx → EReal) (g : Fin n0 → Fin n1 → EReal)
    (h : ∀ a b, f (ix2 a b) = g a b) :
    FloatOps.ofBits (F := Ideal) .f32 0x00000000#32 + ∑ j, f j = ∑ a, ∑ b, g a b := by
  rw [sum_idx2]
  simp only [h]
  rw [Ideal.ofBits_def, Ideal.ofBits_zero_f32, zero_add]

section Totals

variable (x0 : (⟨S8192x1024, .f32⟩ : BufTy).Contents (Elt Ideal)) (x1 x2 x3 : (⟨S8192x64, .f32⟩ : BufTy).Contents (Elt Ideal))
  (x4 : (⟨S1024x512, .f32⟩ : BufTy).Contents (Elt Ideal)) (x5 : (⟨S512, .f32⟩ : BufTy).Contents (Elt Ideal)) (x6 : (⟨S512x64, .f32⟩ : BufTy).Contents (Elt Ideal)) (x7 : (⟨S64, .f32⟩ : BufTy).Contents (Elt Ideal))
  (x8 : (⟨S1024x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal))
  (x12 : (⟨S64x512, .f32⟩ : BufTy).Contents (Elt Ideal)) (x13 : (⟨S512, .f32⟩ : BufTy).Contents (Elt Ideal)) (x14 : (⟨S512x1024, .f32⟩ : BufTy).Contents (Elt Ideal)) (x15 : (⟨S1024, .f32⟩ : BufTy).Contents (Elt Ideal))

local notation "PP" => paramsOf x4 x5 x6 x7 x8 x9 x10 x11 x12 x13 x14 x15

/-- The sum of the squared errors. -/
theorem v58_at (i : S_.Idx) :
    val_main_v58 (F := Ideal) x0 x1 x4 x5 x6 x7 x8 x9 x10 x11 x12 x13 x14 x15 i
      = ∑ r : Fin 8192, ∑ j : Fin 1024, sqRow PP (arr2 x0 r) (arr2 x1 r) j := by
  rw [val_main_v58_apply, val_main_cst_12_apply]
  exact total_word _ _ (v57_at x0 x1 x4 x5 x6 x7 x8 x9 x10 x11 x12 x13 x14 x15)

/-- The pair sum of the latent sample against itself. -/
theorem v122_at (i : S_.Idx) :
    val_main_v122 (F := Ideal) x0 x2 x4 x5 x6 x7 x8 x9 x10 x11 i
      = ∑ r : Fin 8192, ∑ s : Fin 8192, kPairRef ((zArr PP (arr2 x0) (arr2 x2)) r) ((zArr PP (arr2 x0) (arr2 x2)) s) := by
  rw [val_main_v122_apply, val_main_cst_27_apply]
  exact total_word _ _ (v83_at x0 x2 x4 x5 x6 x7 x8 x9 x10 x11 x12 x13 x14 x15)

/-- The pair sum of the prior sample against itself. -/
theorem v124_at (i : S_.Idx) :
    val_main_v124 (F := Ideal) x3 i = ∑ r : Fin 8192, ∑ s : Fin 8192, kPairRef (arr2 x3 r) (arr2 x3 s) := by
  rw [val_main_v124_apply, val_main_cst_29_apply]
  exact total_word _ _ (v102_at x3)

/-- The pair sum of the latent sample against the prior sample. -/
theorem v127_at (i : S_.Idx) :
    val_main_v127 (F := Ideal) x0 x2 x3 x4 x5 x6 x7 x8 x9 x10 x11 i
      = ∑ r : Fin 8192, ∑ s : Fin 8192, kPairRef ((zArr PP (arr2 x0) (arr2 x2)) r) (arr2 x3 s) := by
  rw [val_main_v127_apply, val_main_cst_31_apply]
  exact total_word _ _ (v121_at x0 x2 x3 x4 x5 x6 x7 x8 x9 x10 x11 x12 x13 x14 x15)

end Totals

open Cert.ReferenceIdeal in
theorem ref_value (x0 : (⟨S8192x1024, .f32⟩ : BufTy).Contents (Elt Ideal)) (x1 x2 x3 : (⟨S8192x64, .f32⟩ : BufTy).Contents (Elt Ideal))
    (x4 : (⟨S1024x512, .f32⟩ : BufTy).Contents (Elt Ideal)) (x5 : (⟨S512, .f32⟩ : BufTy).Contents (Elt Ideal)) (x6 : (⟨S512x64, .f32⟩ : BufTy).Contents (Elt Ideal)) (x7 : (⟨S64, .f32⟩ : BufTy).Contents (Elt Ideal))
    (x8 : (⟨S1024x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal))
    (x12 : (⟨S64x512, .f32⟩ : BufTy).Contents (Elt Ideal)) (x13 : (⟨S512, .f32⟩ : BufTy).Contents (Elt Ideal)) (x14 : (⟨S512x1024, .f32⟩ : BufTy).Contents (Elt Ideal)) (x15 : (⟨S1024, .f32⟩ : BufTy).Contents (Elt Ideal)) :
    Cert.ReferenceIdeal.Read.val_main_v132 (F := Ideal) x0 x1 x2 x3 x4 x5 x6 x7 x8 x9 x10 x11 x12 x13 x14 x15
      = fun _ => Cert.Spec.refTotal (Cert.Spec.paramsOf x4 x5 x6 x7 x8 x9 x10 x11 x12 x13 x14 x15) (Cert.Spec.arr2 x0) (Cert.Spec.arr2 x1) (Cert.Spec.arr2 x2) (Cert.Spec.arr2 x3) := by
  funext i
  rw [val_main_v132_apply, val_main_v59_apply, val_main_cst_13_apply, val_main_v131_apply, val_main_cst_34_apply,
    val_main_v130_apply, val_main_v126_apply, val_main_v123_apply, val_main_cst_28_apply, val_main_v125_apply,
    val_main_cst_30_apply, val_main_v129_apply, val_main_cst_33_apply, val_main_v128_apply, val_main_cst_32_apply,
    v58_at x0 x1 x4 x5 x6 x7 x8 x9 x10 x11 x12 x13 x14 x15, v122_at x0 x2 x4 x5 x6 x7 x8 x9 x10 x11 x12 x13 x14 x15, v124_at x3, v127_at x0 x2 x3 x4 x5 x6 x7 x8 x9 x10 x11 x12 x13 x14 x15]
  rfl

end Cert.RefValue

end
-- ==== Proof.lean ====
/-
  The certificate of the InfoVAE loss kernel against its reference.

  Both kernel programs (the printed one, read at bit patterns, and its idealization, read at extended reals) are
  the same text: region 0 (sixteen 512-row tiles through the encoder and decoder, leaving the latent sample z and
  the accumulated squared error), three host operations, region 1 (the 16 x 16 tile pairs of the pairwise kernel
  sums over z and z_prior, whose two pairs of windows share an array), six host operations. Their frames are one
  run of the four segments, written once for any float instance: each region's proof data states what every
  window's buffer holds after the body at every point (the accumulators by recursion on the point), each body is
  run once per control case, and the launch theorem for a program of several regions threads the buffers'
  contents through the segments. The reference's frame is its run.

  The algebraic claim: the idealized kernel's result is Spec.kernelTotal of the argument arrays (tile sums), the
  reference's is Spec.refTotal (whole sums, the quotient by 4096 where the kernel multiplies by 2^-12, each mean
  divided before the combination), and the two agree on the extended reals for any arrays whatever
  (Law.total_eq): sums regroup freely, and the one subtraction only ever meets sums of exponentials.
-/
import proofs.«125570_j13228499272255_1_alg».proof.Defs
import proofs.«125570_j13228499272255_1_alg».proof.Proof.Gen.Kernel
import proofs.«125570_j13228499272255_1_alg».proof.Proof.Gen.KernelIdeal
import proofs.«125570_j13228499272255_1_alg».proof.Proof.Gen.ReferenceIdeal
import proofs.«125570_j13228499272255_1_alg».proof.Proof.Gen.Pre_finite_inputs
import proofs.«125570_j13228499272255_1_alg».proof.Proof.Gen.ReferenceIdeal.Run
import proofs.«125570_j13228499272255_1_alg».proof.Proof.Gen.ReferenceIdeal.Read
import proofs.«125570_j13228499272255_1_alg».proof.Proof.K.Run
import proofs.«125570_j13228499272255_1_alg».proof.Proof.K.Body0
import proofs.«125570_j13228499272255_1_alg».proof.Proof.K.Body1
import proofs.«125570_j13228499272255_1_alg».proof.Proof.KI.Run
import proofs.«125570_j13228499272255_1_alg».proof.Proof.KI.Body0
import proofs.«125570_j13228499272255_1_alg».proof.Proof.KI.Body1
import proofs.«125570_j13228499272255_1_alg».proof.Proof.KI.KFinal
import proofs.«125570_j13228499272255_1_alg».proof.Proof.RefValue
import proofs.«125570_j13228499272255_1_alg».proof.Proof.Law
import Idealize.ShloMosaic.Adequacy
import Idealize.ShloMosaic.Init

noncomputable section

namespace Cert.Proof

open Idealize.ShloMosaic Idealize.SL.Sem

/-- The printed kernel runs and leaves its arguments as launched. -/
theorem frame_k : Cert.frame_Kernel := fun m ρ _ =>
  (θ_run (Cert.Kernel.defs (F := Bits)) _ _).mono
    (fun _ h c => ⟨(h c _ (Cert.Kernel.Hand.mem_uc Cert.Kernel.main_arg0 (by decide))).trans (Cert.Kernel.Hand.W4_main_arg0 m ρ c),
      (h c _ (Cert.Kernel.Hand.mem_uc Cert.Kernel.main_arg1 (by decide))).trans (Cert.Kernel.Hand.W4_main_arg1 m ρ c),
      (h c _ (Cert.Kernel.Hand.mem_uc Cert.Kernel.main_arg2 (by decide))).trans (Cert.Kernel.Hand.W4_main_arg2 m ρ c),
      (h c _ (Cert.Kernel.Hand.mem_uc Cert.Kernel.main_arg3 (by decide))).trans (Cert.Kernel.Hand.W4_main_arg3 m ρ c),
      (h c _ (Cert.Kernel.Hand.mem_uc Cert.Kernel.main_arg4 (by decide))).trans (Cert.Kernel.Hand.W4_main_arg4 m ρ c),
      (h c _ (Cert.Kernel.Hand.mem_uc Cert.Kernel.main_arg5 (by decide))).trans (Cert.Kernel.Hand.W4_main_arg5 m ρ c),
      (h c _ (Cert.Kernel.Hand.mem_uc Cert.Kernel.main_arg6 (by decide))).trans (Cert.Kernel.Hand.W4_main_arg6 m ρ c),
      (h c _ (Cert.Kernel.Hand.mem_uc Cert.Kernel.main_arg7 (by decide))).trans (Cert.Kernel.Hand.W4_main_arg7 m ρ c),
      (h c _ (Cert.Kernel.Hand.mem_uc Cert.Kernel.main_arg8 (by decide))).trans (Cert.Kernel.Hand.W4_main_arg8 m ρ c),
      (h c _ (Cert.Kernel.Hand.mem_uc Cert.Kernel.main_arg9 (by decide))).trans (Cert.Kernel.Hand.W4_main_arg9 m ρ c),
      (h c _ (Cert.Kernel.Hand.mem_uc Cert.Kernel.main_arg10 (by decide))).trans (Cert.Kernel.Hand.W4_main_arg10 m ρ c),
      (h c _ (Cert.Kernel.Hand.mem_uc Cert.Kernel.main_arg11 (by decide))).trans (Cert.Kernel.Hand.W4_main_arg11 m ρ c),
      (h c _ (Cert.Kernel.Hand.mem_uc Cert.Kernel.main_arg12 (by decide))).trans (Cert.Kernel.Hand.W4_main_arg12 m ρ c),
      (h c _ (Cert.Kernel.Hand.mem_uc Cert.Kernel.main_arg13 (by decide))).trans (Cert.Kernel.Hand.W4_main_arg13 m ρ c),
      (h c _ (Cert.Kernel.Hand.mem_uc Cert.Kernel.main_arg14 (by decide))).trans (Cert.Kernel.Hand.W4_main_arg14 m ρ c),
      (h c _ (Cert.Kernel.Hand.mem_uc Cert.Kernel.main_arg15 (by decide))).trans (Cert.Kernel.Hand.W4_main_arg15 m ρ c)⟩)
    (Cert.Kernel.Hand.run_all (F := Bits) m ρ (fun c => Cert.Kernel.Hand.body_obligation0 _ c)
      (fun c => Cert.Kernel.Hand.body_obligation1 _ c))

/-- So does its idealization. -/
theorem frame_ki : Cert.frame_KernelIdeal := fun m ρ _ =>
  (θ_run (Cert.KernelIdeal.defs (F := Ideal)) _ _).mono
    (fun _ h c => ⟨(h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c),
      (h c _ (Cert.KernelIdeal.Hand.mem_uc Cert.KernelIdeal.main_arg9 (by decide))).trans (Cert.KernelIdeal.Hand.W4_main_arg9 m ρ c),
      (h c _ (Cert.KernelIdeal.Hand.mem_uc Cert.KernelIdeal.main_arg10 (by decide))).trans (Cert.KernelIdeal.Hand.W4_main_arg10 m ρ c),
      (h c _ (Cert.KernelIdeal.Hand.mem_uc Cert.KernelIdeal.main_arg11 (by decide))).trans (Cert.KernelIdeal.Hand.W4_main_arg11 m ρ c),
      (h c _ (Cert.KernelIdeal.Hand.mem_uc Cert.KernelIdeal.main_arg12 (by decide))).trans (Cert.KernelIdeal.Hand.W4_main_arg12 m ρ c),
      (h c _ (Cert.KernelIdeal.Hand.mem_uc Cert.KernelIdeal.main_arg13 (by decide))).trans (Cert.KernelIdeal.Hand.W4_main_arg13 m ρ c),
      (h c _ (Cert.KernelIdeal.Hand.mem_uc Cert.KernelIdeal.main_arg14 (by decide))).trans (Cert.KernelIdeal.Hand.W4_main_arg14 m ρ c),
      (h c _ (Cert.KernelIdeal.Hand.mem_uc Cert.KernelIdeal.main_arg15 (by decide))).trans (Cert.KernelIdeal.Hand.W4_main_arg15 m ρ c)⟩)
    (Cert.KernelIdeal.Hand.run_all (F := Ideal) m ρ (fun c => Cert.KernelIdeal.Hand.body_obligation0 _ c)
      (fun c => Cert.KernelIdeal.Hand.body_obligation1 _ c))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the loss of the argument arrays: the kernel's tile arrangement and the
    reference's whole-array arrangement of it agree. -/
theorem algebraic : Cert.algebraic_KernelIdeal_ReferenceIdeal := by
  intro m ρ m' ρ' _ hagree
  refine ⟨fun c => fun _ => Cert.Spec.kernelTotal (Cert.KernelIdeal.Hand.PP (Cert.KernelIdeal.Hand.V0 m ρ) c)
      (Cert.Spec.arr2 (Cert.KernelIdeal.Hand.V0 m ρ c Cert.KernelIdeal.main_arg0))
      (Cert.Spec.arr2 (Cert.KernelIdeal.Hand.V0 m ρ c Cert.KernelIdeal.main_arg1))
      (Cert.Spec.arr2 (Cert.KernelIdeal.Hand.V0 m ρ c Cert.KernelIdeal.main_arg2))
      (Cert.Spec.arr2 (Cert.KernelIdeal.Hand.V0 m ρ c Cert.KernelIdeal.main_arg3)), ?_, ?_⟩
  · exact (θ_run (Cert.KernelIdeal.defs (F := Ideal)) _ _).mono
      (fun _ h c => ⟨(h c _ (Cert.KernelIdeal.Hand.mem_uc Cert.KernelIdeal.main_v7 (by decide))).trans
          (Cert.KernelIdeal.Hand.kernel_value m ρ c),
        (h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c),
        (h c _ (Cert.KernelIdeal.Hand.mem_uc Cert.KernelIdeal.main_arg5 (by decide))).trans (Cert.KernelIdeal.Hand.W4_main_arg5 m ρ c),
        (h c _ (Cert.KernelIdeal.Hand.mem_uc Cert.KernelIdeal.main_arg6 (by decide))).trans (Cert.KernelIdeal.Hand.W4_main_arg6 m ρ c),
        (h c _ (Cert.KernelIdeal.Hand.mem_uc Cert.KernelIdeal.main_arg7 (by decide))).trans (Cert.KernelIdeal.Hand.W4_main_arg7 m ρ c),
        (h c _ (Cert.KernelIdeal.Hand.mem_uc Cert.KernelIdeal.main_arg8 (by decide))).trans (Cert.KernelIdeal.Hand.W4_main_arg8 m ρ c),
        (h c _ (Cert.KernelIdeal.Hand.mem_uc Cert.KernelIdeal.main_arg9 (by decide))).trans (Cert.KernelIdeal.Hand.W4_main_arg9 m ρ c),
        (h c _ (Cert.KernelIdeal.Hand.mem_uc Cert.KernelIdeal.main_arg10 (by decide))).trans (Cert.KernelIdeal.Hand.W4_main_arg10 m ρ c),
        (h c _ (Cert.KernelIdeal.Hand.mem_uc Cert.KernelIdeal.main_arg11 (by decide))).trans (Cert.KernelIdeal.Hand.W4_main_arg11 m ρ c),
        (h c _ (Cert.KernelIdeal.Hand.mem_uc Cert.KernelIdeal.main_arg12 (by decide))).trans (Cert.KernelIdeal.Hand.W4_main_arg12 m ρ c),
        (h c _ (Cert.KernelIdeal.Hand.mem_uc Cert.KernelIdeal.main_arg13 (by decide))).trans (Cert.KernelIdeal.Hand.W4_main_arg13 m ρ c),
        (h c _ (Cert.KernelIdeal.Hand.mem_uc Cert.KernelIdeal.main_arg14 (by decide))).trans (Cert.KernelIdeal.Hand.W4_main_arg14 m ρ c),
        (h c _ (Cert.KernelIdeal.Hand.mem_uc Cert.KernelIdeal.main_arg15 (by decide))).trans (Cert.KernelIdeal.Hand.W4_main_arg15 m ρ c)⟩)
      (Cert.KernelIdeal.Hand.run_all (F := Ideal) m ρ (fun c => Cert.KernelIdeal.Hand.body_obligation0 _ c)
        (fun c => Cert.KernelIdeal.Hand.body_obligation1 _ c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v132_eq, Cert.RefValue.ref_value,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2.1, (hagree c).2.2.2.2.2.2.2.2.2.2.2.2.2.2.1, (hagree c).2.2.2.2.2.2.2.2.2.2.2.2.2.2.2]
    funext _
    exact (Cert.Law.total_eq _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
